-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S26x100001x64 : Shape := ⟨3, ![26, 100001, 64]⟩
abbrev S_ : Shape := ⟨0, ![]⟩

class Facts : Prop where
  bcast_S_S26x100001x64 : S_.BroadcastsInDim S26x100001x64 (![] : Fin 0 → Fin S26x100001x64.rank)
  reducesTo_S26x100001x64_S_d0_1_2 : S26x100001x64.ReducesTo [0, 1, 2] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S26x100001x64 .f32) : IVec S_ 1 :=
  let main_v0 : FVec F S26x100001x64 .f32 := Host.absf main_arg1
  let main_cst : FVec F S_ .f32 := constant S_ .f32 0x7F800000#32
  let main_v1 : FVec F S26x100001x64 .f32 := broadcastInDim S26x100001x64 ![] bcast_S_S26x100001x64 main_cst
  let main_v2 : IVec S26x100001x64 1 := cmpf .olt main_v0 main_v1
  let main_c : IVec S_ 1 := constantI S_ 1 1#1
  let main_v3 : IVec S_ 1 := (fun x v => Host.reduce IntOp.andi x v reducesTo_S26x100001x64_S_d0_1_2 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S26x100001x64 : Shape := ⟨3, ![26, 100001, 64]⟩
abbrev S26x64x100001 : Shape := ⟨3, ![26, 64, 100001]⟩
abbrev S1664x100001 : Shape := ⟨2, ![1664, 100001]⟩
abbrev S26x4096 : Shape := ⟨2, ![26, 4096]⟩
abbrev S106496 : Shape := ⟨1, ![106496]⟩
abbrev S1664x4096 : Shape := ⟨2, ![1664, 4096]⟩
abbrev S1x100001 : Shape := ⟨2, ![1, 100001]⟩
abbrev S4096 : Shape := ⟨1, ![4096]⟩
abbrev S1x4096 : Shape := ⟨2, ![1, 4096]⟩
abbrev S_ : Shape := ⟨0, ![]⟩
abbrev S16 : Shape := ⟨1, ![16]⟩
abbrev S1x16 : Shape := ⟨2, ![1, 16]⟩
abbrev S26x64x4096 : Shape := ⟨3, ![26, 64, 4096]⟩
abbrev S4096x26x64 : Shape := ⟨3, ![4096, 26, 64]⟩

abbrev nBuf : Table → Nat
  | .hbm => 9
  | .local .scVector .vmem => 3
  | _ => 0

abbrev bufTy : (tb : Table) → Fin (nBuf tb) → BufTy
  | .hbm, ⟨0, _⟩ => ⟨S4096x26, .i32⟩
  | .hbm, ⟨1, _⟩ => ⟨S26x100001x64, .f32⟩
  | .hbm, ⟨2, _⟩ => ⟨S26x64x100001, .f32⟩
  | .hbm, ⟨3, _⟩ => ⟨S1664x100001, .f32⟩
  | .hbm, ⟨4, _⟩ => ⟨S26x4096, .i32⟩
  | .hbm, ⟨5, _⟩ => ⟨S106496, .i32⟩
  | .hbm, ⟨6, _⟩ => ⟨S1664x4096, .f32⟩
  | .hbm, ⟨7, _⟩ => ⟨S26x64x4096, .f32⟩
  | .hbm, ⟨8, _⟩ => ⟨S4096x26x64, .f32⟩
  | .local .scVector .vmem, ⟨0, _⟩ => ⟨S1x100001, .f32⟩
  | .local .scVector .vmem, ⟨1, _⟩ => ⟨S4096, .i32⟩
  | .local .scVector .vmem, ⟨2, _⟩ => ⟨S1x4096, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c52_i32 : BitVec 32 := 52#32
  let v2 : BitVec 32 := Scalar.addi c0_i32 c52_i32
  let c1_i32 : BitVec 32 := 1#32
  ⟨c0_i32, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.muli arg8 c1_i32_1
  let v4 : BitVec 32 := Scalar.addi c0_i32_2 v3
  let v5 : BitVec 32 := Scalar.muli c32_i32 v4
  let v6 : BitVec 32 := Scalar.addi v1 v5
  let c0_i32_13_r0 : BitVec 32 := 0#32
  ![v6.toNat, 0]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.muli arg8 c1_i32_1
  let v4 : BitVec 32 := Scalar.addi c0_i32_2 v3
  let v5 : BitVec 32 := Scalar.muli c32_i32 v4
  let v6 : BitVec 32 := Scalar.addi v1 v5
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c64_i32 : BitVec 32 := 64#32
  let c0_i32_5 : BitVec 32 := 0#32
  let v13 : BitVec 1 := Scalar.cmpi .sgt c64_i32 c0_i32_5
  let v14 : BitVec 32 := Scalar.extui v13
  let c0_i32_6 : BitVec 32 := 0#32
  let v15 : BitVec 1 := Scalar.cmpi .slt c64_i32 c0_i32_6
  let v16 : BitVec 32 := Scalar.extui v15
  let v17 : BitVec 32 := Scalar.subi v14 v16
  let v18 : BitVec 1 := Scalar.cmpi .ne v12 v17
  let v19 : BitVec 32 := Scalar.remsi v6 c64_i32
  let c0_i32_7 : BitVec 32 := 0#32
  let v20 : BitVec 1 := Scalar.cmpi .ne v19 c0_i32_7
  let v21 : BitVec 1 := Scalar.andi v18 v20
  let v7 : BitVec 32 := Scalar.divsi v6 c64_i32
  let c1_i32_8 : BitVec 32 := 1#32
  let v22 : BitVec 32 := Scalar.subi v7 c1_i32_8
  let v23 : BitVec 32 := Scalar.select v21 v22 v7
  let c4096_i32 : BitVec 32 := 4096#32
  let v24 : BitVec 32 := Scalar.muli v23 c4096_i32
  ![v24.toNat]
@[reducible] def k0_t2_loop : Scf.Loop 32 :=
  let c0_i32_10 : BitVec 32 := 0#32
  let c256_i32 : BitVec 32 := 256#32
  let v28 : BitVec 32 := Scalar.addi c0_i32_10 c256_i32
  let c1_i32_11 : BitVec 32 := 1#32
  ⟨c0_i32_10, v28, c1_i32_11⟩
def k0_off3 (k0_t2 : Fin k0_t2_loop.trips) : Fin 1 → Nat :=
  let c0_i32_14 : BitVec 32 := 0#32
  let c0_i32_10 : BitVec 32 := 0#32
  let c1_i32_11 : BitVec 32 := 1#32
  let arg9 : BitVec 32 := Scf.iv c0_i32_10 c1_i32_11 k0_t2
  let c1_i32_13 : BitVec 32 := 1#32
  let v29 : BitVec 32 := Scalar.muli arg9 c1_i32_13
  let v30 : BitVec 32 := Scalar.addi c0_i32_14 v29
  let c16_i32 : BitVec 32 := 16#32
  let v31 : BitVec 32 := Scalar.muli v30 c16_i32
  let v32 : Index := Scalar.indexCast v31
  ![v32.toNat]

def k0_chk1 (v27 : IVec S16 32) (v33 : IVec S16 32) : Prop :=
  (∀ a x, ((![v27, v33] : Fin 2 → IVec S16 32) a x).toNat < S1x100001.size a)
instance k0_chk1.dec : ∀ (v27 : IVec S16 32) (v33 : IVec S16 32), Decidable (k0_chk1 v27 v33) := fun v27 v33 => decidable_of_iff' _ (Iff.of_eq (k0_chk1.eq_1 v27 v33))
theorem k0_idx1_inb : ∀ (v27 : IVec S16 32) (v33 : IVec S16 32) (k0_hw1 : k0_chk1 v27 v33), ∀ a x, ((![v27, v33] : Fin 2 → IVec S16 32) a x).toNat < S1x100001.size a := fun v27 v33 k0_hw1 => k0_hw1
def k0_off4 (k0_t2 : Fin k0_t2_loop.trips) : Fin 2 → Nat :=
  let c0_i32_16 : BitVec 32 := 0#32
  let v36 : Index := Scalar.indexCast c0_i32_16
  let c0_i32_14 : BitVec 32 := 0#32
  let c0_i32_10 : BitVec 32 := 0#32
  let c1_i32_11 : BitVec 32 := 1#32
  let arg9 : BitVec 32 := Scf.iv c0_i32_10 c1_i32_11 k0_t2
  let c1_i32_13 : BitVec 32 := 1#32
  let v29 : BitVec 32 := Scalar.muli arg9 c1_i32_13
  let v30 : BitVec 32 := Scalar.addi c0_i32_14 v29
  let c16_i32_15 : BitVec 32 := 16#32
  let v35 : BitVec 32 := Scalar.muli v30 c16_i32_15
  let v37 : Index := Scalar.indexCast v35
  ![0, v37.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.muli arg8 c1_i32_1
  let v4 : BitVec 32 := Scalar.addi c0_i32_2 v3
  let v5 : BitVec 32 := Scalar.muli c32_i32 v4
  let v6 : BitVec 32 := Scalar.addi v1 v5
  let c0_i32_13_r2 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S26x100001x64_S26x64x100001_0_2_1 : S26x100001x64.Transposes [0, 2, 1] S26x64x100001
  shapeCasts_S26x64x100001_S1664x100001 : S26x64x100001.ShapeCasts S1664x100001
  transposes_S4096x26_S26x4096_1_0 : S4096x26.Transposes [1, 0] S26x4096
  shapeCasts_S26x4096_S106496 : S26x4096.ShapeCasts S106496
  iota_S16_d0_w32_scVector : S16.Iotas .scVector 32 [0]
  h_S16 : 0 < S16.numel
  h_S1x100001 : 0 < S1x100001.numel
  h_S1x16 : 0 < S1x16.numel
  shapeCasts_S1x16_S16 : S1x16.ShapeCasts S16
  shapeCasts_S16_S1x16 : S16.ShapeCasts S1x16
  shapeCasts_S1664x4096_S26x64x4096 : S1664x4096.ShapeCasts S26x64x4096
  transposes_S26x64x4096_S4096x26x64_2_0_1 : S26x64x4096.Transposes [2, 0, 1] S4096x26x64
  hcc0_scoped0 : 0 + S_.numel ≤ 3
  hcc0_scoped1 : 1 + S_.numel ≤ 3
  hcc0_scoped2 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x100001.size a ≤ S1664x100001.size a
  k0_off2_inb : ∀ (i : grid0.Coords) (k0_t1 : Fin k0_t1_loop.trips), ∀ a, (k0_off2 i k0_t1) a + S4096.size a ≤ S106496.size a
  k0_t2_ok : k0_t2_loop.OK
  k0_off3_inb : ∀ k0_t2 : Fin k0_t2_loop.trips, ∀ a, (k0_off3 k0_t2) a + S16.size a ≤ S4096.size a
  k0_off4_inb : ∀ k0_t2 : Fin k0_t2_loop.trips, ∀ a, (k0_off4 k0_t2) a + S1x16.size a ≤ S1x4096.size a
  k0_off5_inb : ∀ (i : grid0.Coords) (k0_t1 : Fin k0_t1_loop.trips), ∀ a, (k0_off5 i k0_t1) a + S1x4096.size a ≤ S1664x4096.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

class Facts : Prop extends Facts₀ where

variable [Facts]
-- ==== ReferenceIdeal.lean ====
abbrev S4096x26 : Shape := ⟨2, ![4096, 26]⟩
abbrev S26x100001x64 : Shape := ⟨3, ![26, 100001, 64]⟩
abbrev S1x100001x64 : Shape := ⟨3, ![1, 100001, 64]⟩
abbrev S100001x64 : Shape := ⟨2, ![100001, 64]⟩
abbrev S4096x1 : Shape := ⟨2, ![4096, 1]⟩
abbrev S4096 : Shape := ⟨1, ![4096]⟩
abbrev S_ : Shape := ⟨0, ![]⟩
abbrev S4096x64 : Shape := ⟨2, ![4096, 64]⟩
abbrev S4096x1x64 : Shape := ⟨3, ![4096, 1, 64]⟩
abbrev S4096x16x64 : Shape := ⟨3, ![4096, 16, 64]⟩
abbrev S4096x10x64 : Shape := ⟨3, ![4096, 10, 64]⟩
abbrev S4096x26x64 : Shape := ⟨3, ![4096, 26, 64]⟩

abbrev nBuf : Space → Nat
  | .hbm => 369
  | .vmem => 0
  | .smem => 0
  | _ => 0

abbrev hbmTy0_0 (i : Nat) : BufTy := match i % 128 with
  | 0 => ⟨S4096x26, .i32⟩
  | 1 => ⟨S26x100001x64, .f32⟩
  | 2 => ⟨S1x100001x64, .f32⟩
  | 3 => ⟨S100001x64, .f32⟩
  | 4 => ⟨S4096x1, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x64, .f32⟩
  | 15 => ⟨S1x100001x64, .f32⟩
  | 16 => ⟨S100001x64, .f32⟩
  | 17 => ⟨S4096x1, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x64, .f32⟩
  | 28 => ⟨S1x100001x64, .f32⟩
  | 29 => ⟨S100001x64, .f32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S1x100001x64, .f32⟩
  | 42 => ⟨S100001x64, .f32⟩
  | 43 => ⟨S4096x1, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S4096x64, .f32⟩
  | 54 => ⟨S1x100001x64, .f32⟩
  | 55 => ⟨S100001x64, .f32⟩
  | 56 => ⟨S4096x1, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096x64, .f32⟩
  | 67 => ⟨S1x100001x64, .f32⟩
  | 68 => ⟨S100001x64, .f32⟩
  | 69 => ⟨S4096x1, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x64, .f32⟩
  | 80 => ⟨S1x100001x64, .f32⟩
  | 81 => ⟨S100001x64, .f32⟩
  | 82 => ⟨S4096x1, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S4096x64, .f32⟩
  | 93 => ⟨S1x100001x64, .f32⟩
  | 94 => ⟨S100001x64, .f32⟩
  | 95 => ⟨S4096x1, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S4096x64, .f32⟩
  | 106 => ⟨S1x100001x64, .f32⟩
  | 107 => ⟨S100001x64, .f32⟩
  | 108 => ⟨S4096x1, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x64, .f32⟩
  | 119 => ⟨S1x100001x64, .f32⟩
  | 120 => ⟨S100001x64, .f32⟩
  | 121 => ⟨S4096x1, .i32⟩
  | 122 => ⟨S4096, .i32⟩
  | 123 => ⟨S_, .i32⟩
  | 124 => ⟨S4096, .i32⟩
  | 125 => ⟨S4096, .i1⟩
  | 126 => ⟨S_, .i32⟩
  | 127 => ⟨S4096, .i32⟩
  | _ => ⟨S4096x26, .i32⟩

abbrev hbmTy0_1 (i : Nat) : BufTy := match i % 128 with
  | 0 => ⟨S4096, .i32⟩
  | 1 => ⟨S4096, .i32⟩
  | 2 => ⟨S4096x1, .i32⟩
  | 3 => ⟨S4096x64, .f32⟩
  | 4 => ⟨S1x100001x64, .f32⟩
  | 5 => ⟨S100001x64, .f32⟩
  | 6 => ⟨S4096x1, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x64, .f32⟩
  | 17 => ⟨S1x100001x64, .f32⟩
  | 18 => ⟨S100001x64, .f32⟩
  | 19 => ⟨S4096x1, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x64, .f32⟩
  | 30 => ⟨S1x100001x64, .f32⟩
  | 31 => ⟨S100001x64, .f32⟩
  | 32 => ⟨S4096x1, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096x64, .f32⟩
  | 43 => ⟨S1x100001x64, .f32⟩
  | 44 => ⟨S100001x64, .f32⟩
  | 45 => ⟨S4096x1, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x64, .f32⟩
  | 56 => ⟨S1x100001x64, .f32⟩
  | 57 => ⟨S100001x64, .f32⟩
  | 58 => ⟨S4096x1, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x64, .f32⟩
  | 69 => ⟨S1x100001x64, .f32⟩
  | 70 => ⟨S100001x64, .f32⟩
  | 71 => ⟨S4096x1, .i32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S4096x64, .f32⟩
  | 82 => ⟨S1x100001x64, .f32⟩
  | 83 => ⟨S100001x64, .f32⟩
  | 84 => ⟨S4096x1, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4096x64, .f32⟩
  | 95 => ⟨S1x100001x64, .f32⟩
  | 96 => ⟨S100001x64, .f32⟩
  | 97 => ⟨S4096x1, .i32⟩
  | 98 => ⟨S4096, .i32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x64, .f32⟩
  | 108 => ⟨S1x100001x64, .f32⟩
  | 109 => ⟨S100001x64, .f32⟩
  | 110 => ⟨S4096x1, .i32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x64, .f32⟩
  | 121 => ⟨S1x100001x64, .f32⟩
  | 122 => ⟨S100001x64, .f32⟩
  | 123 => ⟨S4096x1, .i32⟩
  | 124 => ⟨S4096, .i32⟩
  | 125 => ⟨S_, .i32⟩
  | 126 => ⟨S4096, .i32⟩
  | 127 => ⟨S4096, .i1⟩
  | _ => ⟨S4096x26, .i32⟩

abbrev hbmTy0_2 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x64, .f32⟩
  | 6 => ⟨S1x100001x64, .f32⟩
  | 7 => ⟨S100001x64, .f32⟩
  | 8 => ⟨S4096x1, .i32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x64, .f32⟩
  | 19 => ⟨S1x100001x64, .f32⟩
  | 20 => ⟨S100001x64, .f32⟩
  | 21 => ⟨S4096x1, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x64, .f32⟩
  | 32 => ⟨S1x100001x64, .f32⟩
  | 33 => ⟨S100001x64, .f32⟩
  | 34 => ⟨S4096x1, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x64, .f32⟩
  | 45 => ⟨S1x100001x64, .f32⟩
  | 46 => ⟨S100001x64, .f32⟩
  | 47 => ⟨S4096x1, .i32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x64, .f32⟩
  | 58 => ⟨S1x100001x64, .f32⟩
  | 59 => ⟨S100001x64, .f32⟩
  | 60 => ⟨S4096x1, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x64, .f32⟩
  | 71 => ⟨S1x100001x64, .f32⟩
  | 72 => ⟨S100001x64, .f32⟩
  | 73 => ⟨S4096x1, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4096x64, .f32⟩
  | 84 => ⟨S4096x1x64, .f32⟩
  | 85 => ⟨S4096x1x64, .f32⟩
  | 86 => ⟨S4096x1x64, .f32⟩
  | 87 => ⟨S4096x1x64, .f32⟩
  | 88 => ⟨S4096x1x64, .f32⟩
  | 89 => ⟨S4096x1x64, .f32⟩
  | 90 => ⟨S4096x1x64, .f32⟩
  | 91 => ⟨S4096x1x64, .f32⟩
  | 92 => ⟨S4096x1x64, .f32⟩
  | 93 => ⟨S4096x1x64, .f32⟩
  | 94 => ⟨S4096x1x64, .f32⟩
  | 95 => ⟨S4096x1x64, .f32⟩
  | 96 => ⟨S4096x1x64, .f32⟩
  | 97 => ⟨S4096x1x64, .f32⟩
  | 98 => ⟨S4096x1x64, .f32⟩
  | 99 => ⟨S4096x1x64, .f32⟩
  | 100 => ⟨S4096x1x64, .f32⟩
  | 101 => ⟨S4096x1x64, .f32⟩
  | 102 => ⟨S4096x1x64, .f32⟩
  | 103 => ⟨S4096x1x64, .f32⟩
  | 104 => ⟨S4096x1x64, .f32⟩
  | 105 => ⟨S4096x1x64, .f32⟩
  | 106 => ⟨S4096x1x64, .f32⟩
  | 107 => ⟨S4096x1x64, .f32⟩
  | 108 => ⟨S4096x1x64, .f32⟩
  | 109 => ⟨S4096x1x64, .f32⟩
  | 110 => ⟨S4096x16x64, .f32⟩
  | 111 => ⟨S4096x10x64, .f32⟩
  | 112 => ⟨S4096x26x64, .f32⟩
  | _ => ⟨S4096x26, .i32⟩

abbrev hbmTy (i : Nat) : BufTy := match i / 128 with
  | 0 => hbmTy0_0 i
  | 1 => hbmTy0_1 i
  | 2 => hbmTy0_2 i
  | _ => ⟨S4096x26, .i32⟩

abbrev bufTy : (tb : Table) → Fin (tcTables nBuf tb) → BufTy
  | .hbm, ⟨i, _⟩ => hbmTy i
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_c_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_7 : Ref sig .tc := ⟨.hbm, 58, rfl⟩
abbrev main_v48 : Ref sig .tc := ⟨.hbm, 59, rfl⟩
abbrev main_v49 : Ref sig .tc := ⟨.hbm, 60, rfl⟩
abbrev main_c_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_9 : Ref sig .tc := ⟨.hbm, 71, rfl⟩
abbrev main_v59 : Ref sig .tc := ⟨.hbm, 72, rfl⟩
abbrev main_v60 : Ref sig .tc := ⟨.hbm, 73, rfl⟩
abbrev main_c_10 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_c_11 : Ref sig .tc := ⟨.hbm, 84, rfl⟩
abbrev main_v70 : Ref sig .tc := ⟨.hbm, 85, rfl⟩
abbrev main_v71 : Ref sig .tc := ⟨.hbm, 86, rfl⟩
abbrev main_c_12 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_13 : Ref sig .tc := ⟨.hbm, 97, rfl⟩
abbrev main_v81 : Ref sig .tc := ⟨.hbm, 98, rfl⟩
abbrev main_v82 : Ref sig .tc := ⟨.hbm, 99, rfl⟩
abbrev main_c_14 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_15 : Ref sig .tc := ⟨.hbm, 110, rfl⟩
abbrev main_v92 : Ref sig .tc := ⟨.hbm, 111, rfl⟩
abbrev main_v93 : Ref sig .tc := ⟨.hbm, 112, rfl⟩
abbrev main_c_16 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_17 : Ref sig .tc := ⟨.hbm, 123, rfl⟩
abbrev main_v103 : Ref sig .tc := ⟨.hbm, 124, rfl⟩
abbrev main_v104 : Ref sig .tc := ⟨.hbm, 125, rfl⟩
abbrev main_c_18 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_c_19 : Ref sig .tc := ⟨.hbm, 136, rfl⟩
abbrev main_v114 : Ref sig .tc := ⟨.hbm, 137, rfl⟩
abbrev main_v115 : Ref sig .tc := ⟨.hbm, 138, rfl⟩
abbrev main_c_20 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_c_21 : Ref sig .tc := ⟨.hbm, 149, rfl⟩
abbrev main_v125 : Ref sig .tc := ⟨.hbm, 150, rfl⟩
abbrev main_v126 : Ref sig .tc := ⟨.hbm, 151, rfl⟩
abbrev main_c_22 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c_23 : Ref sig .tc := ⟨.hbm, 162, rfl⟩
abbrev main_v136 : Ref sig .tc := ⟨.hbm, 163, rfl⟩
abbrev main_v137 : Ref sig .tc := ⟨.hbm, 164, rfl⟩
abbrev main_c_24 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_c_25 : Ref sig .tc := ⟨.hbm, 175, rfl⟩
abbrev main_v147 : Ref sig .tc := ⟨.hbm, 176, rfl⟩
abbrev main_v148 : Ref sig .tc := ⟨.hbm, 177, rfl⟩
abbrev main_c_26 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_c_27 : Ref sig .tc := ⟨.hbm, 188, rfl⟩
abbrev main_v158 : Ref sig .tc := ⟨.hbm, 189, rfl⟩
abbrev main_v159 : Ref sig .tc := ⟨.hbm, 190, rfl⟩
abbrev main_c_28 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_29 : Ref sig .tc := ⟨.hbm, 201, rfl⟩
abbrev main_v169 : Ref sig .tc := ⟨.hbm, 202, rfl⟩
abbrev main_v170 : Ref sig .tc := ⟨.hbm, 203, rfl⟩
abbrev main_c_30 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_c_31 : Ref sig .tc := ⟨.hbm, 214, rfl⟩
abbrev main_v180 : Ref sig .tc := ⟨.hbm, 215, rfl⟩
abbrev main_v181 : Ref sig .tc := ⟨.hbm, 216, rfl⟩
abbrev main_c_32 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_c_33 : Ref sig .tc := ⟨.hbm, 227, rfl⟩
abbrev main_v191 : Ref sig .tc := ⟨.hbm, 228, rfl⟩
abbrev main_v192 : Ref sig .tc := ⟨.hbm, 229, rfl⟩
abbrev main_c_34 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_c_35 : Ref sig .tc := ⟨.hbm, 240, rfl⟩
abbrev main_v202 : Ref sig .tc := ⟨.hbm, 241, rfl⟩
abbrev main_v203 : Ref sig .tc := ⟨.hbm, 242, rfl⟩
abbrev main_c_36 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_c_37 : Ref sig .tc := ⟨.hbm, 253, rfl⟩
abbrev main_v213 : Ref sig .tc := ⟨.hbm, 254, rfl⟩
abbrev main_v214 : Ref sig .tc := ⟨.hbm, 255, rfl⟩
abbrev main_c_38 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_c_39 : Ref sig .tc := ⟨.hbm, 266, rfl⟩
abbrev main_v224 : Ref sig .tc := ⟨.hbm, 267, rfl⟩
abbrev main_v225 : Ref sig .tc := ⟨.hbm, 268, rfl⟩
abbrev main_c_40 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_c_41 : Ref sig .tc := ⟨.hbm, 279, rfl⟩
abbrev main_v235 : Ref sig .tc := ⟨.hbm, 280, rfl⟩
abbrev main_v236 : Ref sig .tc := ⟨.hbm, 281, rfl⟩
abbrev main_c_42 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_c_43 : Ref sig .tc := ⟨.hbm, 292, rfl⟩
abbrev main_v246 : Ref sig .tc := ⟨.hbm, 293, rfl⟩
abbrev main_v247 : Ref sig .tc := ⟨.hbm, 294, rfl⟩
abbrev main_c_44 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_c_45 : Ref sig .tc := ⟨.hbm, 305, rfl⟩
abbrev main_v257 : Ref sig .tc := ⟨.hbm, 306, rfl⟩
abbrev main_v258 : Ref sig .tc := ⟨.hbm, 307, rfl⟩
abbrev main_c_46 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_c_47 : Ref sig .tc := ⟨.hbm, 318, rfl⟩
abbrev main_v268 : Ref sig .tc := ⟨.hbm, 319, rfl⟩
abbrev main_v269 : Ref sig .tc := ⟨.hbm, 320, rfl⟩
abbrev main_c_48 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_c_49 : Ref sig .tc := ⟨.hbm, 331, rfl⟩
abbrev main_v279 : Ref sig .tc := ⟨.hbm, 332, rfl⟩
abbrev main_v280 : Ref sig .tc := ⟨.hbm, 333, rfl⟩
abbrev main_c_50 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩

abbrev nD : Nat := 1
abbrev τ : Topo := Topo.v7x

variable {F : FTy → Type} [FloatOps F]

class Facts₀ : Prop where
  slices_S26x100001x64_S1x100001x64_0_0_0 : S26x100001x64.Slices ![0, 0, 0] S1x100001x64
  shapeCasts_S1x100001x64_S100001x64 : S1x100001x64.ShapeCasts S100001x64
  slices_S4096x26_S4096x1_0_0 : S4096x26.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S26x100001x64_S1x100001x64_1_0_0 : S26x100001x64.Slices ![1, 0, 0] S1x100001x64
  slices_S4096x26_S4096x1_0_1 : S4096x26.Slices ![0, 1] S4096x1
  slices_S26x100001x64_S1x100001x64_2_0_0 : S26x100001x64.Slices ![2, 0, 0] S1x100001x64
  slices_S4096x26_S4096x1_0_2 : S4096x26.Slices ![0, 2] S4096x1
  slices_S26x100001x64_S1x100001x64_3_0_0 : S26x100001x64.Slices ![3, 0, 0] S1x100001x64
  slices_S4096x26_S4096x1_0_3 : S4096x26.Slices ![0, 3] S4096x1
  slices_S26x100001x64_S1x100001x64_4_0_0 : S26x100001x64.Slices ![4, 0, 0] S1x100001x64
  slices_S4096x26_S4096x1_0_4 : S4096x26.Slices ![0, 4] S4096x1
  slices_S26x100001x64_S1x100001x64_5_0_0 : S26x100001x64.Slices ![5, 0, 0] S1x100001x64
  slices_S4096x26_S4096x1_0_5 : S4096x26.Slices ![0, 5] S4096x1
  slices_S26x100001x64_S1x100001x64_6_0_0 : S26x100001x64.Slices ![6, 0, 0] S1x100001x64
  slices_S4096x26_S4096x1_0_6 : S4096x26.Slices ![0, 6] S4096x1
  slices_S26x100001x64_S1x100001x64_7_0_0 : S26x100001x64.Slices ![7, 0, 0] S1x100001x64
  slices_S4096x26_S4096x1_0_7 : S4096x26.Slices ![0, 7] S4096x1
  slices_S26x100001x64_S1x100001x64_8_0_0 : S26x100001x64.Slices ![8, 0, 0] S1x100001x64
  slices_S4096x26_S4096x1_0_8 : S4096x26.Slices ![0, 8] S4096x1
  slices_S26x100001x64_S1x100001x64_9_0_0 : S26x100001x64.Slices ![9, 0, 0] S1x100001x64
  slices_S4096x26_S4096x1_0_9 : S4096x26.Slices ![0, 9] S4096x1
  slices_S26x100001x64_S1x100001x64_10_0_0 : S26x100001x64.Slices ![10, 0, 0] S1x100001x64
  slices_S4096x26_S4096x1_0_10 : S4096x26.Slices ![0, 10] S4096x1
  slices_S26x100001x64_S1x100001x64_11_0_0 : S26x100001x64.Slices ![11, 0, 0] S1x100001x64
  slices_S4096x26_S4096x1_0_11 : S4096x26.Slices ![0, 11] S4096x1
  slices_S26x100001x64_S1x100001x64_12_0_0 : S26x100001x64.Slices ![12, 0, 0] S1x100001x64
  slices_S4096x26_S4096x1_0_12 : S4096x26.Slices ![0, 12] S4096x1
  slices_S26x100001x64_S1x100001x64_13_0_0 : S26x100001x64.Slices ![13, 0, 0] S1x100001x64
  slices_S4096x26_S4096x1_0_13 : S4096x26.Slices ![0, 13] S4096x1
  slices_S26x100001x64_S1x100001x64_14_0_0 : S26x100001x64.Slices ![14, 0, 0] S1x100001x64
  slices_S4096x26_S4096x1_0_14 : S4096x26.Slices ![0, 14] S4096x1
  slices_S26x100001x64_S1x100001x64_15_0_0 : S26x100001x64.Slices ![15, 0, 0] S1x100001x64
  slices_S4096x26_S4096x1_0_15 : S4096x26.Slices ![0, 15] S4096x1
  slices_S26x100001x64_S1x100001x64_16_0_0 : S26x100001x64.Slices ![16, 0, 0] S1x100001x64
  slices_S4096x26_S4096x1_0_16 : S4096x26.Slices ![0, 16] S4096x1
  slices_S26x100001x64_S1x100001x64_17_0_0 : S26x100001x64.Slices ![17, 0, 0] S1x100001x64
  slices_S4096x26_S4096x1_0_17 : S4096x26.Slices ![0, 17] S4096x1
  slices_S26x100001x64_S1x100001x64_18_0_0 : S26x100001x64.Slices ![18, 0, 0] S1x100001x64
  slices_S4096x26_S4096x1_0_18 : S4096x26.Slices ![0, 18] S4096x1
  slices_S26x100001x64_S1x100001x64_19_0_0 : S26x100001x64.Slices ![19, 0, 0] S1x100001x64
  slices_S4096x26_S4096x1_0_19 : S4096x26.Slices ![0, 19] S4096x1
  slices_S26x100001x64_S1x100001x64_20_0_0 : S26x100001x64.Slices ![20, 0, 0] S1x100001x64
  slices_S4096x26_S4096x1_0_20 : S4096x26.Slices ![0, 20] S4096x1
  slices_S26x100001x64_S1x100001x64_21_0_0 : S26x100001x64.Slices ![21, 0, 0] S1x100001x64
  slices_S4096x26_S4096x1_0_21 : S4096x26.Slices ![0, 21] S4096x1
  slices_S26x100001x64_S1x100001x64_22_0_0 : S26x100001x64.Slices ![22, 0, 0] S1x100001x64
  slices_S4096x26_S4096x1_0_22 : S4096x26.Slices ![0, 22] S4096x1
  slices_S26x100001x64_S1x100001x64_23_0_0 : S26x100001x64.Slices ![23, 0, 0] S1x100001x64
  slices_S4096x26_S4096x1_0_23 : S4096x26.Slices ![0, 23] S4096x1
  slices_S26x100001x64_S1x100001x64_24_0_0 : S26x100001x64.Slices ![24, 0, 0] S1x100001x64
  slices_S4096x26_S4096x1_0_24 : S4096x26.Slices ![0, 24] S4096x1
  slices_S26x100001x64_S1x100001x64_25_0_0 : S26x100001x64.Slices ![25, 0, 0] S1x100001x64
  slices_S4096x26_S4096x1_0_25 : S4096x26.Slices ![0, 25] S4096x1
  bcast_S4096x64_S4096x1x64_0_2 : S4096x64.BroadcastsInDim S4096x1x64 (![0, 2] : Fin 2 → Fin S4096x1x64.rank)
  concatenates_S4096x1x64_S4096x1x64_S4096x1x64_S4096x1x64_S4096x1x64_S4096x1x64_S4096x1x64_S4096x1x64_S4096x1x64_S4096x1x64_S4096x1x64_S4096x1x64_S4096x1x64_S4096x1x64_S4096x1x64_S4096x1x64_S4096x16x64_d1 : Shape.Concatenates [S4096x1x64, S4096x1x64, S4096x1x64, S4096x1x64, S4096x1x64, S4096x1x64, S4096x1x64, S4096x1x64, S4096x1x64, S4096x1x64, S4096x1x64, S4096x1x64, S4096x1x64, S4096x1x64, S4096x1x64, S4096x1x64] S4096x16x64 1
  concatenates_S4096x1x64_S4096x1x64_S4096x1x64_S4096x1x64_S4096x1x64_S4096x1x64_S4096x1x64_S4096x1x64_S4096x1x64_S4096x1x64_S4096x10x64_d1 : Shape.Concatenates [S4096x1x64, S4096x1x64, S4096x1x64, S4096x1x64, S4096x1x64, S4096x1x64, S4096x1x64, S4096x1x64, S4096x1x64, S4096x1x64] S4096x10x64 1
  concatenates_S4096x16x64_S4096x10x64_S4096x26x64_d1 : Shape.Concatenates [S4096x16x64, S4096x10x64] S4096x26x64 1
  gather_S100001x64_S4096x1_S4096x64_1_0_n_n_0_1_164_wf : GatherDims.WF S100001x64 S4096x1 S4096x64 [1] [0] [] [0] [] 1 ![1, 64]

variable [Facts₀]

def gather_S100001x64_S4096x1_S4096x64_1_0_n_n_0_1_164 : GatherDims S100001x64 S4096x1 S4096x64 where
  offsetDims := [1]
  collapsedSliceDims := [0]
  operandBatchingDims := []
  startIndicesBatchingDims := []
  startIndexMap := [0]
  indexVectorDim := 1
  sliceSizes := ![1, 64]
  wf := gather_S100001x64_S4096x1_S4096x64_1_0_n_n_0_1_164_wf

class Facts : Prop extends Facts₀ where

variable [Facts]
-- ==== Proof.KiBase.lean ====
/-
  The vocabulary of the kernel's proof. The program as the launch theorem sees it (one call, a vector-subcore kernel on
  2 SparseCores x 16 subcores), the proof's resource algebra (the launch handshakes beside the transfers' counters), the
  three arrays the kernel touches in HBM — the table re-laid as 1664 rows (field, embedding coordinate) of 100001 columns,
  the flat index list of 26 stretches of 4096 words, the 1664 x 4096 output — and, for the task at a grid point L: the row
  it handles in trip k, g = 2 (L 1) + (L 0) + 32 k, as the slices the body makes of the three arrays; what its two fetches
  land in its scratch; the value it gathers at a lane; and the kernel's result as one function of the table and the list.
-/
import proofs.«206583_g19980187861832_cont_8to1_303_35_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«206583_g19980187861832_cont_8to1_303_35_alg».proof.Proof.Gen.KernelIdeal
import proofs.«206583_g19980187861832_cont_8to1_303_35_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tW" => (Memref.whole Cert.KernelIdeal.main_v1_scv : Memref Cert.KernelIdeal.sig Kind.scVector Space.hbm Cert.KernelIdeal.S1664x100001 EltTy.f32)
local notation "xW" => (Memref.whole Cert.KernelIdeal.main_v3_scv : Memref Cert.KernelIdeal.sig Kind.scVector Space.hbm Cert.KernelIdeal.S106496 EltTy.i32)
local notation "oW" => (Memref.whole Cert.KernelIdeal.main_v4_scv : Memref Cert.KernelIdeal.sig Kind.scVector Space.hbm Cert.KernelIdeal.S1664x4096 EltTy.f32)
local notation "sA" => (Memref.whole Cert.KernelIdeal.cc0_scratch0 : Memref Cert.KernelIdeal.sig Kind.scVector Space.vmem Cert.KernelIdeal.S1x100001 EltTy.f32)
local notation "sB" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S1x4096 EltTy.f32)

abbrev tLoc (d : Dev nD) : Loc nD τ sig := (SparseCore.T d).loc main_v1
abbrev xLoc (d : Dev nD) : Loc nD τ sig := (SparseCore.T d).loc main_v3
abbrev oLoc (d : Dev nD) : Loc nD τ sig := (SparseCore.T d).loc main_v4

variable [FloatOps F]

abbrev tPts (d : Dev nD) (q : PosShare TreeShare) (f : Buf (Elt F) (tLoc d)) : sProp 𝕄 := tLoc d ↦{q} f
abbrev xPts (d : Dev nD) (q : PosShare TreeShare) (f : Buf (Elt F) (xLoc d)) : sProp 𝕄 := xLoc d ↦{q} f

section Tile
variable (d : Dev nD) (L : grid0.Coords)

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-- Row `k` of the table, the index list's stretch of that row's field, and row `k` of the output, as the task slices them. -/
abbrev tRow (L : grid0.Coords) (k : Fin k0_t1_loop.trips) : Memref sig .scVector .hbm S1x100001 .f32 :=
  (tW).slice (Rect.unit (s := S1664x100001) (k0_off1 L k) S1x100001.size (k0_off1_inb L k)) (fun _ => rfl)
abbrev xRow (L : grid0.Coords) (k : Fin k0_t1_loop.trips) : Memref sig .scVector .hbm S4096 .i32 :=
  (xW).slice (Rect.unit (s := S106496) (k0_off2 L k) S4096.size (k0_off2_inb L k)) (fun _ => rfl)
abbrev oRow (L : grid0.Coords) (k : Fin k0_t1_loop.trips) : Memref sig .scVector .hbm S1x4096 .f32 :=
  (oW).slice (Rect.unit (s := S1664x4096) (k0_off5 L k) S1x4096.size (k0_off5_inb L k)) (fun _ => rfl)

/-- What the two fetches of trip `k` land in the task's scratch: row `k` of the table, and the indices of that row's field. -/
abbrev slabPay (k : Fin k0_t1_loop.trips) (Tc : Buf (Elt F) (tLoc d)) : Vec F S1x100001 .f32 :=
  ReadAs.same.apply (View.read (Elt F) (tRow L k).view Tc)
abbrev idxPay (k : Fin k0_t1_loop.trips) (Xc : Buf (Elt F) (xLoc d)) : Vec F S4096 .i32 :=
  ReadAs.same.apply (View.read (Elt F) (xRow L k).view Xc)

/-- The gathered value at lane `c`: the fetched table row at the fetched index (read unsigned, and clamped so that the
    definition is total; under the precondition the clamp is the identity). -/
def gath (fa : Buf (Elt F) ((sA).view.loc (thr d L))) (fb : Buf (Elt F) ((sB).view.loc (thr d L))) (c : Fin 4096) : Elt F .f32 :=
  (fa : Vec F S1x100001 .f32) (ix2 (0 : Fin 1) (⟨min ((fb : Vec F S4096 .i32) (ix1 c)).toNat 100000, by omega⟩ : Fin 100001))

/-- The out scratch holds the gathered values at the lanes the first `v` trips of the inner loop wrote. -/
def OrowUpTo (fa : Buf (Elt F) ((sA).view.loc (thr d L))) (fb : Buf (Elt F) ((sB).view.loc (thr d L))) (v : Nat)
    (fc : Buf (Elt F) ((sC).view.loc (thr d L))) : Prop :=
  ∀ c : Fin 4096, c.val < 16 * v → (fc : Vec F S1x4096 .f32) (ix2 (0 : Fin 1) c) = gath d L fa fb c

/-- The kernel's result as one function of the table `T` and the flat index list `X`: entry `(g, b)` is row `g` of the table
    at the index the list holds for batch element `b` of row `g`'s field `g / 64`. -/
def Gout (Tc : Buf (Elt F) (tLoc d)) (Xc : Buf (Elt F) (xLoc d)) : Buf (Elt F) (oLoc d) :=
  fun i : S1664x4096.Idx => (Tc : Vec F S1664x100001 .f32) (ix2 (⟨(i 0).val, ValueIdx.idx2_lt0 i⟩ : Fin 1664)
    (⟨min ((Xc : Vec F S106496 .i32) (ix1 (⟨((i 0).val / 64) * 4096 + (i 1).val,
      by have h0 := ValueIdx.idx2_lt0 i; have h1 := ValueIdx.idx2_lt1 i; omega⟩ : Fin 106496))).toNat 100000, by omega⟩ : Fin 100001))

end Tile
end Cert.Proof.KI
end
-- ==== Proof.KiVal.lean ====
/-
  The values of one task, as pure facts about the contents of its buffers. Reading and writing a whole buffer and a
  rectangle of it at an index; the task's index chains in closed form (the list's stretch starts at 4096 (g / 64), the
  field of row g being g / 64); the fetched row and the fetched indices at an index; then the three facts the task's
  proof cites: the indices an inner trip loads name table columns (every word of the list is at most 99999); an inner
  trip fills sixteen more lanes of the out scratch with the fetched row at the fetched indices; and an outer trip's
  write-out leaves, on row g's elements, the kernel's function of the table and the list.
-/
import proofs.«206583_g19980187861832_cont_8to1_303_35_alg».proof.Proof.KiBase
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.ValueIdx (ix1 ix2)

variable {F : FTy → Type} [FloatOps F]

local notation "tW" => (Memref.whole Cert.KernelIdeal.main_v1_scv : Memref Cert.KernelIdeal.sig Kind.scVector Space.hbm Cert.KernelIdeal.S1664x100001 EltTy.f32)
local notation "xW" => (Memref.whole Cert.KernelIdeal.main_v3_scv : Memref Cert.KernelIdeal.sig Kind.scVector Space.hbm Cert.KernelIdeal.S106496 EltTy.i32)
local notation "oW" => (Memref.whole Cert.KernelIdeal.main_v4_scv : Memref Cert.KernelIdeal.sig Kind.scVector Space.hbm Cert.KernelIdeal.S1664x4096 EltTy.f32)
local notation "sA" => (Memref.whole Cert.KernelIdeal.cc0_scratch0 : Memref Cert.KernelIdeal.sig Kind.scVector Space.vmem Cert.KernelIdeal.S1x100001 EltTy.f32)
local notation "sB" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S1x4096 EltTy.f32)

/-! ## Reading and writing a whole buffer, and a rectangle of it -/

section Whole
variable {sg : RefSig} {κ : Kind} {Val : EltTy → Type}

/-- A load through a whole buffer reads the contents at the coordinates' place. -/
theorem readAt_whole_apply (b : Ref sg κ) (f : b.ty.Contents Val) (r : LoadRect b.ty.shape) (x : r.shape.Idx) :
    (View.whole b).readAt Val r f x = f (r.idx x) := rfl

/-- A load through a whole buffer just overwritten reads the payload. -/
theorem readAt_write_whole_apply (b : Ref sg κ) (f w : b.ty.Contents Val) (r : LoadRect b.ty.shape) (x : r.shape.Idx) :
    (View.whole b).readAt Val r ((View.whole b).write Val f w Finset.univ) x = w (r.idx x) := by
  rw [View.write_whole_univ]; rfl

/-- A rectangle of a whole buffer reads the contents at the rectangle's place. -/
theorem read_slice_whole_apply (b : Ref sg κ) (r : Rect b.ty.shape) (f : b.ty.Contents Val) (y : r.shape.Idx) :
    ((View.whole b).slice r).read Val f y = f (r.emb y) := rfl

/-- An unmasked write through a rectangle of a whole buffer leaves the payload on the rectangle's elements, -/
theorem write_slice_whole_emb (b : Ref sg κ) (r : Rect b.ty.shape) (f : b.ty.Contents Val) (w : r.shape.Idx → Val b.ty.elt)
    (y : r.shape.Idx) : ((View.whole b).slice r).write Val f w Finset.univ (r.emb y) = w y :=
  View.write_emb_of_mem (v := (View.whole b).slice r) f w (Finset.mem_univ y)

/-- and the old contents elsewhere. -/
theorem write_slice_whole_of_not_mem (b : Ref sg κ) (r : Rect b.ty.shape) (f : b.ty.Contents Val) (w : r.shape.Idx → Val b.ty.elt)
    (i : b.ty.shape.Idx) (hi : i ∉ r.set) : ((View.whole b).slice r).write Val f w Finset.univ i = f i :=
  View.write_of_not_mem (v := (View.whole b).slice r) f w Finset.univ (by rw [View.setOn_univ, View.set_slice_whole]; exact hi)

end Whole

variable (d : Dev nD) (L : grid0.Coords)

/-- The zero index vector the task gathers along the scratch row's unit axis with. -/
abbrev zeroIdx : IVec S16 32 := muli (iota .scVector S16 32 [0] iota_S16_d0_w32_scVector) (broadcast S16 0#32)

/-- The zero index vector is zero at every lane. -/
theorem zeroIdx_apply (x : S16.Idx) : zeroIdx x = 0#32 := by
  show IntOp.muli _ 0#32 = 0#32
  exact BitVec.mul_zero

/-- The indices a trip of the inner loop loads from the fetched list name table columns: every word of the index
    list is at most 99999. -/
theorem chk_holds (k : Fin k0_t1_loop.trips) (fb0 : Buf (Elt F) ((sB).view.loc (thr d L))) (Xc : Buf (Elt F) (xLoc d))
    (hX : ∀ i : S106496.Idx, ((Xc : Vec F S106496 .i32) i).toNat ≤ 99999) (v : Fin k0_t2_loop.trips) :
    k0_chk1 zeroIdx
      (View.readAt (Elt F) (sB).view (Rect.unit (s := S4096) (k0_off3 v) S16.size (k0_off3_inb v)).toLoadRect
        (View.write (Elt F) (sB).view fb0 (idxPay d L k Xc) Finset.univ)) := by
  intro a x
  match a with
  | ⟨0, _⟩ =>
    show (zeroIdx x).toNat < 1
    rw [zeroIdx_apply]; decide
  | ⟨1, _⟩ =>
    show (View.readAt (Elt F) (sB).view (Rect.unit (s := S4096) (k0_off3 v) S16.size (k0_off3_inb v)).toLoadRect
        (View.write (Elt F) (sB).view fb0 (idxPay d L k Xc) Finset.univ) x).toNat < 100001
    rw [show View.readAt (Elt F) (sB).view (Rect.unit (s := S4096) (k0_off3 v) S16.size (k0_off3_inb v)).toLoadRect
        (View.write (Elt F) (sB).view fb0 (idxPay d L k Xc) Finset.univ) x
          = idxPay d L k Xc ((Rect.unit (s := S4096) (k0_off3 v) S16.size (k0_off3_inb v)).toLoadRect.idx x)
        from readAt_write_whole_apply (Val := Elt F) cc0_scratch1 fb0 (idxPay d L k Xc) (Rect.unit (s := S4096) (k0_off3 v) S16.size (k0_off3_inb v)).toLoadRect x]
    exact Nat.lt_of_le_of_lt (hX _) (by decide)

/-- One trip of the inner loop: sixteen more lanes of the out scratch hold their gathered values. -/
theorem orow_step (fa : Buf (Elt F) ((sA).view.loc (thr d L))) (fb : Buf (Elt F) ((sB).view.loc (thr d L)))
    (fc : Buf (Elt F) ((sC).view.loc (thr d L))) (v : Fin k0_t2_loop.trips) (hP : OrowUpTo d L fa fb v.val fc)
    (h : ∀ a x, ((![zeroIdx, View.readAt (Elt F) (sB).view (Rect.unit (s := S4096) (k0_off3 v) S16.size (k0_off3_inb v)).toLoadRect fb] : Fin 2 → IVec S16 32) a x).toNat < S1x100001.size a) :
    OrowUpTo d L fa fb (v.val + 1)
      ((sC).view.writes (Elt F) fc
        [⟨Rect.unit (s := S1x4096) (k0_off4 v) S1x16.size (k0_off4_inb v),
          shapeCast S1x16
            (loadIdx (View.read (Elt F) ((sA).access (Rect.whole cc0_scratch0.ty.shape)) fa)
              ![zeroIdx, View.readAt (Elt F) (sB).view (Rect.unit (s := S4096) (k0_off3 v) S16.size (k0_off3_inb v)).toLoadRect fb] h)
            shapeCasts_S16_S1x16⟩]) := by
  unfold OrowUpTo
  intro c hc
  have e3 : k0_off3 v 0 = 16 * v.val := congrFun (k0_off3_eq v) 0
  have e40 : k0_off4 v 0 = 0 := congrFun (k0_off4_eq v) 0
  have e41 : k0_off4 v 1 = 16 * v.val := congrFun (k0_off4_eq v) 1
  by_cases hlt : c.val < 16 * v.val
  · -- a lane before the window: not written, and it held its value already
    refine (write_slice_whole_of_not_mem (Val := Elt F) cc0_scratch2
      (Rect.unit (s := S1x4096) (k0_off4 v) S1x16.size (k0_off4_inb v)) fc _ (ix2 (0 : Fin 1) c) ?_).trans (hP c hlt)
    rw [Rect.mem_set_unit]
    intro hm
    have h1 := (hm 1).1
    change k0_off4 v 1 ≤ c.val at h1
    omega
  · -- a lane of the window: lane c - 16 v of the payload
    have hl : c.val - 16 * v.val < 16 := by omega
    have hemb : (ix2 (0 : Fin 1) c : S1x4096.Idx)
        = (Rect.unit (s := S1x4096) (k0_off4 v) S1x16.size (k0_off4_inb v)).emb (ix2 (0 : Fin 1) (⟨c.val - 16 * v.val, hl⟩ : Fin 16)) := by
      funext a
      apply Fin.ext
      match a with
      | ⟨0, _⟩ => show (0 : ℕ) = k0_off4 v 0 + 1 * 0; omega
      | ⟨1, _⟩ => show c.val = k0_off4 v 1 + 1 * (c.val - 16 * v.val); omega
    rw [hemb]
    refine (write_slice_whole_emb (Val := Elt F) cc0_scratch2 (Rect.unit (s := S1x4096) (k0_off4 v) S1x16.size (k0_off4_inb v)) fc _ _).trans ?_
    dsimp only
    rw [ValueIdx.shapeCast_a_1a_apply, Memref.read_access_whole]
    -- the lane's index word is word c of the fetched list
    have hidx : (Rect.unit (s := S4096) (k0_off3 v) S16.size (k0_off3_inb v)).toLoadRect.idx (ix1 (⟨c.val - 16 * v.val, hl⟩ : Fin 16))
        = (ix1 c : S4096.Idx) := by
      funext a
      apply Fin.ext
      match a with
      | ⟨0, _⟩ => show k0_off3 v 0 + 1 * (c.val - 16 * v.val) = c.val; omega
    have hR : View.readAt (Elt F) (sB).view (Rect.unit (s := S4096) (k0_off3 v) S16.size (k0_off3_inb v)).toLoadRect fb
          (ix1 (⟨c.val - 16 * v.val, hl⟩ : Fin 16)) = (fb : Vec F S4096 .i32) (ix1 c) :=
      (readAt_whole_apply (Val := Elt F) cc0_scratch1 fb (Rect.unit (s := S4096) (k0_off3 v) S16.size (k0_off3_inb v)).toLoadRect _).trans
        (congrArg (fb : Vec F S4096 .i32) hidx)
    have hb := h 1 (ix1 (⟨c.val - 16 * v.val, hl⟩ : Fin 16))
    change (View.readAt (Elt F) (sB).view (Rect.unit (s := S4096) (k0_off3 v) S16.size (k0_off3_inb v)).toLoadRect fb
          (ix1 (⟨c.val - 16 * v.val, hl⟩ : Fin 16))).toNat < 100001 at hb
    rw [hR] at hb
    unfold gath
    show (fa : Vec F S1x100001 .f32) (idxAt _ h (ix1 (⟨c.val - 16 * v.val, hl⟩ : Fin 16))) = _
    refine congrArg (fa : Vec F S1x100001 .f32) ?_
    funext a
    apply Fin.ext
    match a with
    | ⟨0, _⟩ =>
      show (zeroIdx (ix1 (⟨c.val - 16 * v.val, hl⟩ : Fin 16))).toNat = 0
      rw [zeroIdx_apply]; rfl
    | ⟨1, _⟩ =>
      show (View.readAt (Elt F) (sB).view (Rect.unit (s := S4096) (k0_off3 v) S16.size (k0_off3_inb v)).toLoadRect fb
          (ix1 (⟨c.val - 16 * v.val, hl⟩ : Fin 16))).toNat = min ((fb : Vec F S4096 .i32) (ix1 c)).toNat 100000
      rw [hR]; omega

/-- The index list's slice offset in closed form: 4096 words per field, the field of row g being g / 64. -/
theorem k0_off2_eq : ∀ (i : grid0.Coords) (k0_t1 : Fin k0_t1_loop.trips), k0_off2 i k0_t1 = ![4096 * ((2 * (i 1).val + (i 0).val + 32 * k0_t1.val) / 64)] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c32_i32 : Affine.IsInt 32#32 (32) := Affine.ofNat _ (by omega)
  have h_c0_i32_2 : Affine.IsInt 0#32 (0) := Affine.ofNat _ (by omega)
  have h_c0_i32 : Affine.IsInt 0#32 (0) := Affine.ofNat _ (by omega)
  have h_c1_i32 : Affine.IsInt 1#32 (1) := Affine.ofNat _ (by omega)
  have r_k0_t1 : k0_t1.val < 52 := Nat.lt_of_lt_of_le k0_t1.isLt k0_t1_abs.2.1
  have h_arg8 : Affine.IsInt _ ((k0_t1.val : Int)) := Affine.iv h_c0_i32 h_c1_i32 k0_t1.val (by omega)
  have c_arg8 : (k0_t1.val : Int) ≤ 52 - 1 := Affine.iv_lt k0_t1_abs.1 k0_t1.isLt k0_t1_abs.2.2 h_arg8
  have h_c1_i32_1 : Affine.IsInt 1#32 (1) := Affine.ofNat _ (by omega)
  have h_v3 : Affine.IsInt _ ((k0_t1.val : Int)) := Affine.muli h_arg8 h_c1_i32_1 (by omega)
  have h_v4 : Affine.IsInt _ ((k0_t1.val : Int)) := Affine.addi h_c0_i32_2 h_v3 (by omega)
  have h_v5 : Affine.IsInt _ (32 * (k0_t1.val : Int)) := Affine.muli h_c32_i32 h_v4 (by omega)
  have h_v6 : Affine.IsInt _ (2 * ((i 1).val : Int) + ((i 0).val : Int) + 32 * (k0_t1.val : Int)) := Affine.addi h_v1 h_v5 (by omega)
  have h_c0_i32_3 : Affine.IsInt 0#32 (0) := Affine.ofNat _ (by omega)
  rcases (show 2 * ((i 1).val : Int) + ((i 0).val : Int) + 32 * (k0_t1.val : Int) ≤ 0 ∨ 1 ≤ 2 * ((i 1).val : Int) + ((i 0).val : Int) + 32 * (k0_t1.val : Int) by omega) with hs | hs
  · have h_v8 : Affine.Fails _ := Affine.sgt_fails h_v6 h_c0_i32_3 (by omega)
    have h_v9 : Affine.IsInt _ (0) := Affine.extui_fails h_v8 (by omega)
    have h_c0_i32_4 : Affine.IsInt 0#32 (0) := Affine.ofNat _ (by omega)
    have h_v10 : Affine.Fails _ := Affine.slt_fails h_v6 h_c0_i32_4 (by omega)
    have h_v11 : Affine.IsInt _ (0) := Affine.extui_fails h_v10 (by omega)
    have h_v12 : Affine.IsInt _ (0) := Affine.subi h_v9 h_v11 (by omega)
    have h_c64_i32 : Affine.IsInt 64#32 (64) := Affine.ofNat _ (by omega)
    have h_c0_i32_5 : Affine.IsInt 0#32 (0) := Affine.ofNat _ (by omega)
    have h_v13 : Affine.Holds _ := Affine.sgt_holds h_c64_i32 h_c0_i32_5 (by omega)
    have h_v14 : Affine.IsInt _ (1) := Affine.extui_holds h_v13 (by omega)
    have h_c0_i32_6 : Affine.IsInt 0#32 (0) := Affine.ofNat _ (by omega)
    have h_v15 : Affine.Fails _ := Affine.slt_fails h_c64_i32 h_c0_i32_6 (by omega)
    have h_v16 : Affine.IsInt _ (0) := Affine.extui_fails h_v15 (by omega)
    have h_v17 : Affine.IsInt _ (1) := Affine.subi h_v14 h_v16 (by omega)
    have h_v18 : Affine.Holds _ := Affine.ne_holds h_v12 h_v17 (by omega)
    have h_v19 : Affine.IsInt _ (2 * ((i 1).val : Int) + ((i 0).val : Int) + 32 * (k0_t1.val : Int)) := Affine.remsi h_v6 h_c64_i32 (by omega)
    have h_c0_i32_7 : Affine.IsInt 0#32 (0) := Affine.ofNat _ (by omega)
    have h_v20 : Affine.Fails _ := Affine.ne_fails h_v19 h_c0_i32_7 (by omega)
    have h_v21 : Affine.Fails _ := Affine.andi_fails_right (Affine.tH h_v18) h_v20
    have h_v7 : Affine.IsInt _ (((2 * ((i 1).val : Int) + ((i 0).val : Int) + 32 * (k0_t1.val : Int)) / 64)) := Affine.divsi h_v6 h_c64_i32 (by omega)
    have h_c1_i32_8 : Affine.IsInt 1#32 (1) := Affine.ofNat _ (by omega)
    have h_v22 : Affine.IsInt _ (((2 * ((i 1).val : Int) + ((i 0).val : Int) + 32 * (k0_t1.val : Int)) / 64) - 1) := Affine.subi h_v7 h_c1_i32_8 (by omega)
    have h_v23 : Affine.IsInt _ (((2 * ((i 1).val : Int) + ((i 0).val : Int) + 32 * (k0_t1.val : Int)) / 64)) := Affine.select_fails h_v21 h_v22 h_v7 (by omega)
    have h_c4096_i32 : Affine.IsInt 4096#32 (4096) := Affine.ofNat _ (by omega)
    have h_v24 : Affine.IsInt _ (4096 * ((2 * ((i 1).val : Int) + ((i 0).val : Int) + 32 * (k0_t1.val : Int)) / 64)) := Affine.muli h_v23 h_c4096_i32 (by omega)
    exact Affine.vec_cons h_v24 (by omega) <| Affine.vec_nil
  · have h_v8 : Affine.Holds _ := Affine.sgt_holds h_v6 h_c0_i32_3 (by omega)
    have h_v9 : Affine.IsInt _ (1) := Affine.extui_holds h_v8 (by omega)
    have h_c0_i32_4 : Affine.IsInt 0#32 (0) := Affine.ofNat _ (by omega)
    have h_v10 : Affine.Fails _ := Affine.slt_fails h_v6 h_c0_i32_4 (by omega)
    have h_v11 : Affine.IsInt _ (0) := Affine.extui_fails h_v10 (by omega)
    have h_v12 : Affine.IsInt _ (1) := Affine.subi h_v9 h_v11 (by omega)
    have h_c64_i32 : Affine.IsInt 64#32 (64) := Affine.ofNat _ (by omega)
    have h_c0_i32_5 : Affine.IsInt 0#32 (0) := Affine.ofNat _ (by omega)
    have h_v13 : Affine.Holds _ := Affine.sgt_holds h_c64_i32 h_c0_i32_5 (by omega)
    have h_v14 : Affine.IsInt _ (1) := Affine.extui_holds h_v13 (by omega)
    have h_c0_i32_6 : Affine.IsInt 0#32 (0) := Affine.ofNat _ (by omega)
    have h_v15 : Affine.Fails _ := Affine.slt_fails h_c64_i32 h_c0_i32_6 (by omega)
    have h_v16 : Affine.IsInt _ (0) := Affine.extui_fails h_v15 (by omega)
    have h_v17 : Affine.IsInt _ (1) := Affine.subi h_v14 h_v16 (by omega)
    have h_v18 : Affine.Fails _ := Affine.ne_fails h_v12 h_v17 (by omega)
    have h_v19 : Affine.IsInt _ (((2 * ((i 1).val : Int) + ((i 0).val : Int) + 32 * (k0_t1.val : Int)) % 64)) := Affine.remsi h_v6 h_c64_i32 (by omega)
    have h_c0_i32_7 : Affine.IsInt 0#32 (0) := Affine.ofNat _ (by omega)
    have h_v20 : Affine.Term _ := Affine.cmpi_term .ne h_v19 h_c0_i32_7
    have h_v21 : Affine.Fails _ := Affine.andi_fails_left h_v18 h_v20
    have h_v7 : Affine.IsInt _ (((2 * ((i 1).val : Int) + ((i 0).val : Int) + 32 * (k0_t1.val : Int)) / 64)) := Affine.divsi h_v6 h_c64_i32 (by omega)
    have h_c1_i32_8 : Affine.IsInt 1#32 (1) := Affine.ofNat _ (by omega)
    have h_v22 : Affine.IsInt _ (((2 * ((i 1).val : Int) + ((i 0).val : Int) + 32 * (k0_t1.val : Int)) / 64) - 1) := Affine.subi h_v7 h_c1_i32_8 (by omega)
    have h_v23 : Affine.IsInt _ (((2 * ((i 1).val : Int) + ((i 0).val : Int) + 32 * (k0_t1.val : Int)) / 64)) := Affine.select_fails h_v21 h_v22 h_v7 (by omega)
    have h_c4096_i32 : Affine.IsInt 4096#32 (4096) := Affine.ofNat _ (by omega)
    have h_v24 : Affine.IsInt _ (4096 * ((2 * ((i 1).val : Int) + ((i 0).val : Int) + 32 * (k0_t1.val : Int)) / 64)) := Affine.muli h_v23 h_c4096_i32 (by omega)
    exact Affine.vec_cons h_v24 (by omega) <| Affine.vec_nil

/-- The inner loop makes 256 trips. -/
theorem trips2 : k0_t2_loop.trips = 256 := by decide

/-- The gathered value depends on the scratch contents only. -/
theorem gath_congr {fa fa' : Buf (Elt F) ((sA).view.loc (thr d L))} {fb fb' : Buf (Elt F) ((sB).view.loc (thr d L))}
    (ha : fa = fa') (hb : fb = fb') (c : Fin 4096) : gath d L fa fb c = gath d L fa' fb' c := by
  subst ha; subst hb; rfl

/-- The fetched table row at (0, r) is the table at (g, r), g the row the slice starts at. -/
theorem slabPay_apply (k : Fin k0_t1_loop.trips) (Tc : Buf (Elt F) (tLoc d)) (r : Fin 100001) (g : Fin 1664)
    (hg : k0_off1 L k 0 = g.val) (h0 : k0_off1 L k 1 = 0) :
    slabPay d L k Tc (ix2 (0 : Fin 1) r) = (Tc : Vec F S1664x100001 .f32) (ix2 g r) := by
  show (Tc : Vec F S1664x100001 .f32) ((tRow L k).view.emb (ix2 (0 : Fin 1) r)) = _
  refine congrArg (Tc : Vec F S1664x100001 .f32) ?_
  funext a
  apply Fin.ext
  match a with
  | ⟨0, _⟩ => show k0_off1 L k 0 + 1 * 0 = g.val; omega
  | ⟨1, _⟩ => show k0_off1 L k 1 + 1 * r.val = r.val; omega

/-- The fetched index list at b is the flat list at the slice's offset plus b. -/
theorem idxPay_apply (k : Fin k0_t1_loop.trips) (Xc : Buf (Elt F) (xLoc d)) (b : Fin 4096) (q : Fin 106496)
    (hq : k0_off2 L k 0 + b.val = q.val) :
    idxPay d L k Xc (ix1 b) = (Xc : Vec F S106496 .i32) (ix1 q) := by
  show (Xc : Vec F S106496 .i32) ((xRow L k).view.emb (ix1 b)) = _
  refine congrArg (Xc : Vec F S106496 .i32) ?_
  funext a
  apply Fin.ext
  match a with
  | ⟨0, _⟩ => show k0_off2 L k 0 + 1 * b.val = q.val; omega

/-- The kernel's function at an index whose row is g and whose word of the flat list is q. -/
theorem Gout_apply (Tc : Buf (Elt F) (tLoc d)) (Xc : Buf (Elt F) (xLoc d)) (i : S1664x4096.Idx) (g : Fin 1664) (q : Fin 106496)
    (hg : (i 0).val = g.val) (hq : ((i 0).val / 64) * 4096 + (i 1).val = q.val) :
    Gout d Tc Xc i = (Tc : Vec F S1664x100001 .f32) (ix2 g
      (⟨min ((Xc : Vec F S106496 .i32) (ix1 q)).toNat 100000, by omega⟩ : Fin 100001)) := by
  obtain ⟨gv, hgv⟩ := g
  obtain ⟨qv, hqv⟩ := q
  simp only at hg hq
  subst hg
  subst hq
  rfl

/-- A trip of the outer loop writes row `k` of the result: on that row's elements what the write-out leaves is the
    kernel's function of the table and the index list. -/
theorem row_final (k : Fin k0_t1_loop.trips) (fa0 : Buf (Elt F) ((sA).view.loc (thr d L))) (fb0 : Buf (Elt F) ((sB).view.loc (thr d L)))
    (fc : Buf (Elt F) ((sC).view.loc (thr d L))) (Tc : Buf (Elt F) (tLoc d)) (Xc : Buf (Elt F) (xLoc d)) (O0 : Buf (Elt F) (oLoc d))
    (hX : ∀ i : S106496.Idx, ((Xc : Vec F S106496 .i32) i).toNat ≤ 99999)
    (hP : OrowUpTo d L (View.write (Elt F) (sA).view fa0 (slabPay d L k Tc) Finset.univ)
      (View.write (Elt F) (sB).view fb0 (idxPay d L k Xc) Finset.univ) k0_t2_loop.trips fc) :
    ∀ i ∈ (oRow L k).view.set,
      ((oRow L k).view.writes (Elt F) O0 [⟨Rect.whole S1x4096, ReadAs.same.apply (View.read (Elt F) (sC).view fc)⟩]) i = Gout d Tc Xc i := by
  intro i hi
  obtain ⟨y, -, rfl⟩ := Finset.mem_map.mp hi
  obtain ⟨u, b, rfl⟩ : ∃ (u : Fin 1) (b : Fin 4096), y = ix2 u b :=
    ⟨y 0, y 1, by funext a; match a with | ⟨0, _⟩ => rfl | ⟨1, _⟩ => rfl⟩
  obtain rfl : u = 0 := Subsingleton.elim _ _
  -- the row g this trip handles, and the word q of the flat list that lane b reads
  have hL1 : (L 1).val < 16 := (L 1).isLt
  have hL0 : (L 0).val < 2 := (L 0).isLt
  have hk : k.val < 52 := Nat.lt_of_lt_of_le k.isLt k0_t1_abs.2.1
  have e10 : k0_off1 L k 0 = 2 * (L 1).val + (L 0).val + 32 * k.val := congrFun (k0_off1_eq L k) 0
  have e11 : k0_off1 L k 1 = 0 := congrFun (k0_off1_eq L k) 1
  have e2 : k0_off2 L k 0 = 4096 * ((2 * (L 1).val + (L 0).val + 32 * k.val) / 64) := congrFun (k0_off2_eq L k) 0
  have e50 : k0_off5 L k 0 = 2 * (L 1).val + (L 0).val + 32 * k.val := congrFun (k0_off5_eq L k) 0
  have e51 : k0_off5 L k 1 = 0 := congrFun (k0_off5_eq L k) 1
  -- what the write-out leaves at the element
  have hx : ((oRow L k).view.slice (Rect.whole S1x4096)).emb (ix2 (0 : Fin 1) b) = (oRow L k).view.emb (ix2 (0 : Fin 1) b) := by
    show (oRow L k).view.emb ((Rect.whole S1x4096).emb (ix2 (0 : Fin 1) b)) = _
    rw [Rect.emb_whole_apply]
  have hw := View.write_emb_of_mem (v := (oRow L k).view.slice (Rect.whole S1x4096)) (Val := Elt F) O0
    (ReadAs.same.apply (View.read (Elt F) (sC).view fc)) (Finset.mem_univ (ix2 (0 : Fin 1) b))
  rw [hx] at hw
  refine hw.trans ?_
  show (fc : Vec F S1x4096 .f32) (ix2 (0 : Fin 1) b) = _
  rw [hP b (by rw [trips2]; omega)]
  rw [gath_congr d L (View.write_whole_univ (Val := Elt F) cc0_scratch0 fa0 (slabPay d L k Tc))
    (View.write_whole_univ (Val := Elt F) cc0_scratch1 fb0 (idxPay d L k Xc)) b]
  unfold gath
  have hi0 : (((oRow L k).view.emb (ix2 (0 : Fin 1) b)) 0).val = 2 * (L 1).val + (L 0).val + 32 * k.val := by
    show k0_off5 L k 0 + 1 * 0 = _; omega
  have hi1 : (((oRow L k).view.emb (ix2 (0 : Fin 1) b)) 1).val = b.val := by
    show k0_off5 L k 1 + 1 * b.val = _; omega
  have hq := idxPay_apply d L k Xc b ⟨4096 * ((2 * (L 1).val + (L 0).val + 32 * k.val) / 64) + b.val, by omega⟩ (by show _ = 4096 * _ + b.val; omega)
  rw [Gout_apply d Tc Xc _ ⟨2 * (L 1).val + (L 0).val + 32 * k.val, by omega⟩
    ⟨4096 * ((2 * (L 1).val + (L 0).val + 32 * k.val) / 64) + b.val, by omega⟩ hi0 (by rw [hi0, hi1]; show _ = 4096 * _ + b.val; omega)]
  refine (slabPay_apply d L k Tc _ ⟨2 * (L 1).val + (L 0).val + 32 * k.val, by omega⟩ e10 e11).trans ?_
  refine congrArg (fun r => (Tc : Vec F S1664x100001 .f32) (ix2 _ r)) (Fin.ext ?_)
  show min (idxPay d L k Xc (ix1 b)).toNat 100000 = min _ 100000
  rw [hq]

end Cert.Proof.KI
end
-- ==== Proof.KiBody.lean ====
/-
  One task of the kernel, at a symbolic grid point L of a device d. The task holds read shares of the table and the index
  list, its own 52 rows of the output (each by exactly its elements), its three scratch buffers and its three DMA
  semaphores at zero. The outer loop's invariant: the rows of the trips done hold the kernel's function, the others what
  they held; each trip fetches row g and the indices of g's field (two local copies, each waited for), runs the inner
  loop — whose invariant is that the out scratch holds the gathered values at the lanes of the trips done, sixteen per
  trip, the fetched row and indices unchanged —, and writes the out scratch to row g (a third local copy). The indices
  loaded are in range because every word of the list is at most 99999.
-/
import proofs.«206583_g19980187861832_cont_8to1_303_35_alg».proof.Proof.KiVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S1664x100001 EltTy.f32)
local notation "xW" => (Memref.whole Cert.KernelIdeal.main_v3_scv : Memref Cert.KernelIdeal.sig Kind.scVector Space.hbm Cert.KernelIdeal.S106496 EltTy.i32)
local notation "oW" => (Memref.whole Cert.KernelIdeal.main_v4_scv : Memref Cert.KernelIdeal.sig Kind.scVector Space.hbm Cert.KernelIdeal.S1664x4096 EltTy.f32)
local notation "sA" => (Memref.whole Cert.KernelIdeal.cc0_scratch0 : Memref Cert.KernelIdeal.sig Kind.scVector Space.vmem Cert.KernelIdeal.S1x100001 EltTy.f32)
local notation "sB" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S1x4096 EltTy.f32)

variable [FloatOps F]

section Tile
variable (d : Dev nD) (L : grid0.Coords)
abbrev cA (d : Dev nD) (L : grid0.Coords) : GSem nD τ sig := (thr d L, .dma cc0_scoped0.sem)
abbrev cB (d : Dev nD) (L : grid0.Coords) : GSem nD τ sig := (thr d L, .dma cc0_scoped1.sem)
abbrev cC (d : Dev nD) (L : grid0.Coords) : GSem nD τ sig := (thr d L, .dma cc0_scoped2.sem)

omit [FloatOps F] in
theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_sA_access (f : Buf (Elt F) ((thr d L).loc cc0_scratch0)) :
    (((sA).access (.whole S1x100001)).loc (thr d L) ↦{fullShare} f : sProp 𝕄) = ((sA).view.loc (thr d L) ↦{fullShare} f) := rfl

/-- The task's rows of the output, each held by exactly its elements, at the contents `f`. -/
def rowsOf (f : Buf (Elt F) (oLoc d)) : sProp 𝕄 :=
  bigSep Finset.univ fun k' : Fin k0_t1_loop.trips => (oRow L k').view.loc (thr d L) ↦[(oRow L k').view.set]{fullShare} f

/-- The inner loop's invariant: the fetched row and indices unchanged, the out scratch filled up to the trip. -/
def invI (fa : Buf (Elt F) ((sA).view.loc (thr d L))) (fb : Buf (Elt F) ((sB).view.loc (thr d L))) (v : Nat) (_ : PUnit) : sProp 𝕄 :=
  iprop(∃ fc, ((sA).view.loc (thr d L) ↦{fullShare} fa) ∗ ((sB).view.loc (thr d L) ↦{fullShare} fb)
    ∗ ((sC).view.loc (thr d L) ↦{fullShare} fc) ∗ ⌜OrowUpTo d L fa fb v fc⌝)

/-- The outer loop's invariant: the table and the index list read-only, the scratch at some contents, the task's
    semaphores at zero, and the rows of the trips done at the kernel's function. -/
def invO (O : CellTallies nD τ sig (HIx 1)) (W : Waits sig (HIx 1)) (q1 q3 : PosShare TreeShare)
    (Tc : Buf (Elt F) (tLoc d)) (Xc : Buf (Elt F) (xLoc d)) (O0 G : Buf (Elt F) (oLoc d)) (k : Nat) (_ : PUnit) : sProp 𝕄 :=
  iprop(Transfers.MayWaits (thr d L) (none : HIx 1) O
    ∗ ((tW).view.loc (thr d L) ↦{q1} Tc)
    ∗ ((xW).view.loc (thr d L) ↦{q3} Xc)
    ∗ (∃ f, (sA).view.loc (thr d L) ↦{fullShare} f)
    ∗ (∃ f, (sB).view.loc (thr d L) ↦{fullShare} f)
    ∗ (∃ f, (sC).view.loc (thr d L) ↦{fullShare} f)
    ∗ semVal (cA d L) 0 ∗ semVal (cB d L) 0 ∗ semVal (cC d L) 0
    ∗ (bigSep Finset.univ fun k' : Fin k0_t1_loop.trips =>
        (oRow L k').view.loc (thr d L) ↦[(oRow L k').view.set]{fullShare} (if k'.val < k then G else O0))
    ∗ ∃ W', ⌜∀ p ∈ W', p ∈ W ∨ p.2 = none⌝ ∗ owes (thr d L) O W')

omit [FloatOps F] in
/-- Row `k` written, the rows before it done: the rows up to `k` are done. -/
theorem rows_step (k : Fin k0_t1_loop.trips) (O0 G Wr : Buf (Elt F) (oLoc d)) (hW : ∀ i ∈ (oRow L k).view.set, Wr i = G i) :
    iprop(((oRow L k).view.loc (thr d L) ↦[(oRow L k).view.set]{fullShare} Wr)
        ∗ bigSep (Finset.univ.erase k) fun k' : Fin k0_t1_loop.trips =>
          (oRow L k').view.loc (thr d L) ↦[(oRow L k').view.set]{fullShare} (if k'.val < k.val then G else O0))
      ⊢ (bigSep Finset.univ fun k' : Fin k0_t1_loop.trips =>
          (oRow L k').view.loc (thr d L) ↦[(oRow L k').view.set]{fullShare} (if k'.val < k.val + 1 then G else O0) : sProp 𝕄) := by
  rw [SparseCore.bigSep_erase' (Finset.mem_univ k) (Φ := fun k' : Fin k0_t1_loop.trips =>
      ((oRow L k').view.loc (thr d L) ↦[(oRow L k').view.set]{fullShare} (if k'.val < k.val + 1 then G else O0) : sProp 𝕄)),
    if_pos (Nat.lt_succ_self _), pointsTo_congr hW]
  refine sep_mono_right (Entails.of_eq (bigSep_congr fun k' hk' => ?_))
  have hne : k'.val ≠ k.val := fun e => (Finset.mem_erase.mp hk').1 (Fin.ext e)
  by_cases h : k'.val < k.val
  · rw [if_pos h, if_pos (by omega)]
  · rw [if_neg h, if_neg (by omega)]

omit [FloatOps F] in
/-- Before the first trip no row is done; after the last every row is. -/
theorem rows_init (O0 G : Buf (Elt F) (oLoc d)) :
    (bigSep Finset.univ fun k' : Fin k0_t1_loop.trips => ((oRow L k').view.loc (thr d L) ↦[(oRow L k').view.set]{fullShare} O0 : sProp 𝕄))
      = bigSep Finset.univ fun k' : Fin k0_t1_loop.trips =>
          (oRow L k').view.loc (thr d L) ↦[(oRow L k').view.set]{fullShare} (if k'.val < 0 then G else O0) :=
  bigSep_congr fun k' _ => by rw [if_neg (Nat.not_lt_zero _)]
omit [FloatOps F] in
theorem rows_done (O0 G : Buf (Elt F) (oLoc d)) (n : Nat) (hn : ∀ k' : Fin k0_t1_loop.trips, k'.val < n) :
    (bigSep Finset.univ fun k' : Fin k0_t1_loop.trips =>
        ((oRow L k').view.loc (thr d L) ↦[(oRow L k').view.set]{fullShare} (if k'.val < n then G else O0) : sProp 𝕄))
      = bigSep Finset.univ fun k' : Fin k0_t1_loop.trips => (oRow L k').view.loc (thr d L) ↦[(oRow L k').view.set]{fullShare} G :=
  bigSep_congr fun k' _ => by rw [if_pos (hn k')]

theorem tile_body (hF : (K (F := F)).Facts) (O : CellTallies nD τ sig (HIx 1)) (W : Waits sig (HIx 1)) (hO : ∀ g, O g none = 0)
    (q1 q3 : PosShare TreeShare) (Tc : Buf (Elt F) (tLoc d)) (Xc : Buf (Elt F) (xLoc d)) (O0 : Buf (Elt F) (oLoc d))
    (hX : ∀ i : S106496.Idx, ((Xc : Vec F S106496 .i32) i).toNat ≤ 99999) :
    iprop(levAts (K (F := F)).L (K (F := F)).lev ∗ emp ∗ (tPts d q1 Tc ∗ xPts d q3 Xc ∗ rowsOf d L O0)
        ∗ scopedBufs (thr d L) ∗ scopedSems0 (thr d L) ∗ owes (thr d L) O W)
      ⊢ wp frame (wpE (defs₀ (F := F)) 𝒱₀ (thr d L) none) Set.univ
          (cc0__gather L tW (Memref.isWhole_whole _) xW (Memref.isWhole_whole _) oW (Memref.isWhole_whole _)
            sA (Memref.isWhole_whole _) sB (Memref.isWhole_whole _) sC (Memref.isWhole_whole _) cc0_scoped0 cc0_scoped1 cc0_scoped2)
          fun _ => iprop((tPts d q1 Tc ∗ xPts d q3 Xc ∗ rowsOf d L (Gout d Tc Xc)) ∗ scopedBufs (thr d L) ∗ scopedSems0 (thr d L)
            ∗ ∃ W', ⌜∀ p ∈ W', p ∈ W ∨ p.2 = none⌝ ∗ owes (thr d L) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold rowsOf
  iintro ⟨#Hlv, -, ⟨Ht, Hx, Hrows⟩, ⟨⟨%fa, Ha⟩, ⟨%fb, Hb⟩, ⟨%fc, Hc⟩, Hbufs⟩, ⟨HsA, HsB, HsC, Hsems⟩, HO⟩
  ihave Hmw := ((K (F := F)).mayWaits_none (thr := thr d L) hO) $$ Hlv
  sl_exec
  sl_for (invO d L O W q1 q3 Tc Xc O0 (Gout d Tc Xc)) $$ [Hmw Ht Hx Ha Hb Hc HsA HsB HsC Hrows HO]
  case region =>
    intro k _
    unfold invO
    iintro ⟨Hmw, Ht, Hx, ⟨%fa, Ha⟩, ⟨%fb, Hb⟩, ⟨%fc, Hc⟩, HsA, HsB, HsC, Hrows, %W', %hW', HO⟩
    ihave Hrows' := (Entails.of_eq (SparseCore.bigSep_erase' (Finset.mem_univ k))) $$ Hrows
    icases Hrows' with ⟨Hrow, Hrest⟩
    rw [if_neg (Nat.lt_irrefl _)]
    sl_exec
    sl_unfold_run_names
    sl_for (invI d L (View.write (Elt F) (sA).view fa (slabPay d L k Tc) Finset.univ) (View.write (Elt F) (sB).view fb (idxPay d L k Xc) Finset.univ)) $$ [Ha Hb Hc]
    case region =>
      intro v _
      unfold invI
      iintro ⟨%fc1, Ha, Hb, Hc, %hP⟩
      sl_exec (disch := exact chk_holds d L k _ Xc hX _)
      ihave Ha' := (Entails.of_eq (pts_sA_access (F := F) d L _).symm) $$ Ha
      iapply (SparseCore.wp_vectorLoadIdx 𝒱₀ (thr d L) none Set.univ (base := sA) (S := Finset.univ) (q := fullShare) (Finset.subset_univ _)) $$ Ha'; iintro Ha'
      ihave Ha := (Entails.of_eq (pts_sA_access (F := F) d L _)) $$ Ha'
      sl_exec
      sl_unfold_run_names
      sl_step
      iexists _
      isplitl [Ha]; · iexact Ha
      isplitl [Hb]; · iexact Hb
      isplitl [Hc]; · iexact Hc
      ipureintro
      exact orow_step d L _ _ _ v hP _
    · unfold invI
      iexists fc
      isplitl [Ha]; · iexact Ha
      isplitl [Hb]; · iexact Hb
      isplitl [Hc]; · iexact Hc
      ipureintro; intro c hc; omega
    iintro %_ HI
    unfold invI
    icases HI with ⟨%fc2, Ha, Hb, Hc, %hP2⟩
    sl_exec
    sl_unfold_run_names
    sl_step
    isplitl [Hmw]; · iexact Hmw
    isplitl [Ht]; · iexact Ht
    isplitl [Hx]; · iexact Hx
    isplitl [Ha]; · iexists _; iexact Ha
    isplitl [Hb]; · iexists _; iexact Hb
    isplitl [Hc]; · iexists _; iexact Hc
    isplitl [HsA]; · iexact HsA
    isplitl [HsB]; · iexact HsB
    isplitl [HsC]; · iexact HsC
    isplitl [Hrow Hrest]
    · iapply (rows_step d L k O0 (Gout d Tc Xc) _ (row_final d L k fa fb fc2 Tc Xc O0 hX hP2))
      isplitl [Hrow]; · iexact Hrow
      iexact Hrest
    iexists (insert (SemLoc.dma cc0_scoped2.sem, (default : HIx 1)) (insert (SemLoc.dma cc0_scoped1.sem, (default : HIx 1))
      (insert (SemLoc.dma cc0_scoped0.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold invO
    isplitl [Hmw]; · iexact Hmw
    isplitl [Ht]; · iexact Ht
    isplitl [Hx]; · iexact Hx
    isplitl [Ha]; · iexists _; iexact Ha
    isplitl [Hb]; · iexists _; iexact Hb
    isplitl [Hc]; · iexists _; iexact Hc
    isplitl [HsA]; · iexact HsA
    isplitl [HsB]; · iexact HsB
    isplitl [HsC]; · iexact HsC
    isplitl [Hrows]
    · iapply (Entails.of_eq (rows_init d L O0 (Gout d Tc Xc))); iexact Hrows
    iexists W; isplitr
    · ipureintro; exact fun p hp => .inl hp
    · iexact HO
  iintro %_ HI
  unfold invO
  icases HI with ⟨-, Ht, Hx, ⟨%fa', Ha⟩, ⟨%fb', Hb⟩, ⟨%fc', Hc⟩, HsA, HsB, HsC, Hrows, %W', %hW', HO⟩
  sl_exec
  sl_step
  isplitl [Ht Hx Hrows]
  · isplitl [Ht]; · iexact Ht
    isplitl [Hx]; · iexact Hx
    iapply (Entails.of_eq (rows_done d L O0 (Gout d Tc Xc) _ (fun k' => k'.isLt))); iexact Hrows
  isplitl [Ha Hb Hc Hbufs]
  · isplitl [Ha]; · iexists _; iexact Ha
    isplitl [Hb]; · iexists _; iexact Hb
    isplitl [Hc]; · iexists _; iexact Hc
    iexact Hbufs
  isplitl [HsA HsB HsC Hsems]
  · isplitl [HsA]; · iexact HsA
    isplitl [HsB]; · iexact HsB
    isplitl [HsC]; · iexact HsC
    iexact Hsems
  iexists W'; isplitr
  · ipureintro; exact hW'
  · iexact HO

end Tile
end Cert.Proof.KI
end
-- ==== Proof.KiLaunch.lean ====
/-
  The kernel's program run. The call's payloads: each SparseCore takes a read share of the table and of the index list and
  the rows of its sixteen tasks, each task a share of those shares and its own 52 rows (row 2 s + c + 32 k for subcore s of
  SparseCore c in trip k: the 1664 rows once each); both hand back the same with the rows at the kernel's function. The
  TensorCore's @main: four re-layouts on the host, the call, two re-layouts of what came back. The run: every weakly fair
  execution of the device's 35 threads terminates with the result array at the re-laid kernel's function of the re-laid
  arguments, and the arguments unchanged.
-/
import proofs.«206583_g19980187861832_cont_8to1_303_35_alg».proof.Proof.KiBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.ValueIdx (ix1 ix2)

variable {F : FTy → Type}

local notation "𝕄" => MT nD τ sig (HIx 1) (Elt F) ℕ UU ℕ

local notation "tW" => (Memref.whole Cert.KernelIdeal.main_v1_scv : Memref Cert.KernelIdeal.sig Kind.scVector Space.hbm Cert.KernelIdeal.S1664x100001 EltTy.f32)
local notation "xW" => (Memref.whole Cert.KernelIdeal.main_v3_scv : Memref Cert.KernelIdeal.sig Kind.scVector Space.hbm Cert.KernelIdeal.S106496 EltTy.i32)
local notation "oW" => (Memref.whole Cert.KernelIdeal.main_v4_scv : Memref Cert.KernelIdeal.sig Kind.scVector Space.hbm Cert.KernelIdeal.S1664x4096 EltTy.f32)
local notation "sA" => (Memref.whole Cert.KernelIdeal.cc0_scratch0 : Memref Cert.KernelIdeal.sig Kind.scVector Space.vmem Cert.KernelIdeal.S1x100001 EltTy.f32)
local notation "sB" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S1x4096 EltTy.f32)

variable [FloatOps F]

/-! ## The call's payloads -/

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s read share of an array the whole grid reads, and vector subcore `i`'s share of that. -/
abbrev qC (c : ℕ) : PosShare TreeShare := Transfers.shareTokN fullShare c
abbrev qCT (c i : ℕ) : PosShare TreeShare := Transfers.shareTokN (qC c) i

theorem bound_zero : grid0.bound 0 = 2 := rfl
theorem bound_one : grid0.bound 1 = 16 := rfl

section Pay
-- the table, the index list and the output as the call finds them, per device
variable (Tc : (d : Dev nD) → Buf (Elt F) (tLoc d)) (Xc : (d : Dev nD) → Buf (Elt F) (xLoc d)) (O0 : (d : Dev nD) → Buf (Elt F) (oLoc d))

/-- The grid point of task `i` of SparseCore `c` of the call. -/
abbrev LV (c : Fin ((K (F := F)).nCore 0)) (i : Fin ((K (F := F)).nSub 0)) : grid0.Coords := coordsV ⟨c.val, c.isLt⟩ ⟨i.val, i.isLt⟩

/-- What a task takes and hands back: read shares of the table and the index list, and its own rows of the output. -/
abbrev taskRes (d : Dev nD) (c : Fin ((K (F := F)).nCore 0)) (i : Fin ((K (F := F)).nSub 0)) (f : Buf (Elt F) (oLoc d)) : sProp 𝕄 :=
  iprop(tPts d (qCT c.val i.val) (Tc d) ∗ xPts d (qCT c.val i.val) (Xc d) ∗ rowsOf d (LV c i) f)
/-- What a SparseCore takes and hands back. -/
abbrev coreRes (d : Dev nD) (c : Fin ((K (F := F)).nCore 0)) (f : Buf (Elt F) (oLoc d)) : sProp 𝕄 :=
  iprop(tPts d (qC c.val) (Tc d) ∗ xPts d (qC c.val) (Xc d) ∗ bigSep Finset.univ fun i : Fin ((K (F := F)).nSub 0) => rowsOf d (LV c i) f)

def P : (K (F := F)).Pay (nD := nD) (Val := Elt F) (Name := ℕ) (U := UU) where
  st := fun q d c => match q with | 0 => coreRes Tc Xc d c (O0 d)
  dn := fun q d c => match q with | 0 => coreRes Tc Xc d c (Gout d (Tc d) (Xc d))
  go := fun q d c i => match q with | 0 => taskRes Tc Xc d c i (O0 d)
  td := fun q d c i => match q with | 0 => taskRes Tc Xc d c i (Gout d (Tc d) (Xc d))
  x := fun _ _ => iprop(emp)

instance P_storable : (P (F := F) Tc Xc O0).IsStorable where
  st q d c := match q with | 0 => by unfold P coreRes rowsOf; infer_instance
  dn q d c := match q with | 0 => by unfold P coreRes rowsOf; infer_instance
  go q d c i := match q with | 0 => by unfold P taskRes rowsOf; infer_instance
  td q d c i := match q with | 0 => by unfold P taskRes rowsOf; infer_instance

/-! ## The task's obligation -/

theorem defs₀_vector (c : Fin τ.nSC) (s : Fin τ.nSub) :
    defs₀ (F := F) (.scVector c s) 0 ()
      = SparseCore.onTile hcore0 hsub0 (fun c s => cc0__gather (coordsV c s)
          tW (Memref.isWhole_whole _) xW (Memref.isWhole_whole _) oW (Memref.isWhole_whole _)
          sA (Memref.isWhole_whole _) sB (Memref.isWhole_whole _) sC (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ (d : Dev nD) (i : S106496.Idx), ((Xc d : Vec F S106496 .i32) i).toNat ≤ 99999) :
    (K (F := F)).TileObl (D (F := F)) 𝒱 (P Tc Xc O0) v₀ 0 := by
  intro d c i O W hO _ _
  simp only [show (P Tc Xc O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ _ (Tc d) (Xc d) (O0 d) (hX d)).trans (wp_mono frame _ _ fun _ => obl_post)

/-! ## The output's rows -/

omit [FloatOps F] in
theorem hdiv : 1664 ∣ S1664x4096.size 0 := ⟨1, rfl⟩
/-- Row `g` of the output, and its elements. -/
abbrev row (g : Fin 1664) : Rect S1664x4096 := Rect.part (s := S1664x4096) (a₀ := 0) hdiv g
abbrev rowSet (g : Fin 1664) : Finset S1664x4096.Idx := ((oW).view.slice (row g)).set

/-- The row a task writes in trip `k`: tasks are numbered subcore-major, and trip `k` is 32 rows further on. -/
def gRow (L : grid0.Coords) (k : Fin k0_t1_loop.trips) : Fin 1664 :=
  ⟨2 * (L 1).val + (L 0).val + 32 * k.val, by
    have h1 : (L 1).val < 16 := (L 1).isLt
    have h0 : (L 0).val < 2 := (L 0).isLt
    have hk : k.val < 52 := Nat.lt_of_lt_of_le k.isLt k0_t1_abs.2.1
    omega⟩

omit [FloatOps F] in
theorem oRow_rect (L : grid0.Coords) (k : Fin k0_t1_loop.trips) :
    Rect.unit (s := S1664x4096) (k0_off5 L k) S1x4096.size (k0_off5_inb L k) = row (gRow L k) := by
  unfold row Rect.part Rect.block
  congr 1 <;> funext a
  · rw [k0_off5_eq]
    match a with
    | 0 => simp [Shape.partIx, Shape.partSize, gRow]
    | 1 => simp [Shape.partIx, Shape.partSize]
  · match a with
    | 0 => simp [Shape.partSize]
    | 1 => simp [Shape.partSize]

omit [FloatOps F] in
theorem set_oRow (L : grid0.Coords) (k : Fin k0_t1_loop.trips) : (oRow L k).view.set = rowSet (gRow L k) := by
  show ((oW).view.slice (Rect.unit (s := S1664x4096) (k0_off5 L k) S1x4096.size (k0_off5_inb L k))).set = ((oW).view.slice (row (gRow L k))).set
  rw [oRow_rect]

omit [FloatOps F] in
theorem pts_oRow (d : Dev nD) (L : grid0.Coords) (k : Fin k0_t1_loop.trips) (f : Buf (Elt F) (oLoc d)) :
    ((oRow L k).view.loc (thr d L) ↦[(oRow L k).view.set]{fullShare} f : sProp 𝕄) = oLoc d ↦[rowSet (gRow L k)]{fullShare} f := by
  rw [set_oRow]

omit [FloatOps F] in
theorem rowSet_eq (g : Fin 1664) : rowSet g = (row g).set := by
  show ((View.whole (main_v4_scv : Ref sig .scVector)).slice (row g)).set = _
  rw [View.set_slice]; exact Finset.map_refl
omit [FloatOps F] in
theorem rows_disjoint : ∀ i ∈ (Finset.univ : Finset (Fin 1664)), ∀ j ∈ (Finset.univ : Finset (Fin 1664)), i ≠ j → Disjoint (rowSet i) (rowSet j) :=
  fun i _ j _ h => by rw [rowSet_eq, rowSet_eq]; exact Rect.part_disjoint hdiv h
omit [FloatOps F] in
theorem rows_cover : (Finset.univ : Finset (Fin 1664)).biUnion rowSet = Finset.univ :=
  (Finset.biUnion_congr rfl fun i _ => rowSet_eq i).trans (Rect.biUnion_part hdiv)

omit [FloatOps F] in
/-- The output whole is its 1664 rows. -/
theorem oPts_rows (d : Dev nD) (f : Buf (Elt F) (oLoc d)) :
    (oLoc d ↦{fullShare} f : sProp 𝕄) = bigSep Finset.univ fun g : Fin 1664 => oLoc d ↦[rowSet g]{fullShare} f := by
  rw [← pointsTo_biUnion Finset.univ (ℓ := oLoc d) rowSet rows_disjoint, rows_cover]; try rfl

/-- The rows by SparseCore, vector subcore and trip. -/
def rowOf (x : Fin ((K (F := F)).nCore 0) × Fin ((K (F := F)).nSub 0) × Fin k0_t1_loop.trips) : Fin 1664 := gRow (LV x.1 x.2.1) x.2.2

omit [FloatOps F] in
theorem rowOf_val (x : Fin ((K (F := F)).nCore 0) × Fin ((K (F := F)).nSub 0) × Fin k0_t1_loop.trips) :
    (rowOf x).val = 2 * x.2.1.val + x.1.val + 32 * x.2.2.val := rfl

omit [FloatOps F] in
theorem rowOf_inj : Function.Injective (rowOf (F := F)) := by
  intro x y e
  have e' := congrArg Fin.val e
  rw [rowOf_val, rowOf_val] at e'
  have hx1 : x.1.val < 2 := x.1.isLt
  have hy1 : y.1.val < 2 := y.1.isLt
  have hx2 : x.2.1.val < 16 := x.2.1.isLt
  have hy2 : y.2.1.val < 16 := y.2.1.isLt
  exact Prod.ext (Fin.ext (by omega)) (Prod.ext (Fin.ext (by omega)) (Fin.ext (by omega)))

omit [FloatOps F] in
theorem rowOf_surj : Function.Surjective (rowOf (F := F)) := by
  intro g
  have hg : g.val < 1664 := g.isLt
  refine ⟨(⟨g.val % 2, by show g.val % 2 < 2; omega⟩, ⟨(g.val % 32) / 2, by show (g.val % 32) / 2 < 16; omega⟩,
    ⟨g.val / 32, by show g.val / 32 < 52; omega⟩), Fin.ext ?_⟩
  rw [rowOf_val]
  show 2 * ((g.val % 32) / 2) + g.val % 2 + 32 * (g.val / 32) = g.val
  omega

omit [FloatOps F] in
/-- A product over the 1664 rows is the product over SparseCores, subcores and trips. -/
theorem bigSep_rows (Φ : Fin 1664 → sProp 𝕄) :
    bigSep Finset.univ Φ = bigSep Finset.univ fun c : Fin ((K (F := F)).nCore 0) => bigSep Finset.univ fun i : Fin ((K (F := F)).nSub 0) =>
      bigSep Finset.univ fun k : Fin k0_t1_loop.trips => Φ (gRow (LV c i) k) := by
  have himg : (Finset.univ : Finset (Fin 1664)) = Finset.univ.image (rowOf (F := F)) :=
    (Finset.eq_univ_iff_forall.mpr fun g => by
      obtain ⟨x, rfl⟩ := rowOf_surj (F := F) g; exact Finset.mem_image_of_mem _ (Finset.mem_univ x)).symm
  rw [himg, SparseCore.bigSep_image_of_injOn (rowOf_inj (F := F)).injOn Φ, ← Finset.univ_product_univ, SparseCore.bigSep_product]
  refine bigSep_congr fun c _ => ?_
  rw [← Finset.univ_product_univ, SparseCore.bigSep_product]
  rfl

omit [FloatOps F] in
/-- The output whole is the tasks' rows, SparseCore by SparseCore. -/
theorem oPts_tasks (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => rowsOf d (LV c i) f := by
  rw [oPts_rows, bigSep_rows]
  refine bigSep_congr fun c _ => bigSep_congr fun i _ => ?_
  unfold rowsOf
  exact bigSep_congr fun k _ => (pts_oRow d (LV c i) k f).symm

/-! ## A SparseCore's operands among its tasks -/

theorem vecSplit : (K (F := F)).VecSplit' (P Tc Xc O0) 0 := by
  intro d c
  show coreRes Tc Xc d c (O0 d) ⊢ |={Set.univ}=> iprop((bigSep Finset.univ fun i : Fin ((K (F := F)).nSub 0) => taskRes Tc Xc d c i (O0 d))
      ∗ ((bigSep Finset.univ fun i : Fin ((K (F := F)).nSub 0) => taskRes Tc Xc d c i (Gout d (Tc d) (Xc d))) -∗ coreRes Tc Xc d c (Gout d (Tc d) (Xc d))))
  rw [bigSep_sep', bigSep_sep', bigSep_sep', bigSep_sep']
  iintro ⟨Ht, Hx, Hrows⟩
  ihave Ht' := (Transfers.pointsTo_toks_split (qC c.val) ((K (F := F)).nSub 0)) $$ Ht
  icases Ht' with ⟨Htr, Htt⟩
  ihave Hx' := (Transfers.pointsTo_toks_split (qC c.val) ((K (F := F)).nSub 0)) $$ Hx
  icases Hx' with ⟨Hxr, Hxt⟩
  imodintro
  isplitl [Htt Hxt Hrows]
  · isplitl [Htt]; · iexact Htt
    isplitl [Hxt]; · iexact Hxt
    iexact Hrows
  iintro ⟨Htt, Hxt, Hrows⟩
  isplitl [Htr Htt]
  · iapply (Transfers.pointsTo_toks_join (qC c.val) ((K (F := F)).nSub 0))
    isplitl [Htr]; · iexact Htr
    iexact Htt
  isplitl [Hxr Hxt]
  · iapply (Transfers.pointsTo_toks_join (qC c.val) ((K (F := F)).nSub 0))
    isplitl [Hxr]; · iexact Hxr
    iexact Hxt
  iexact Hrows

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Tc Xc O0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Pay

/-! ## @main on the TensorCore -/

section Main
variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
/-- The TensorCore's arrays, all unscoped. -/
abbrev S9 : Finset (DevRef τ sig) := {a0', a1', v0', v1', v2', v3', v4', v5', v6'}

/-- @main's host operations: two re-layouts of the table, two of the indices, before the call; two of the result after it. -/
abbrev op1 : HloOp τ sig (Elt F) := StableHlo.unary main_arg1 main_v0 ((transpose S26x64x100001 [0, 2, 1] · transposes_S26x100001x64_S26x64x100001_0_2_1) : (⟨S26x100001x64, .f32⟩ : BufTy).Contents (Elt F) → (⟨S26x64x100001, .f32⟩ : BufTy).Contents (Elt F))
abbrev op2 : HloOp τ sig (Elt F) := StableHlo.reshape main_v0 main_v1 rfl shapeCasts_S26x64x100001_S1664x100001
abbrev op3 : HloOp τ sig (Elt F) := StableHlo.unary main_arg0 main_v2 ((transpose S26x4096 [1, 0] · transposes_S4096x26_S26x4096_1_0) : (⟨S4096x26, .i32⟩ : BufTy).Contents (Elt F) → (⟨S26x4096, .i32⟩ : BufTy).Contents (Elt F))
abbrev op4 : HloOp τ sig (Elt F) := StableHlo.reshape main_v2 main_v3 rfl shapeCasts_S26x4096_S106496
abbrev op5 : HloOp τ sig (Elt F) := StableHlo.reshape main_v4 main_v5 rfl shapeCasts_S1664x4096_S26x64x4096
abbrev op6 : HloOp τ sig (Elt F) := StableHlo.unary main_v5 main_v6 ((transpose S4096x26x64 [2, 0, 1] · transposes_S26x64x4096_S4096x26x64_2_0_1) : (⟨S26x64x4096, .f32⟩ : BufTy).Contents (Elt F) → (⟨S4096x26x64, .f32⟩ : BufTy).Contents (Elt F))

omit [FloatOps F] in
theorem held_S9 (d : Dev nD) (W : Valuation τ sig (Elt F)) :
    (held (T d) S9 W : sProp 𝕄) = iprop(((SparseCore.T d).loc main_arg0 ↦{fullShare} W a0') ∗ ((SparseCore.T d).loc main_arg1 ↦{fullShare} W a1')
      ∗ ((SparseCore.T d).loc main_v0 ↦{fullShare} W v0') ∗ (tLoc d ↦{fullShare} W v1') ∗ ((SparseCore.T d).loc main_v2 ↦{fullShare} W v2')
      ∗ (xLoc d ↦{fullShare} W v3') ∗ (oLoc d ↦{fullShare} W v4') ∗ ((SparseCore.T d).loc main_v5 ↦{fullShare} W v5')
      ∗ (SparseCore.T d).loc main_v6 ↦{fullShare} W v6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ (tLoc d ↦{fullShare} W main_v1) ∗ ((SparseCore.T d).loc main_v2 ↦{fullShare} W main_v2)
      ∗ (xLoc d ↦{fullShare} W main_v3) ∗ (oLoc d ↦{fullShare} W main_v4) ∗ ((SparseCore.T d).loc main_v5 ↦{fullShare} W main_v5)
      ∗ (SparseCore.T d).loc main_v6 ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation, and the valuation when the call is made. -/
abbrev V0 (d : Dev nD) : Valuation τ sig (Elt F) := fun b => m (d, b)
abbrev V4 (d : Dev nD) : Valuation τ sig (Elt F) :=
  (op4 (F := F)).result ((op3 (F := F)).result ((op2 (F := F)).result ((op1 (F := F)).result (V0 m d))))
/-- The table, the index list and the output as the call finds them. -/
abbrev TcM (d : Dev nD) : Buf (Elt F) (tLoc d) := V4 m d v1'
abbrev XcM (d : Dev nD) : Buf (Elt F) (xLoc d) := V4 m d v3'
abbrev OcM (d : Dev nD) : Buf (Elt F) (oLoc d) := V4 m d v4'
/-- After the call the output holds the kernel's function of them; then the two re-layouts of it. -/
abbrev V5 (d : Dev nD) : Valuation τ sig (Elt F) := Function.update (V4 m d) v4' (Gout d (TcM m d) (XcM m d))
abbrev V7 (d : Dev nD) : Valuation τ sig (Elt F) := (op6 (F := F)).result ((op5 (F := F)).result (V5 m d))

theorem unscoped_held (d : Dev nD) : (unscopedBufs d (fun b => m ((SparseCore.T d).loc b)) : sProp 𝕄) = held (T d) S9 (V0 m d) := by
  rw [unscopedBufs_eq, held_S9]

theorem h1 : (op1 (F := F)).bufs ⊆ S9 := show ({a1', v0'} : Finset (DevRef τ sig)) ⊆ S9 by decide
theorem h2 : (op2 (F := F)).bufs ⊆ S9 := show ({v0', v1'} : Finset (DevRef τ sig)) ⊆ S9 by decide
theorem h3 : (op3 (F := F)).bufs ⊆ S9 := show ({a0', v2'} : Finset (DevRef τ sig)) ⊆ S9 by decide
theorem h4 : (op4 (F := F)).bufs ⊆ S9 := show ({v2', v3'} : Finset (DevRef τ sig)) ⊆ S9 by decide
theorem h5 : (op5 (F := F)).bufs ⊆ S9 := show ({v4', v5'} : Finset (DevRef τ sig)) ⊆ S9 by decide
theorem h6 : (op6 (F := F)).bufs ⊆ S9 := show ({v5', v6'} : Finset (DevRef τ sig)) ⊆ S9 by decide

end Main

section Main2
variable (m : (ℓ : Loc nD τ sig) → Buf (Elt F) ℓ) (ρ : Dev nD → PrngReg)

omit [FloatOps F] in
theorem st_eq (Tc : (d : Dev nD) → Buf (Elt F) (tLoc d)) (Xc : (d : Dev nD) → Buf (Elt F) (xLoc d)) (d : Dev nD) (f : Buf (Elt F) (oLoc d)) :
    (bigSep Finset.univ fun c : Fin ((K (F := F)).nCore 0) => coreRes Tc Xc d c f)
      = iprop((bigSep Finset.univ fun c : Fin ((K (F := F)).nCore 0) => (tLoc d ↦{Transfers.shareTok fullShare ((K (F := F)).nCore 0) c} Tc d : sProp 𝕄))
        ∗ (bigSep Finset.univ fun c : Fin ((K (F := F)).nCore 0) => (xLoc d ↦{Transfers.shareTok fullShare ((K (F := F)).nCore 0) c} Xc d : sProp 𝕄))
        ∗ bigSep Finset.univ fun c : Fin ((K (F := F)).nCore 0) => bigSep Finset.univ fun i : Fin ((K (F := F)).nSub 0) => rowsOf d (LV c i) f) := by
  rw [bigSep_sep', bigSep_sep']

omit [FloatOps F] in
theorem dn0_eq (Tc : (d : Dev nD) → Buf (Elt F) (tLoc d)) (Xc : (d : Dev nD) → Buf (Elt F) (xLoc d)) (O0 : (d : Dev nD) → Buf (Elt F) (oLoc d)) (d : Dev nD) :
    (bigSep Finset.univ fun c : Fin ((K (F := F)).nCore 0) => (P Tc Xc O0).dn 0 d c)
      = bigSep Finset.univ fun c : Fin ((K (F := F)).nCore 0) => coreRes Tc Xc d c (Gout d (Tc d) (Xc d)) := rfl

theorem held_V5 (d : Dev nD) :
    (held (T d) S9 (V5 m d) : sProp 𝕄) = iprop(((SparseCore.T d).loc main_arg0 ↦{fullShare} V4 m d a0') ∗ ((SparseCore.T d).loc main_arg1 ↦{fullShare} V4 m d a1')
      ∗ ((SparseCore.T d).loc main_v0 ↦{fullShare} V4 m d v0') ∗ (tLoc d ↦{fullShare} TcM m d) ∗ ((SparseCore.T d).loc main_v2 ↦{fullShare} V4 m d v2')
      ∗ (xLoc d ↦{fullShare} XcM m d) ∗ (oLoc d ↦{fullShare} Gout d (TcM m d) (XcM m d)) ∗ ((SparseCore.T d).loc main_v5 ↦{fullShare} V4 m d v5')
      ∗ (SparseCore.T d).loc main_v6 ↦{fullShare} V4 m d v6') := by
  rw [held_S9]; unfold V5
  rw [Function.update_self, Function.update_of_ne (show a0' ≠ v4' by decide), Function.update_of_ne (show a1' ≠ v4' by decide),
    Function.update_of_ne (show v0' ≠ v4' by decide), Function.update_of_ne (show v1' ≠ v4' by decide), Function.update_of_ne (show v2' ≠ v4' by decide),
    Function.update_of_ne (show v3' ≠ v4' by decide), Function.update_of_ne (show v5' ≠ v4' by decide), Function.update_of_ne (show v6' ≠ v4' by decide)]

/-- What @main leaves the claim: the two arguments and the result. -/
abbrev FIN (d : Dev nD) : sProp 𝕄 :=
  iprop(((SparseCore.T d).loc main_arg0 ↦{fullShare} V7 m d a0') ∗ ((SparseCore.T d).loc main_arg1 ↦{fullShare} V7 m d a1')
    ∗ (SparseCore.T d).loc main_v6 ↦{fullShare} V7 m d v6')

/-- @main on device `d`'s TensorCore: four re-layouts, the call (the table and the index list lent as read shares to the
    two SparseCores, the output handed over by rows), two re-layouts of what came back. -/
theorem hmain (κ : GSem nD τ sig → ℕ) (d : Dev nD) :
    iprop((K (F := F)).ctx EH (P (TcM m) (XcM m) (OcM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S9) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_S9 (F := F) d (V4 m d))) $$ Hheld
  icases Hh with ⟨Ha0, Ha1, Hv0, Hv1, Hv2, Hv3, Hv4, Hv5, Hv6⟩
  ihave Hv1' := (Transfers.pointsTo_toks_split fullShare ((K (F := F)).nCore 0)) $$ Hv1
  icases Hv1' with ⟨Hv1r, Hv1t⟩
  ihave Hv3' := (Transfers.pointsTo_toks_split fullShare ((K (F := F)).nCore 0)) $$ Hv3
  icases Hv3' with ⟨Hv3r, Hv3t⟩
  ihave Hv4' := (Entails.of_eq (oPts_tasks (F := F) d (OcM m d))) $$ Hv4
  iapply ((K (F := F)).wp_run (D (F := F)) 𝒱 (EH := EH) (P := P (TcM m) (XcM m) (OcM m)) κ d 0) $$ [Hst Hv1t Hv3t Hv4' Hb Ha0 Ha1 Hv0 Hv2 Hv5 Hv6 Hv1r Hv3r]
  isplitr; · iexact Hctx
  isplitl [Hst]; · iexact Hst
  isplitl [Hv1t Hv3t Hv4']
  · iapply (Entails.of_eq (st_eq (TcM m) (XcM m) d (OcM m d)).symm)
    isplitl [Hv1t]; · iexact Hv1t
    isplitl [Hv3t]; · iexact Hv3t
    iexact Hv4'
  iintro ⟨Hst, Hdn⟩
  ihave Hdn' := (Entails.of_eq ((dn0_eq (TcM m) (XcM m) (OcM m) d).trans (st_eq (TcM m) (XcM m) d (Gout d (TcM m d) (XcM m d))))) $$ Hdn
  icases Hdn' with ⟨Hv1t, Hv3t, Hv4'⟩
  ihave Hv1 := (Transfers.pointsTo_toks_join fullShare ((K (F := F)).nCore 0)) $$ [Hv1r Hv1t]
  · isplitl [Hv1r]; · iexact Hv1r
    iexact Hv1t
  ihave Hv3 := (Transfers.pointsTo_toks_join fullShare ((K (F := F)).nCore 0)) $$ [Hv3r Hv3t]
  · isplitl [Hv3r]; · iexact Hv3r
    iexact Hv3t
  ihave Hv4 := (Entails.of_eq (oPts_tasks (F := F) d (Gout d (TcM m d) (XcM m d))).symm) $$ Hv4'
  iapply (wp_hlo_within 𝒱 (SparseCore.T d) none Set.univ (op := op5) (S := S9) h5 (V := V5 m d)) $$ [Hb Ha0 Ha1 Hv0 Hv1 Hv2 Hv3 Hv4 Hv5 Hv6]
  · isplitl [Hb]; · iexact Hb
    iapply (Entails.of_eq (held_V5 m d).symm)
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  iintro ⟨Hb, Hheld⟩
  rw [wp_ret]; imodintro
  iapply (wp_hlo_within 𝒱 (SparseCore.T d) none Set.univ (op := op6) (S := S9) h6 (V := (op5 (F := F)).result (V5 m d))) $$ [Hb Hheld]
  · isplitl [Hb]; · iexact Hb
    iexact Hheld
  iintro ⟨Hb, Hheld⟩
  ihave Hh := (Entails.of_eq (held_S9 (F := F) d (V7 m d))) $$ Hheld
  icases Hh with ⟨Ha0, Ha1, -, -, -, -, -, -, Hv6⟩
  rw [wp_ret]; imodintro; imodintro
  isplitl [Hst]; · iexact Hst
  isplitl [Ha0]; · iexact Ha0
  isplitl [Ha1]; · iexact Ha1
  iexact Hv6

end Main2

section Run
variable (m : (ℓ : Loc nD τ sig) → Buf (Elt F) ℓ) (ρ : Dev nD → PrngReg)

theorem V7_a0 (d : Dev nD) : V7 m d a0' = m ((SparseCore.T d).loc main_arg0) := by
  show (op6 (F := F)).result ((op5 (F := F)).result (Function.update (V4 m d) v4' _)) a0' = _
  rw [(op6 (F := F)).result_of_not_mem _ (b := a0') (show a0' ∉ ({v6'} : Finset (DevRef τ sig)) by decide),
    (op5 (F := F)).result_of_not_mem _ (b := a0') (show a0' ∉ ({v5'} : Finset (DevRef τ sig)) by decide),
    Function.update_of_ne (show a0' ≠ v4' by decide)]
  show (op4 (F := F)).result _ a0' = _
  rw [(op4 (F := F)).result_of_not_mem _ (b := a0') (show a0' ∉ ({v3'} : Finset (DevRef τ sig)) by decide),
    (op3 (F := F)).result_of_not_mem _ (b := a0') (show a0' ∉ ({v2'} : Finset (DevRef τ sig)) by decide),
    (op2 (F := F)).result_of_not_mem _ (b := a0') (show a0' ∉ ({v1'} : Finset (DevRef τ sig)) by decide),
    (op1 (F := F)).result_of_not_mem _ (b := a0') (show a0' ∉ ({v0'} : Finset (DevRef τ sig)) by decide)]

theorem V7_a1 (d : Dev nD) : V7 m d a1' = m ((SparseCore.T d).loc main_arg1) := by
  show (op6 (F := F)).result ((op5 (F := F)).result (Function.update (V4 m d) v4' _)) a1' = _
  rw [(op6 (F := F)).result_of_not_mem _ (b := a1') (show a1' ∉ ({v6'} : Finset (DevRef τ sig)) by decide),
    (op5 (F := F)).result_of_not_mem _ (b := a1') (show a1' ∉ ({v5'} : Finset (DevRef τ sig)) by decide),
    Function.update_of_ne (show a1' ≠ v4' by decide)]
  show (op4 (F := F)).result _ a1' = _
  rw [(op4 (F := F)).result_of_not_mem _ (b := a1') (show a1' ∉ ({v3'} : Finset (DevRef τ sig)) by decide),
    (op3 (F := F)).result_of_not_mem _ (b := a1') (show a1' ∉ ({v2'} : Finset (DevRef τ sig)) by decide),
    (op2 (F := F)).result_of_not_mem _ (b := a1') (show a1' ∉ ({v1'} : Finset (DevRef τ sig)) by decide),
    (op1 (F := F)).result_of_not_mem _ (b := a1') (show a1' ∉ ({v0'} : Finset (DevRef τ sig)) by decide)]

def fq (d : Dev nD) (s' : Phys nD τ sig (Elt F)) : Prop :=
  s'.mem.mem ((SparseCore.T d).loc main_arg0) = V7 m d a0' ∧ s'.mem.mem ((SparseCore.T d).loc main_arg1) = V7 m d a1'
    ∧ s'.mem.mem ((SparseCore.T d).loc main_v6) = V7 m d v6'

theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := (SparseCore.T d).loc main_arg0) (I := Finset.univ) (q := fullShare) (f := V7 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V7 m d a1'))) $$ [HSI H1]
  · isplitl [HSI] <;> iassumption
  icases H with ⟨%h1, HSI, -⟩
  ihave H := (SI_pointsTo_agree (st := s') (ℓ := (SparseCore.T d).loc main_v6) (I := Finset.univ) (q := fullShare) (f := V7 m d v6')) $$ [HSI H6]
  · isplitl [HSI] <;> iassumption
  icases H with %h6
  ipureintro
  exact ⟨funext fun i => h0 i (Finset.mem_univ i), funext fun i => h1 i (Finset.mem_univ i), funext fun i => h6 i (Finset.mem_univ i)⟩

/-- What the program's run leaves: the result at the re-laid-out kernel's function, the arguments unchanged. -/
def QC : PUnit × MemSt nD τ sig (Elt F) → Prop := fun r => ∀ c : Dev nD,
  r.2.mem ((SparseCore.T c).loc main_v6) = V7 m c v6'
    ∧ r.2.mem ((SparseCore.T c).loc main_arg0) = m ((SparseCore.T c).loc main_arg0)
    ∧ r.2.mem ((SparseCore.T c).loc main_arg1) = m ((SparseCore.T c).loc main_arg1)

/-- The program's run, from a launch memory whose index words are all at most 99999. -/
theorem run_main [∀ e, Nonempty (Elt F e)] (hX : ∀ (d : Dev nD) (i : S106496.Idx), ((XcM m d : Vec F S106496 .i32) i).toNat ≤ 99999) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (TcM m) (XcM m) (OcM m)) facts v₀
    (fun q hq => match q with | 0 => nomatch hq)
    (fun q _ => match q with | 0 => tileObl (TcM m) (XcM m) (OcM m) facts hX)
    (fun q _ => match q with | 0 => SparseCore.Cfg.VecSplit.of_plain (vecSplit (TcM m) (XcM m) (OcM m)))
    m ρ main (fun _ => iprop(emp)) (FIN m) (u₀ (F := F)) (sep_elim_left.trans (hu₀ (TcM m) (XcM m) (OcM m))) (hmain m ρ) (fq m) (hfin m) (QC m)
    (fun s' h c => ⟨(h c).2.2, (h c).1.trans (V7_a0 m c), (h c).2.1.trans (V7_a1 m c)⟩)

end Run

end Cert.Proof.KI
end
-- ==== Proof.KiBridge.lean ====
/-
  The program's host re-layouts read at an index. Before the call: the stacked tables [26, 100001, 64] with the last two axes
  exchanged and the first two flattened, so that row g = 64 f + e of the [1664, 100001] table is embedding coordinate e of
  field f; the index array [4096, 26] transposed and flattened, so that word p = 4096 f + b of the list is the index of batch
  element b for field f. After it: the [1664, 4096] output unflattened to [26, 64, 4096] and its batch axis moved first.
  So entry (b, f, e) of the program's result is the kernel's function at (64 f + e, b): the table's row 64 f + e at the
  list's word 4096 f + b, which is tables[f, x[b, f], e] when every index word is at most 99999.
-/
import proofs.«206583_g19980187861832_cont_8to1_303_35_alg».proof.Proof.KiLaunch
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.ValueIdx (ix1 ix2 ix3)

variable {F : FTy → Type} [FloatOps F]
variable (m : (ℓ : Loc nD τ sig) → Buf (Elt F) ℓ)

/-- The index list as the two host operations build it: the index array transposed, then flattened. -/
theorem XcM_eq (d : Dev nD) :
    (XcM m d : Vec F S106496 .i32)
      = shapeCast S106496 (transpose S26x4096 [1, 0] (m ((SparseCore.T d).loc main_arg0) : Vec F S4096x26 .i32) transposes_S4096x26_S26x4096_1_0)
          shapeCasts_S26x4096_S106496 := by
  show (op4 (F := F)).result _ v3' = _
  rw [StableHlo.reshape_result, StableHlo.unary_result]
  rw [(op2 (F := F)).result_of_not_mem _ (b := a0') (show a0' ∉ ({v1'} : Finset (DevRef τ sig)) by decide),
    (op1 (F := F)).result_of_not_mem _ (b := a0') (show a0' ∉ ({v0'} : Finset (DevRef τ sig)) by decide)]
  rfl

/-- The index list the call finds is the index array transposed and flattened: word `p` is the index of batch element
    `p % 4096` for field `p / 4096`. -/
theorem XcM_apply (d : Dev nD) (p : Fin 106496) :
    (XcM m d : Vec F S106496 .i32) (ix1 p)
      = (m ((SparseCore.T d).loc main_arg0) : Vec F S4096x26 .i32) (ix2 (⟨p.val % 4096, Nat.mod_lt _ (by norm_num)⟩ : Fin 4096)
          (⟨p.val / 4096, by have := p.isLt; omega⟩ : Fin 26)) := by
  rw [XcM_eq]
  -- position `p` of the flat list is position `(p / 4096, p % 4096)` of the transposed array
  refine (shapeCast_apply _ _ _ (ix2 (⟨p.val / 4096, by have := p.isLt; omega⟩ : Fin 26)
    (⟨p.val % 4096, Nat.mod_lt _ (by norm_num)⟩ : Fin 4096)) ?_).trans ?_
  · rw [Shape.rowMajor_val_two, Shape.rowMajor_val_one]
    show p.val / 4096 * 4096 + p.val % 4096 = p.val
    omega
  · exact ValueIdx.transpose_ix2_apply _ _ _ _

/-- Every word of the index list is a word of the index array. -/
theorem XcM_le (hx : ∀ (d : Dev nD) (i : S4096x26.Idx), ((m ((SparseCore.T d).loc main_arg0) : Vec F S4096x26 .i32) i).toNat ≤ 99999)
    (d : Dev nD) (i : S106496.Idx) : ((XcM m d : Vec F S106496 .i32) i).toNat ≤ 99999 := by
  obtain ⟨p, rfl⟩ : ∃ p : Fin 106496, i = ix1 p := ⟨i 0, ValueIdx.eq_ix1 (n := 106496) i⟩
  rw [XcM_apply]
  exact hx d _

/-- The table as the two host operations build it: the last two axes of the stacked tables swapped, then the first two
    axes flattened. -/
theorem TcM_eq (d : Dev nD) :
    (TcM m d : Vec F S1664x100001 .f32)
      = shapeCast S1664x100001 (transpose S26x64x100001 [0, 2, 1] (m ((SparseCore.T d).loc main_arg1) : Vec F S26x100001x64 .f32)
          transposes_S26x100001x64_S26x64x100001_0_2_1) shapeCasts_S26x64x100001_S1664x100001 := by
  show (op4 (F := F)).result _ v1' = _
  rw [(op4 (F := F)).result_of_not_mem _ (b := v1') (show v1' ∉ ({v3'} : Finset (DevRef τ sig)) by decide),
    (op3 (F := F)).result_of_not_mem _ (b := v1') (show v1' ∉ ({v2'} : Finset (DevRef τ sig)) by decide)]
  rw [StableHlo.reshape_result, StableHlo.unary_result]
  rfl

/-- The table the call finds is the stacked tables with the embedding axis moved before the vocabulary axis, fields and
    embedding coordinates flattened into rows: row `g` is embedding coordinate `g % 64` of field `g / 64`. -/
theorem TcM_apply (d : Dev nD) (g : Fin 1664) (j : Fin 100001) :
    (TcM m d : Vec F S1664x100001 .f32) (ix2 g j)
      = (m ((SparseCore.T d).loc main_arg1) : Vec F S26x100001x64 .f32) (ix3 (⟨g.val / 64, by have := g.isLt; omega⟩ : Fin 26) j
          (⟨g.val % 64, Nat.mod_lt _ (by norm_num)⟩ : Fin 64)) := by
  rw [TcM_eq]
  -- row `g`, column `j` of the flattened table is entry `(g / 64, g % 64, j)` of the transposed stack
  refine (shapeCast_apply _ _ _ (ix3 (⟨g.val / 64, by have := g.isLt; omega⟩ : Fin 26)
    (⟨g.val % 64, Nat.mod_lt _ (by norm_num)⟩ : Fin 64) j) ?_).trans ?_
  · rw [Shape.rowMajor_val_three, Shape.rowMajor_val_two]
    show (g.val / 64 * 64 + g.val % 64) * 100001 + j.val = g.val * 100001 + j.val
    omega
  · exact ValueIdx.transpose_ix3_021_apply _ _ _ _ _

/-- Word `4096 f + b` of the index list is the index of batch element `b` for field `f`. -/
theorem XcM_field (d : Dev nD) (f : Fin 26) (b : Fin 4096) (p : Fin 106496) (hp : p.val = f.val * 4096 + b.val) :
    (XcM m d : Vec F S106496 .i32) (ix1 p) = (m ((SparseCore.T d).loc main_arg0) : Vec F S4096x26 .i32) (ix2 b f) := by
  have hb := b.isLt
  rw [XcM_apply]
  refine congrArg (m ((SparseCore.T d).loc main_arg0) : Vec F S4096x26 .i32) ?_
  funext c
  match c with
  | ⟨0, _⟩ => exact Fin.ext (show p.val % 4096 = b.val by omega)
  | ⟨1, _⟩ => exact Fin.ext (show p.val / 4096 = f.val by omega)

/-- Row `64 f + e` of the table is coordinate `e` of field `f`'s table. -/
theorem TcM_row (d : Dev nD) (f : Fin 26) (e : Fin 64) (g : Fin 1664) (hg : g.val = f.val * 64 + e.val) (j : Fin 100001) :
    (TcM m d : Vec F S1664x100001 .f32) (ix2 g j) = (m ((SparseCore.T d).loc main_arg1) : Vec F S26x100001x64 .f32) (ix3 f j e) := by
  have he := e.isLt
  rw [TcM_apply]
  refine congrArg (m ((SparseCore.T d).loc main_arg1) : Vec F S26x100001x64 .f32) ?_
  funext c
  match c with
  | ⟨0, _⟩ => exact Fin.ext (show g.val / 64 = f.val by omega)
  | ⟨1, _⟩ => rfl
  | ⟨2, _⟩ => exact Fin.ext (show g.val % 64 = e.val by omega)

/-- The program's result as the two host operations build it from what the call left in the output. -/
theorem V7_eq (d : Dev nD) :
    (V7 m d v6' : Vec F S4096x26x64 .f32)
      = transpose S4096x26x64 [2, 0, 1] (shapeCast S26x64x4096 (Gout d (TcM m d) (XcM m d) : Vec F S1664x4096 .f32)
          shapeCasts_S1664x4096_S26x64x4096) transposes_S26x64x4096_S4096x26x64_2_0_1 := by
  show (op6 (F := F)).result ((op5 (F := F)).result (Function.update (V4 m d) v4' _)) v6' = _
  rw [StableHlo.unary_result, StableHlo.reshape_result]
  show transpose S4096x26x64 [2, 0, 1] (shapeCast S26x64x4096 (Function.update (V4 m d) v4' (Gout d (TcM m d) (XcM m d)) v4') _) _ = _
  rw [Function.update_self]

/-- The kernel's function read at row `g`, column `b`: row `g` of the table at the (clamped) index word of batch
    element `b` in the stretch of row `g`'s field. -/
theorem Gout_at (d : Dev nD) (Tc : Buf (Elt F) (tLoc d)) (Xc : Buf (Elt F) (xLoc d)) (g : Fin 1664) (b : Fin 4096) :
    (Gout d Tc Xc : Vec F S1664x4096 .f32) (ix2 g b)
      = (Tc : Vec F S1664x100001 .f32) (ix2 g
          (⟨min ((Xc : Vec F S106496 .i32) (ix1 (⟨g.val / 64 * 4096 + b.val, by have := g.isLt; have := b.isLt; omega⟩ : Fin 106496))).toNat 100000,
            by omega⟩ : Fin 100001)) := rfl

/-- The program's result, entry by entry: the embedding of batch element `b`'s index for field `f`, at coordinate `e`. -/
theorem result_apply (hx : ∀ (d : Dev nD) (i : S4096x26.Idx), ((m ((SparseCore.T d).loc main_arg0) : Vec F S4096x26 .i32) i).toNat ≤ 99999)
    (d : Dev nD) (b : Fin 4096) (f : Fin 26) (e : Fin 64) :
    (V7 m d v6' : Vec F S4096x26x64 .f32) (ix3 b f e)
      = (m ((SparseCore.T d).loc main_arg1) : Vec F S26x100001x64 .f32)
          (ix3 f (⟨((m ((SparseCore.T d).loc main_arg0) : Vec F S4096x26 .i32) (ix2 b f)).toNat, by have := hx d (ix2 b f); omega⟩ : Fin 100001) e) := by
  have hf := f.isLt
  have he := e.isLt
  have hb := b.isLt
  rw [V7_eq]
  -- entry `(b, f, e)` of the result is entry `(f, e, b)` of the reshaped output, which is row `64 f + e`, column `b`
  refine (transpose_apply _ _ _ _ (ix3 f e b) (fun c => match c with | ⟨0, _⟩ => rfl | ⟨1, _⟩ => rfl | ⟨2, _⟩ => rfl)).trans ?_
  refine (shapeCast_apply _ _ _ (ix2 (⟨f.val * 64 + e.val, by omega⟩ : Fin 1664) b) ?_).trans ?_
  · rw [Shape.rowMajor_val_two, Shape.rowMajor_val_three]
    rfl
  -- that row is coordinate `e` of field `f`'s table, read at the clamped index word
  rw [Gout_at, TcM_row m d f e _ rfl]
  refine congrArg (fun j : Fin 100001 => (m ((SparseCore.T d).loc main_arg1) : Vec F S26x100001x64 .f32) (ix3 f j e)) (Fin.ext ?_)
  -- the word is batch element `b`'s index for field `f`, which the precondition puts below the clamp
  show min ((XcM m d : Vec F S106496 .i32) (ix1 _)).toNat 100000
    = ((m ((SparseCore.T d).loc main_arg0) : Vec F S4096x26 .i32) (ix2 b f)).toNat
  rw [XcM_field m d f b _ (show (f.val * 64 + e.val) / 64 * 4096 + b.val = f.val * 4096 + b.val by omega)]
  exact Nat.min_eq_left (Nat.le_trans (hx d (ix2 b f)) (by norm_num))

end Cert.Proof.KI
end
-- ==== Proof.KbBase.lean ====
/-
  The vocabulary of the kernel's proof. The program as the launch theorem sees it (one call, a vector-subcore kernel on
  2 SparseCores x 16 subcores), the proof's resource algebra (the launch handshakes beside the transfers' counters), the
  three arrays the kernel touches in HBM — the table re-laid as 1664 rows (field, embedding coordinate) of 100001 columns,
  the flat index list of 26 stretches of 4096 words, the 1664 x 4096 output — and, for the task at a grid point L: the row
  it handles in trip k, g = 2 (L 1) + (L 0) + 32 k, as the slices the body makes of the three arrays; what its two fetches
  land in its scratch; the value it gathers at a lane; and the kernel's result as one function of the table and the list.
-/
import proofs.«206583_g19980187861832_cont_8to1_303_35_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«206583_g19980187861832_cont_8to1_303_35_alg».proof.Proof.Gen.Kernel
import proofs.«206583_g19980187861832_cont_8to1_303_35_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tW" => (Memref.whole Cert.Kernel.main_v1_scv : Memref Cert.Kernel.sig Kind.scVector Space.hbm Cert.Kernel.S1664x100001 EltTy.f32)
local notation "xW" => (Memref.whole Cert.Kernel.main_v3_scv : Memref Cert.Kernel.sig Kind.scVector Space.hbm Cert.Kernel.S106496 EltTy.i32)
local notation "oW" => (Memref.whole Cert.Kernel.main_v4_scv : Memref Cert.Kernel.sig Kind.scVector Space.hbm Cert.Kernel.S1664x4096 EltTy.f32)
local notation "sA" => (Memref.whole Cert.Kernel.cc0_scratch0 : Memref Cert.Kernel.sig Kind.scVector Space.vmem Cert.Kernel.S1x100001 EltTy.f32)
local notation "sB" => (Memref.whole Cert.Kernel.cc0_scratch1 : Memref Cert.Kernel.sig Kind.scVector Space.vmem Cert.Kernel.S4096 EltTy.i32)
local notation "sC" => (Memref.whole Cert.Kernel.cc0_scratch2 : Memref Cert.Kernel.sig Kind.scVector Space.vmem Cert.Kernel.S1x4096 EltTy.f32)

abbrev tLoc (d : Dev nD) : Loc nD τ sig := (SparseCore.T d).loc main_v1
abbrev xLoc (d : Dev nD) : Loc nD τ sig := (SparseCore.T d).loc main_v3
abbrev oLoc (d : Dev nD) : Loc nD τ sig := (SparseCore.T d).loc main_v4

variable [FloatOps F]

abbrev tPts (d : Dev nD) (q : PosShare TreeShare) (f : Buf (Elt F) (tLoc d)) : sProp 𝕄 := tLoc d ↦{q} f
abbrev xPts (d : Dev nD) (q : PosShare TreeShare) (f : Buf (Elt F) (xLoc d)) : sProp 𝕄 := xLoc d ↦{q} f

section Tile
variable (d : Dev nD) (L : grid0.Coords)

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-- Row `k` of the table, the index list's stretch of that row's field, and row `k` of the output, as the task slices them. -/
abbrev tRow (L : grid0.Coords) (k : Fin k0_t1_loop.trips) : Memref sig .scVector .hbm S1x100001 .f32 :=
  (tW).slice (Rect.unit (s := S1664x100001) (k0_off1 L k) S1x100001.size (k0_off1_inb L k)) (fun _ => rfl)
abbrev xRow (L : grid0.Coords) (k : Fin k0_t1_loop.trips) : Memref sig .scVector .hbm S4096 .i32 :=
  (xW).slice (Rect.unit (s := S106496) (k0_off2 L k) S4096.size (k0_off2_inb L k)) (fun _ => rfl)
abbrev oRow (L : grid0.Coords) (k : Fin k0_t1_loop.trips) : Memref sig .scVector .hbm S1x4096 .f32 :=
  (oW).slice (Rect.unit (s := S1664x4096) (k0_off5 L k) S1x4096.size (k0_off5_inb L k)) (fun _ => rfl)

/-- What the two fetches of trip `k` land in the task's scratch: row `k` of the table, and the indices of that row's field. -/
abbrev slabPay (k : Fin k0_t1_loop.trips) (Tc : Buf (Elt F) (tLoc d)) : Vec F S1x100001 .f32 :=
  ReadAs.same.apply (View.read (Elt F) (tRow L k).view Tc)
abbrev idxPay (k : Fin k0_t1_loop.trips) (Xc : Buf (Elt F) (xLoc d)) : Vec F S4096 .i32 :=
  ReadAs.same.apply (View.read (Elt F) (xRow L k).view Xc)

/-- The gathered value at lane `c`: the fetched table row at the fetched index (read unsigned, and clamped so that the
    definition is total; under the precondition the clamp is the identity). -/
def gath (fa : Buf (Elt F) ((sA).view.loc (thr d L))) (fb : Buf (Elt F) ((sB).view.loc (thr d L))) (c : Fin 4096) : Elt F .f32 :=
  (fa : Vec F S1x100001 .f32) (ix2 (0 : Fin 1) (⟨min ((fb : Vec F S4096 .i32) (ix1 c)).toNat 100000, by omega⟩ : Fin 100001))

/-- The out scratch holds the gathered values at the lanes the first `v` trips of the inner loop wrote. -/
def OrowUpTo (fa : Buf (Elt F) ((sA).view.loc (thr d L))) (fb : Buf (Elt F) ((sB).view.loc (thr d L))) (v : Nat)
    (fc : Buf (Elt F) ((sC).view.loc (thr d L))) : Prop :=
  ∀ c : Fin 4096, c.val < 16 * v → (fc : Vec F S1x4096 .f32) (ix2 (0 : Fin 1) c) = gath d L fa fb c

/-- The kernel's result as one function of the table `T` and the flat index list `X`: entry `(g, b)` is row `g` of the table
    at the index the list holds for batch element `b` of row `g`'s field `g / 64`. -/
def Gout (Tc : Buf (Elt F) (tLoc d)) (Xc : Buf (Elt F) (xLoc d)) : Buf (Elt F) (oLoc d) :=
  fun i : S1664x4096.Idx => (Tc : Vec F S1664x100001 .f32) (ix2 (⟨(i 0).val, ValueIdx.idx2_lt0 i⟩ : Fin 1664)
    (⟨min ((Xc : Vec F S106496 .i32) (ix1 (⟨((i 0).val / 64) * 4096 + (i 1).val,
      by have h0 := ValueIdx.idx2_lt0 i; have h1 := ValueIdx.idx2_lt1 i; omega⟩ : Fin 106496))).toNat 100000, by omega⟩ : Fin 100001))

end Tile
end Cert.Proof.KB
end
-- ==== Proof.KbVal.lean ====
/-
  The values of one task, as pure facts about the contents of its buffers. Reading and writing a whole buffer and a
  rectangle of it at an index; the task's index chains in closed form (the list's stretch starts at 4096 (g / 64), the
  field of row g being g / 64); the fetched row and the fetched indices at an index; then the three facts the task's
  proof cites: the indices an inner trip loads name table columns (every word of the list is at most 99999); an inner
  trip fills sixteen more lanes of the out scratch with the fetched row at the fetched indices; and an outer trip's
  write-out leaves, on row g's elements, the kernel's function of the table and the list.
-/
import proofs.«206583_g19980187861832_cont_8to1_303_35_alg».proof.Proof.KbBase
import Idealize.ShloMosaic.Lib.ValueLayout

noncomputable section

namespace Cert.Proof.KB

open Cert.Kernel Cert.Kernel.Gen

open Idealize.ShloMosaic
open Idealize.ShloMosaic.SparseCore (S V T)
open Idealize.ShloMosaic.ValueIdx (ix1 ix2)

variable {F : FTy → Type} [FloatOps F]

local notation "tW" => (Memref.whole Cert.Kernel.main_v1_scv : Memref Cert.Kernel.sig Kind.scVector Space.hbm Cert.Kernel.S1664x100001 EltTy.f32)
local notation "xW" => (Memref.whole Cert.Kernel.main_v3_scv : Memref Cert.Kernel.sig Kind.scVector Space.hbm Cert.Kernel.S106496 EltTy.i32)
local notation "oW" => (Memref.whole Cert.Kernel.main_v4_scv : Memref Cert.Kernel.sig Kind.scVector Space.hbm Cert.Kernel.S1664x4096 EltTy.f32)
local notation "sA" => (Memref.whole Cert.Kernel.cc0_scratch0 : Memref Cert.Kernel.sig Kind.scVector Space.vmem Cert.Kernel.S1x100001 EltTy.f32)
local notation "sB" => (Memref.whole Cert.Kernel.cc0_scratch1 : Memref Cert.Kernel.sig Kind.scVector Space.vmem Cert.Kernel.S4096 EltTy.i32)
local notation "sC" => (Memref.whole Cert.Kernel.cc0_scratch2 : Memref Cert.Kernel.sig Kind.scVector Space.vmem Cert.Kernel.S1x4096 EltTy.f32)

/-! ## Reading and writing a whole buffer, and a rectangle of it -/

section Whole
variable {sg : RefSig} {κ : Kind} {Val : EltTy → Type}

/-- A load through a whole buffer reads the contents at the coordinates' place. -/
theorem readAt_whole_apply (b : Ref sg κ) (f : b.ty.Contents Val) (r : LoadRect b.ty.shape) (x : r.shape.Idx) :
    (View.whole b).readAt Val r f x = f (r.idx x) := rfl

/-- A load through a whole buffer just overwritten reads the payload. -/
theorem readAt_write_whole_apply (b : Ref sg κ) (f w : b.ty.Contents Val) (r : LoadRect b.ty.shape) (x : r.shape.Idx) :
    (View.whole b).readAt Val r ((View.whole b).write Val f w Finset.univ) x = w (r.idx x) := by
  rw [View.write_whole_univ]; rfl

/-- A rectangle of a whole buffer reads the contents at the rectangle's place. -/
theorem read_slice_whole_apply (b : Ref sg κ) (r : Rect b.ty.shape) (f : b.ty.Contents Val) (y : r.shape.Idx) :
    ((View.whole b).slice r).read Val f y = f (r.emb y) := rfl

/-- An unmasked write through a rectangle of a whole buffer leaves the payload on the rectangle's elements, -/
theorem write_slice_whole_emb (b : Ref sg κ) (r : Rect b.ty.shape) (f : b.ty.Contents Val) (w : r.shape.Idx → Val b.ty.elt)
    (y : r.shape.Idx) : ((View.whole b).slice r).write Val f w Finset.univ (r.emb y) = w y :=
  View.write_emb_of_mem (v := (View.whole b).slice r) f w (Finset.mem_univ y)

/-- and the old contents elsewhere. -/
theorem write_slice_whole_of_not_mem (b : Ref sg κ) (r : Rect b.ty.shape) (f : b.ty.Contents Val) (w : r.shape.Idx → Val b.ty.elt)
    (i : b.ty.shape.Idx) (hi : i ∉ r.set) : ((View.whole b).slice r).write Val f w Finset.univ i = f i :=
  View.write_of_not_mem (v := (View.whole b).slice r) f w Finset.univ (by rw [View.setOn_univ, View.set_slice_whole]; exact hi)

end Whole

variable (d : Dev nD) (L : grid0.Coords)

/-- The zero index vector the task gathers along the scratch row's unit axis with. -/
abbrev zeroIdx : IVec S16 32 := muli (iota .scVector S16 32 [0] iota_S16_d0_w32_scVector) (broadcast S16 0#32)

/-- The zero index vector is zero at every lane. -/
theorem zeroIdx_apply (x : S16.Idx) : zeroIdx x = 0#32 := by
  show IntOp.muli _ 0#32 = 0#32
  exact BitVec.mul_zero

/-- The indices a trip of the inner loop loads from the fetched list name table columns: every word of the index
    list is at most 99999. -/
theorem chk_holds (k : Fin k0_t1_loop.trips) (fb0 : Buf (Elt F) ((sB).view.loc (thr d L))) (Xc : Buf (Elt F) (xLoc d))
    (hX : ∀ i : S106496.Idx, ((Xc : Vec F S106496 .i32) i).toNat ≤ 99999) (v : Fin k0_t2_loop.trips) :
    k0_chk1 zeroIdx
      (View.readAt (Elt F) (sB).view (Rect.unit (s := S4096) (k0_off3 v) S16.size (k0_off3_inb v)).toLoadRect
        (View.write (Elt F) (sB).view fb0 (idxPay d L k Xc) Finset.univ)) := by
  intro a x
  match a with
  | ⟨0, _⟩ =>
    show (zeroIdx x).toNat < 1
    rw [zeroIdx_apply]; decide
  | ⟨1, _⟩ =>
    show (View.readAt (Elt F) (sB).view (Rect.unit (s := S4096) (k0_off3 v) S16.size (k0_off3_inb v)).toLoadRect
        (View.write (Elt F) (sB).view fb0 (idxPay d L k Xc) Finset.univ) x).toNat < 100001
    rw [show View.readAt (Elt F) (sB).view (Rect.unit (s := S4096) (k0_off3 v) S16.size (k0_off3_inb v)).toLoadRect
        (View.write (Elt F) (sB).view fb0 (idxPay d L k Xc) Finset.univ) x
          = idxPay d L k Xc ((Rect.unit (s := S4096) (k0_off3 v) S16.size (k0_off3_inb v)).toLoadRect.idx x)
        from readAt_write_whole_apply (Val := Elt F) cc0_scratch1 fb0 (idxPay d L k Xc) (Rect.unit (s := S4096) (k0_off3 v) S16.size (k0_off3_inb v)).toLoadRect x]
    exact Nat.lt_of_le_of_lt (hX _) (by decide)

/-- One trip of the inner loop: sixteen more lanes of the out scratch hold their gathered values. -/
theorem orow_step (fa : Buf (Elt F) ((sA).view.loc (thr d L))) (fb : Buf (Elt F) ((sB).view.loc (thr d L)))
    (fc : Buf (Elt F) ((sC).view.loc (thr d L))) (v : Fin k0_t2_loop.trips) (hP : OrowUpTo d L fa fb v.val fc)
    (h : ∀ a x, ((![zeroIdx, View.readAt (Elt F) (sB).view (Rect.unit (s := S4096) (k0_off3 v) S16.size (k0_off3_inb v)).toLoadRect fb] : Fin 2 → IVec S16 32) a x).toNat < S1x100001.size a) :
    OrowUpTo d L fa fb (v.val + 1)
      ((sC).view.writes (Elt F) fc
        [⟨Rect.unit (s := S1x4096) (k0_off4 v) S1x16.size (k0_off4_inb v),
          shapeCast S1x16
            (loadIdx (View.read (Elt F) ((sA).access (Rect.whole cc0_scratch0.ty.shape)) fa)
              ![zeroIdx, View.readAt (Elt F) (sB).view (Rect.unit (s := S4096) (k0_off3 v) S16.size (k0_off3_inb v)).toLoadRect fb] h)
            shapeCasts_S16_S1x16⟩]) := by
  unfold OrowUpTo
  intro c hc
  have e3 : k0_off3 v 0 = 16 * v.val := congrFun (k0_off3_eq v) 0
  have e40 : k0_off4 v 0 = 0 := congrFun (k0_off4_eq v) 0
  have e41 : k0_off4 v 1 = 16 * v.val := congrFun (k0_off4_eq v) 1
  by_cases hlt : c.val < 16 * v.val
  · -- a lane before the window: not written, and it held its value already
    refine (write_slice_whole_of_not_mem (Val := Elt F) cc0_scratch2
      (Rect.unit (s := S1x4096) (k0_off4 v) S1x16.size (k0_off4_inb v)) fc _ (ix2 (0 : Fin 1) c) ?_).trans (hP c hlt)
    rw [Rect.mem_set_unit]
    intro hm
    have h1 := (hm 1).1
    change k0_off4 v 1 ≤ c.val at h1
    omega
  · -- a lane of the window: lane c - 16 v of the payload
    have hl : c.val - 16 * v.val < 16 := by omega
    have hemb : (ix2 (0 : Fin 1) c : S1x4096.Idx)
        = (Rect.unit (s := S1x4096) (k0_off4 v) S1x16.size (k0_off4_inb v)).emb (ix2 (0 : Fin 1) (⟨c.val - 16 * v.val, hl⟩ : Fin 16)) := by
      funext a
      apply Fin.ext
      match a with
      | ⟨0, _⟩ => show (0 : ℕ) = k0_off4 v 0 + 1 * 0; omega
      | ⟨1, _⟩ => show c.val = k0_off4 v 1 + 1 * (c.val - 16 * v.val); omega
    rw [hemb]
    refine (write_slice_whole_emb (Val := Elt F) cc0_scratch2 (Rect.unit (s := S1x4096) (k0_off4 v) S1x16.size (k0_off4_inb v)) fc _ _).trans ?_
    dsimp only
    rw [ValueIdx.shapeCast_a_1a_apply, Memref.read_access_whole]
    -- the lane's index word is word c of the fetched list
    have hidx : (Rect.unit (s := S4096) (k0_off3 v) S16.size (k0_off3_inb v)).toLoadRect.idx (ix1 (⟨c.val - 16 * v.val, hl⟩ : Fin 16))
        = (ix1 c : S4096.Idx) := by
      funext a
      apply Fin.ext
      match a with
      | ⟨0, _⟩ => show k0_off3 v 0 + 1 * (c.val - 16 * v.val) = c.val; omega
    have hR : View.readAt (Elt F) (sB).view (Rect.unit (s := S4096) (k0_off3 v) S16.size (k0_off3_inb v)).toLoadRect fb
          (ix1 (⟨c.val - 16 * v.val, hl⟩ : Fin 16)) = (fb : Vec F S4096 .i32) (ix1 c) :=
      (readAt_whole_apply (Val := Elt F) cc0_scratch1 fb (Rect.unit (s := S4096) (k0_off3 v) S16.size (k0_off3_inb v)).toLoadRect _).trans
        (congrArg (fb : Vec F S4096 .i32) hidx)
    have hb := h 1 (ix1 (⟨c.val - 16 * v.val, hl⟩ : Fin 16))
    change (View.readAt (Elt F) (sB).view (Rect.unit (s := S4096) (k0_off3 v) S16.size (k0_off3_inb v)).toLoadRect fb
          (ix1 (⟨c.val - 16 * v.val, hl⟩ : Fin 16))).toNat < 100001 at hb
    rw [hR] at hb
    unfold gath
    show (fa : Vec F S1x100001 .f32) (idxAt _ h (ix1 (⟨c.val - 16 * v.val, hl⟩ : Fin 16))) = _
    refine congrArg (fa : Vec F S1x100001 .f32) ?_
    funext a
    apply Fin.ext
    match a with
    | ⟨0, _⟩ =>
      show (zeroIdx (ix1 (⟨c.val - 16 * v.val, hl⟩ : Fin 16))).toNat = 0
      rw [zeroIdx_apply]; rfl
    | ⟨1, _⟩ =>
      show (View.readAt (Elt F) (sB).view (Rect.unit (s := S4096) (k0_off3 v) S16.size (k0_off3_inb v)).toLoadRect fb
          (ix1 (⟨c.val - 16 * v.val, hl⟩ : Fin 16))).toNat = min ((fb : Vec F S4096 .i32) (ix1 c)).toNat 100000
      rw [hR]; omega

/-- The index list's slice offset in closed form: 4096 words per field, the field of row g being g / 64. -/
theorem k0_off2_eq : ∀ (i : grid0.Coords) (k0_t1 : Fin k0_t1_loop.trips), k0_off2 i k0_t1 = ![4096 * ((2 * (i 1).val + (i 0).val + 32 * k0_t1.val) / 64)] := by
  intro i k0_t1
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c32_i32 : Affine.IsInt 32#32 (32) := Affine.ofNat _ (by omega)
  have h_c0_i32_2 : Affine.IsInt 0#32 (0) := Affine.ofNat _ (by omega)
  have h_c0_i32 : Affine.IsInt 0#32 (0) := Affine.ofNat _ (by omega)
  have h_c1_i32 : Affine.IsInt 1#32 (1) := Affine.ofNat _ (by omega)
  have r_k0_t1 : k0_t1.val < 52 := Nat.lt_of_lt_of_le k0_t1.isLt k0_t1_abs.2.1
  have h_arg8 : Affine.IsInt _ ((k0_t1.val : Int)) := Affine.iv h_c0_i32 h_c1_i32 k0_t1.val (by omega)
  have c_arg8 : (k0_t1.val : Int) ≤ 52 - 1 := Affine.iv_lt k0_t1_abs.1 k0_t1.isLt k0_t1_abs.2.2 h_arg8
  have h_c1_i32_1 : Affine.IsInt 1#32 (1) := Affine.ofNat _ (by omega)
  have h_v3 : Affine.IsInt _ ((k0_t1.val : Int)) := Affine.muli h_arg8 h_c1_i32_1 (by omega)
  have h_v4 : Affine.IsInt _ ((k0_t1.val : Int)) := Affine.addi h_c0_i32_2 h_v3 (by omega)
  have h_v5 : Affine.IsInt _ (32 * (k0_t1.val : Int)) := Affine.muli h_c32_i32 h_v4 (by omega)
  have h_v6 : Affine.IsInt _ (2 * ((i 1).val : Int) + ((i 0).val : Int) + 32 * (k0_t1.val : Int)) := Affine.addi h_v1 h_v5 (by omega)
  have h_c0_i32_3 : Affine.IsInt 0#32 (0) := Affine.ofNat _ (by omega)
  rcases (show 2 * ((i 1).val : Int) + ((i 0).val : Int) + 32 * (k0_t1.val : Int) ≤ 0 ∨ 1 ≤ 2 * ((i 1).val : Int) + ((i 0).val : Int) + 32 * (k0_t1.val : Int) by omega) with hs | hs
  · have h_v8 : Affine.Fails _ := Affine.sgt_fails h_v6 h_c0_i32_3 (by omega)
    have h_v9 : Affine.IsInt _ (0) := Affine.extui_fails h_v8 (by omega)
    have h_c0_i32_4 : Affine.IsInt 0#32 (0) := Affine.ofNat _ (by omega)
    have h_v10 : Affine.Fails _ := Affine.slt_fails h_v6 h_c0_i32_4 (by omega)
    have h_v11 : Affine.IsInt _ (0) := Affine.extui_fails h_v10 (by omega)
    have h_v12 : Affine.IsInt _ (0) := Affine.subi h_v9 h_v11 (by omega)
    have h_c64_i32 : Affine.IsInt 64#32 (64) := Affine.ofNat _ (by omega)
    have h_c0_i32_5 : Affine.IsInt 0#32 (0) := Affine.ofNat _ (by omega)
    have h_v13 : Affine.Holds _ := Affine.sgt_holds h_c64_i32 h_c0_i32_5 (by omega)
    have h_v14 : Affine.IsInt _ (1) := Affine.extui_holds h_v13 (by omega)
    have h_c0_i32_6 : Affine.IsInt 0#32 (0) := Affine.ofNat _ (by omega)
    have h_v15 : Affine.Fails _ := Affine.slt_fails h_c64_i32 h_c0_i32_6 (by omega)
    have h_v16 : Affine.IsInt _ (0) := Affine.extui_fails h_v15 (by omega)
    have h_v17 : Affine.IsInt _ (1) := Affine.subi h_v14 h_v16 (by omega)
    have h_v18 : Affine.Holds _ := Affine.ne_holds h_v12 h_v17 (by omega)
    have h_v19 : Affine.IsInt _ (2 * ((i 1).val : Int) + ((i 0).val : Int) + 32 * (k0_t1.val : Int)) := Affine.remsi h_v6 h_c64_i32 (by omega)
    have h_c0_i32_7 : Affine.IsInt 0#32 (0) := Affine.ofNat _ (by omega)
    have h_v20 : Affine.Fails _ := Affine.ne_fails h_v19 h_c0_i32_7 (by omega)
    have h_v21 : Affine.Fails _ := Affine.andi_fails_right (Affine.tH h_v18) h_v20
    have h_v7 : Affine.IsInt _ (((2 * ((i 1).val : Int) + ((i 0).val : Int) + 32 * (k0_t1.val : Int)) / 64)) := Affine.divsi h_v6 h_c64_i32 (by omega)
    have h_c1_i32_8 : Affine.IsInt 1#32 (1) := Affine.ofNat _ (by omega)
    have h_v22 : Affine.IsInt _ (((2 * ((i 1).val : Int) + ((i 0).val : Int) + 32 * (k0_t1.val : Int)) / 64) - 1) := Affine.subi h_v7 h_c1_i32_8 (by omega)
    have h_v23 : Affine.IsInt _ (((2 * ((i 1).val : Int) + ((i 0).val : Int) + 32 * (k0_t1.val : Int)) / 64)) := Affine.select_fails h_v21 h_v22 h_v7 (by omega)
    have h_c4096_i32 : Affine.IsInt 4096#32 (4096) := Affine.ofNat _ (by omega)
    have h_v24 : Affine.IsInt _ (4096 * ((2 * ((i 1).val : Int) + ((i 0).val : Int) + 32 * (k0_t1.val : Int)) / 64)) := Affine.muli h_v23 h_c4096_i32 (by omega)
    exact Affine.vec_cons h_v24 (by omega) <| Affine.vec_nil
  · have h_v8 : Affine.Holds _ := Affine.sgt_holds h_v6 h_c0_i32_3 (by omega)
    have h_v9 : Affine.IsInt _ (1) := Affine.extui_holds h_v8 (by omega)
    have h_c0_i32_4 : Affine.IsInt 0#32 (0) := Affine.ofNat _ (by omega)
    have h_v10 : Affine.Fails _ := Affine.slt_fails h_v6 h_c0_i32_4 (by omega)
    have h_v11 : Affine.IsInt _ (0) := Affine.extui_fails h_v10 (by omega)
    have h_v12 : Affine.IsInt _ (1) := Affine.subi h_v9 h_v11 (by omega)
    have h_c64_i32 : Affine.IsInt 64#32 (64) := Affine.ofNat _ (by omega)
    have h_c0_i32_5 : Affine.IsInt 0#32 (0) := Affine.ofNat _ (by omega)
    have h_v13 : Affine.Holds _ := Affine.sgt_holds h_c64_i32 h_c0_i32_5 (by omega)
    have h_v14 : Affine.IsInt _ (1) := Affine.extui_holds h_v13 (by omega)
    have h_c0_i32_6 : Affine.IsInt 0#32 (0) := Affine.ofNat _ (by omega)
    have h_v15 : Affine.Fails _ := Affine.slt_fails h_c64_i32 h_c0_i32_6 (by omega)
    have h_v16 : Affine.IsInt _ (0) := Affine.extui_fails h_v15 (by omega)
    have h_v17 : Affine.IsInt _ (1) := Affine.subi h_v14 h_v16 (by omega)
    have h_v18 : Affine.Fails _ := Affine.ne_fails h_v12 h_v17 (by omega)
    have h_v19 : Affine.IsInt _ (((2 * ((i 1).val : Int) + ((i 0).val : Int) + 32 * (k0_t1.val : Int)) % 64)) := Affine.remsi h_v6 h_c64_i32 (by omega)
    have h_c0_i32_7 : Affine.IsInt 0#32 (0) := Affine.ofNat _ (by omega)
    have h_v20 : Affine.Term _ := Affine.cmpi_term .ne h_v19 h_c0_i32_7
    have h_v21 : Affine.Fails _ := Affine.andi_fails_left h_v18 h_v20
    have h_v7 : Affine.IsInt _ (((2 * ((i 1).val : Int) + ((i 0).val : Int) + 32 * (k0_t1.val : Int)) / 64)) := Affine.divsi h_v6 h_c64_i32 (by omega)
    have h_c1_i32_8 : Affine.IsInt 1#32 (1) := Affine.ofNat _ (by omega)
    have h_v22 : Affine.IsInt _ (((2 * ((i 1).val : Int) + ((i 0).val : Int) + 32 * (k0_t1.val : Int)) / 64) - 1) := Affine.subi h_v7 h_c1_i32_8 (by omega)
    have h_v23 : Affine.IsInt _ (((2 * ((i 1).val : Int) + ((i 0).val : Int) + 32 * (k0_t1.val : Int)) / 64)) := Affine.select_fails h_v21 h_v22 h_v7 (by omega)
    have h_c4096_i32 : Affine.IsInt 4096#32 (4096) := Affine.ofNat _ (by omega)
    have h_v24 : Affine.IsInt _ (4096 * ((2 * ((i 1).val : Int) + ((i 0).val : Int) + 32 * (k0_t1.val : Int)) / 64)) := Affine.muli h_v23 h_c4096_i32 (by omega)
    exact Affine.vec_cons h_v24 (by omega) <| Affine.vec_nil

/-- The inner loop makes 256 trips. -/
theorem trips2 : k0_t2_loop.trips = 256 := by decide

/-- The gathered value depends on the scratch contents only. -/
theorem gath_congr {fa fa' : Buf (Elt F) ((sA).view.loc (thr d L))} {fb fb' : Buf (Elt F) ((sB).view.loc (thr d L))}
    (ha : fa = fa') (hb : fb = fb') (c : Fin 4096) : gath d L fa fb c = gath d L fa' fb' c := by
  subst ha; subst hb; rfl

/-- The fetched table row at (0, r) is the table at (g, r), g the row the slice starts at. -/
theorem slabPay_apply (k : Fin k0_t1_loop.trips) (Tc : Buf (Elt F) (tLoc d)) (r : Fin 100001) (g : Fin 1664)
    (hg : k0_off1 L k 0 = g.val) (h0 : k0_off1 L k 1 = 0) :
    slabPay d L k Tc (ix2 (0 : Fin 1) r) = (Tc : Vec F S1664x100001 .f32) (ix2 g r) := by
  show (Tc : Vec F S1664x100001 .f32) ((tRow L k).view.emb (ix2 (0 : Fin 1) r)) = _
  refine congrArg (Tc : Vec F S1664x100001 .f32) ?_
  funext a
  apply Fin.ext
  match a with
  | ⟨0, _⟩ => show k0_off1 L k 0 + 1 * 0 = g.val; omega
  | ⟨1, _⟩ => show k0_off1 L k 1 + 1 * r.val = r.val; omega

/-- The fetched index list at b is the flat list at the slice's offset plus b. -/
theorem idxPay_apply (k : Fin k0_t1_loop.trips) (Xc : Buf (Elt F) (xLoc d)) (b : Fin 4096) (q : Fin 106496)
    (hq : k0_off2 L k 0 + b.val = q.val) :
    idxPay d L k Xc (ix1 b) = (Xc : Vec F S106496 .i32) (ix1 q) := by
  show (Xc : Vec F S106496 .i32) ((xRow L k).view.emb (ix1 b)) = _
  refine congrArg (Xc : Vec F S106496 .i32) ?_
  funext a
  apply Fin.ext
  match a with
  | ⟨0, _⟩ => show k0_off2 L k 0 + 1 * b.val = q.val; omega

/-- The kernel's function at an index whose row is g and whose word of the flat list is q. -/
theorem Gout_apply (Tc : Buf (Elt F) (tLoc d)) (Xc : Buf (Elt F) (xLoc d)) (i : S1664x4096.Idx) (g : Fin 1664) (q : Fin 106496)
    (hg : (i 0).val = g.val) (hq : ((i 0).val / 64) * 4096 + (i 1).val = q.val) :
    Gout d Tc Xc i = (Tc : Vec F S1664x100001 .f32) (ix2 g
      (⟨min ((Xc : Vec F S106496 .i32) (ix1 q)).toNat 100000, by omega⟩ : Fin 100001)) := by
  obtain ⟨gv, hgv⟩ := g
  obtain ⟨qv, hqv⟩ := q
  simp only at hg hq
  subst hg
  subst hq
  rfl

/-- A trip of the outer loop writes row `k` of the result: on that row's elements what the write-out leaves is the
    kernel's function of the table and the index list. -/
theorem row_final (k : Fin k0_t1_loop.trips) (fa0 : Buf (Elt F) ((sA).view.loc (thr d L))) (fb0 : Buf (Elt F) ((sB).view.loc (thr d L)))
    (fc : Buf (Elt F) ((sC).view.loc (thr d L))) (Tc : Buf (Elt F) (tLoc d)) (Xc : Buf (Elt F) (xLoc d)) (O0 : Buf (Elt F) (oLoc d))
    (hX : ∀ i : S106496.Idx, ((Xc : Vec F S106496 .i32) i).toNat ≤ 99999)
    (hP : OrowUpTo d L (View.write (Elt F) (sA).view fa0 (slabPay d L k Tc) Finset.univ)
      (View.write (Elt F) (sB).view fb0 (idxPay d L k Xc) Finset.univ) k0_t2_loop.trips fc) :
    ∀ i ∈ (oRow L k).view.set,
      ((oRow L k).view.writes (Elt F) O0 [⟨Rect.whole S1x4096, ReadAs.same.apply (View.read (Elt F) (sC).view fc)⟩]) i = Gout d Tc Xc i := by
  intro i hi
  obtain ⟨y, -, rfl⟩ := Finset.mem_map.mp hi
  obtain ⟨u, b, rfl⟩ : ∃ (u : Fin 1) (b : Fin 4096), y = ix2 u b :=
    ⟨y 0, y 1, by funext a; match a with | ⟨0, _⟩ => rfl | ⟨1, _⟩ => rfl⟩
  obtain rfl : u = 0 := Subsingleton.elim _ _
  -- the row g this trip handles, and the word q of the flat list that lane b reads
  have hL1 : (L 1).val < 16 := (L 1).isLt
  have hL0 : (L 0).val < 2 := (L 0).isLt
  have hk : k.val < 52 := Nat.lt_of_lt_of_le k.isLt k0_t1_abs.2.1
  have e10 : k0_off1 L k 0 = 2 * (L 1).val + (L 0).val + 32 * k.val := congrFun (k0_off1_eq L k) 0
  have e11 : k0_off1 L k 1 = 0 := congrFun (k0_off1_eq L k) 1
  have e2 : k0_off2 L k 0 = 4096 * ((2 * (L 1).val + (L 0).val + 32 * k.val) / 64) := congrFun (k0_off2_eq L k) 0
  have e50 : k0_off5 L k 0 = 2 * (L 1).val + (L 0).val + 32 * k.val := congrFun (k0_off5_eq L k) 0
  have e51 : k0_off5 L k 1 = 0 := congrFun (k0_off5_eq L k) 1
  -- what the write-out leaves at the element
  have hx : ((oRow L k).view.slice (Rect.whole S1x4096)).emb (ix2 (0 : Fin 1) b) = (oRow L k).view.emb (ix2 (0 : Fin 1) b) := by
    show (oRow L k).view.emb ((Rect.whole S1x4096).emb (ix2 (0 : Fin 1) b)) = _
    rw [Rect.emb_whole_apply]
  have hw := View.write_emb_of_mem (v := (oRow L k).view.slice (Rect.whole S1x4096)) (Val := Elt F) O0
    (ReadAs.same.apply (View.read (Elt F) (sC).view fc)) (Finset.mem_univ (ix2 (0 : Fin 1) b))
  rw [hx] at hw
  refine hw.trans ?_
  show (fc : Vec F S1x4096 .f32) (ix2 (0 : Fin 1) b) = _
  rw [hP b (by rw [trips2]; omega)]
  rw [gath_congr d L (View.write_whole_univ (Val := Elt F) cc0_scratch0 fa0 (slabPay d L k Tc))
    (View.write_whole_univ (Val := Elt F) cc0_scratch1 fb0 (idxPay d L k Xc)) b]
  unfold gath
  have hi0 : (((oRow L k).view.emb (ix2 (0 : Fin 1) b)) 0).val = 2 * (L 1).val + (L 0).val + 32 * k.val := by
    show k0_off5 L k 0 + 1 * 0 = _; omega
  have hi1 : (((oRow L k).view.emb (ix2 (0 : Fin 1) b)) 1).val = b.val := by
    show k0_off5 L k 1 + 1 * b.val = _; omega
  have hq := idxPay_apply d L k Xc b ⟨4096 * ((2 * (L 1).val + (L 0).val + 32 * k.val) / 64) + b.val, by omega⟩ (by show _ = 4096 * _ + b.val; omega)
  rw [Gout_apply d Tc Xc _ ⟨2 * (L 1).val + (L 0).val + 32 * k.val, by omega⟩
    ⟨4096 * ((2 * (L 1).val + (L 0).val + 32 * k.val) / 64) + b.val, by omega⟩ hi0 (by rw [hi0, hi1]; show _ = 4096 * _ + b.val; omega)]
  refine (slabPay_apply d L k Tc _ ⟨2 * (L 1).val + (L 0).val + 32 * k.val, by omega⟩ e10 e11).trans ?_
  refine congrArg (fun r => (Tc : Vec F S1664x100001 .f32) (ix2 _ r)) (Fin.ext ?_)
  show min (idxPay d L k Xc (ix1 b)).toNat 100000 = min _ 100000
  rw [hq]

end Cert.Proof.KB
end
-- ==== Proof.KbBody.lean ====
/-
  One task of the kernel, at a symbolic grid point L of a device d. The task holds read shares of the table and the index
  list, its own 52 rows of the output (each by exactly its elements), its three scratch buffers and its three DMA
  semaphores at zero. The outer loop's invariant: the rows of the trips done hold the kernel's function, the others what
  they held; each trip fetches row g and the indices of g's field (two local copies, each waited for), runs the inner
  loop — whose invariant is that the out scratch holds the gathered values at the lanes of the trips done, sixteen per
  trip, the fetched row and indices unchanged —, and writes the out scratch to row g (a third local copy). The indices
  loaded are in range because every word of the list is at most 99999.
-/
import proofs.«206583_g19980187861832_cont_8to1_303_35_alg».proof.Proof.KbVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S1664x100001 EltTy.f32)
local notation "xW" => (Memref.whole Cert.Kernel.main_v3_scv : Memref Cert.Kernel.sig Kind.scVector Space.hbm Cert.Kernel.S106496 EltTy.i32)
local notation "oW" => (Memref.whole Cert.Kernel.main_v4_scv : Memref Cert.Kernel.sig Kind.scVector Space.hbm Cert.Kernel.S1664x4096 EltTy.f32)
local notation "sA" => (Memref.whole Cert.Kernel.cc0_scratch0 : Memref Cert.Kernel.sig Kind.scVector Space.vmem Cert.Kernel.S1x100001 EltTy.f32)
local notation "sB" => (Memref.whole Cert.Kernel.cc0_scratch1 : Memref Cert.Kernel.sig Kind.scVector Space.vmem Cert.Kernel.S4096 EltTy.i32)
local notation "sC" => (Memref.whole Cert.Kernel.cc0_scratch2 : Memref Cert.Kernel.sig Kind.scVector Space.vmem Cert.Kernel.S1x4096 EltTy.f32)

variable [FloatOps F]

section Tile
variable (d : Dev nD) (L : grid0.Coords)
abbrev cA (d : Dev nD) (L : grid0.Coords) : GSem nD τ sig := (thr d L, .dma cc0_scoped0.sem)
abbrev cB (d : Dev nD) (L : grid0.Coords) : GSem nD τ sig := (thr d L, .dma cc0_scoped1.sem)
abbrev cC (d : Dev nD) (L : grid0.Coords) : GSem nD τ sig := (thr d L, .dma cc0_scoped2.sem)

omit [FloatOps F] in
theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_sA_access (f : Buf (Elt F) ((thr d L).loc cc0_scratch0)) :
    (((sA).access (.whole S1x100001)).loc (thr d L) ↦{fullShare} f : sProp 𝕄) = ((sA).view.loc (thr d L) ↦{fullShare} f) := rfl

/-- The task's rows of the output, each held by exactly its elements, at the contents `f`. -/
def rowsOf (f : Buf (Elt F) (oLoc d)) : sProp 𝕄 :=
  bigSep Finset.univ fun k' : Fin k0_t1_loop.trips => (oRow L k').view.loc (thr d L) ↦[(oRow L k').view.set]{fullShare} f

/-- The inner loop's invariant: the fetched row and indices unchanged, the out scratch filled up to the trip. -/
def invI (fa : Buf (Elt F) ((sA).view.loc (thr d L))) (fb : Buf (Elt F) ((sB).view.loc (thr d L))) (v : Nat) (_ : PUnit) : sProp 𝕄 :=
  iprop(∃ fc, ((sA).view.loc (thr d L) ↦{fullShare} fa) ∗ ((sB).view.loc (thr d L) ↦{fullShare} fb)
    ∗ ((sC).view.loc (thr d L) ↦{fullShare} fc) ∗ ⌜OrowUpTo d L fa fb v fc⌝)

/-- The outer loop's invariant: the table and the index list read-only, the scratch at some contents, the task's
    semaphores at zero, and the rows of the trips done at the kernel's function. -/
def invO (O : CellTallies nD τ sig (HIx 1)) (W : Waits sig (HIx 1)) (q1 q3 : PosShare TreeShare)
    (Tc : Buf (Elt F) (tLoc d)) (Xc : Buf (Elt F) (xLoc d)) (O0 G : Buf (Elt F) (oLoc d)) (k : Nat) (_ : PUnit) : sProp 𝕄 :=
  iprop(Transfers.MayWaits (thr d L) (none : HIx 1) O
    ∗ ((tW).view.loc (thr d L) ↦{q1} Tc)
    ∗ ((xW).view.loc (thr d L) ↦{q3} Xc)
    ∗ (∃ f, (sA).view.loc (thr d L) ↦{fullShare} f)
    ∗ (∃ f, (sB).view.loc (thr d L) ↦{fullShare} f)
    ∗ (∃ f, (sC).view.loc (thr d L) ↦{fullShare} f)
    ∗ semVal (cA d L) 0 ∗ semVal (cB d L) 0 ∗ semVal (cC d L) 0
    ∗ (bigSep Finset.univ fun k' : Fin k0_t1_loop.trips =>
        (oRow L k').view.loc (thr d L) ↦[(oRow L k').view.set]{fullShare} (if k'.val < k then G else O0))
    ∗ ∃ W', ⌜∀ p ∈ W', p ∈ W ∨ p.2 = none⌝ ∗ owes (thr d L) O W')

omit [FloatOps F] in
/-- Row `k` written, the rows before it done: the rows up to `k` are done. -/
theorem rows_step (k : Fin k0_t1_loop.trips) (O0 G Wr : Buf (Elt F) (oLoc d)) (hW : ∀ i ∈ (oRow L k).view.set, Wr i = G i) :
    iprop(((oRow L k).view.loc (thr d L) ↦[(oRow L k).view.set]{fullShare} Wr)
        ∗ bigSep (Finset.univ.erase k) fun k' : Fin k0_t1_loop.trips =>
          (oRow L k').view.loc (thr d L) ↦[(oRow L k').view.set]{fullShare} (if k'.val < k.val then G else O0))
      ⊢ (bigSep Finset.univ fun k' : Fin k0_t1_loop.trips =>
          (oRow L k').view.loc (thr d L) ↦[(oRow L k').view.set]{fullShare} (if k'.val < k.val + 1 then G else O0) : sProp 𝕄) := by
  rw [SparseCore.bigSep_erase' (Finset.mem_univ k) (Φ := fun k' : Fin k0_t1_loop.trips =>
      ((oRow L k').view.loc (thr d L) ↦[(oRow L k').view.set]{fullShare} (if k'.val < k.val + 1 then G else O0) : sProp 𝕄)),
    if_pos (Nat.lt_succ_self _), pointsTo_congr hW]
  refine sep_mono_right (Entails.of_eq (bigSep_congr fun k' hk' => ?_))
  have hne : k'.val ≠ k.val := fun e => (Finset.mem_erase.mp hk').1 (Fin.ext e)
  by_cases h : k'.val < k.val
  · rw [if_pos h, if_pos (by omega)]
  · rw [if_neg h, if_neg (by omega)]

omit [FloatOps F] in
/-- Before the first trip no row is done; after the last every row is. -/
theorem rows_init (O0 G : Buf (Elt F) (oLoc d)) :
    (bigSep Finset.univ fun k' : Fin k0_t1_loop.trips => ((oRow L k').view.loc (thr d L) ↦[(oRow L k').view.set]{fullShare} O0 : sProp 𝕄))
      = bigSep Finset.univ fun k' : Fin k0_t1_loop.trips =>
          (oRow L k').view.loc (thr d L) ↦[(oRow L k').view.set]{fullShare} (if k'.val < 0 then G else O0) :=
  bigSep_congr fun k' _ => by rw [if_neg (Nat.not_lt_zero _)]
omit [FloatOps F] in
theorem rows_done (O0 G : Buf (Elt F) (oLoc d)) (n : Nat) (hn : ∀ k' : Fin k0_t1_loop.trips, k'.val < n) :
    (bigSep Finset.univ fun k' : Fin k0_t1_loop.trips =>
        ((oRow L k').view.loc (thr d L) ↦[(oRow L k').view.set]{fullShare} (if k'.val < n then G else O0) : sProp 𝕄))
      = bigSep Finset.univ fun k' : Fin k0_t1_loop.trips => (oRow L k').view.loc (thr d L) ↦[(oRow L k').view.set]{fullShare} G :=
  bigSep_congr fun k' _ => by rw [if_pos (hn k')]

theorem tile_body (hF : (K (F := F)).Facts) (O : CellTallies nD τ sig (HIx 1)) (W : Waits sig (HIx 1)) (hO : ∀ g, O g none = 0)
    (q1 q3 : PosShare TreeShare) (Tc : Buf (Elt F) (tLoc d)) (Xc : Buf (Elt F) (xLoc d)) (O0 : Buf (Elt F) (oLoc d))
    (hX : ∀ i : S106496.Idx, ((Xc : Vec F S106496 .i32) i).toNat ≤ 99999) :
    iprop(levAts (K (F := F)).L (K (F := F)).lev ∗ emp ∗ (tPts d q1 Tc ∗ xPts d q3 Xc ∗ rowsOf d L O0)
        ∗ scopedBufs (thr d L) ∗ scopedSems0 (thr d L) ∗ owes (thr d L) O W)
      ⊢ wp frame (wpE (defs₀ (F := F)) 𝒱₀ (thr d L) none) Set.univ
          (cc0__gather L tW (Memref.isWhole_whole _) xW (Memref.isWhole_whole _) oW (Memref.isWhole_whole _)
            sA (Memref.isWhole_whole _) sB (Memref.isWhole_whole _) sC (Memref.isWhole_whole _) cc0_scoped0 cc0_scoped1 cc0_scoped2)
          fun _ => iprop((tPts d q1 Tc ∗ xPts d q3 Xc ∗ rowsOf d L (Gout d Tc Xc)) ∗ scopedBufs (thr d L) ∗ scopedSems0 (thr d L)
            ∗ ∃ W', ⌜∀ p ∈ W', p ∈ W ∨ p.2 = none⌝ ∗ owes (thr d L) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold rowsOf
  iintro ⟨#Hlv, -, ⟨Ht, Hx, Hrows⟩, ⟨⟨%fa, Ha⟩, ⟨%fb, Hb⟩, ⟨%fc, Hc⟩, Hbufs⟩, ⟨HsA, HsB, HsC, Hsems⟩, HO⟩
  ihave Hmw := ((K (F := F)).mayWaits_none (thr := thr d L) hO) $$ Hlv
  sl_exec
  sl_for (invO d L O W q1 q3 Tc Xc O0 (Gout d Tc Xc)) $$ [Hmw Ht Hx Ha Hb Hc HsA HsB HsC Hrows HO]
  case region =>
    intro k _
    unfold invO
    iintro ⟨Hmw, Ht, Hx, ⟨%fa, Ha⟩, ⟨%fb, Hb⟩, ⟨%fc, Hc⟩, HsA, HsB, HsC, Hrows, %W', %hW', HO⟩
    ihave Hrows' := (Entails.of_eq (SparseCore.bigSep_erase' (Finset.mem_univ k))) $$ Hrows
    icases Hrows' with ⟨Hrow, Hrest⟩
    rw [if_neg (Nat.lt_irrefl _)]
    sl_exec
    sl_unfold_run_names
    sl_for (invI d L (View.write (Elt F) (sA).view fa (slabPay d L k Tc) Finset.univ) (View.write (Elt F) (sB).view fb (idxPay d L k Xc) Finset.univ)) $$ [Ha Hb Hc]
    case region =>
      intro v _
      unfold invI
      iintro ⟨%fc1, Ha, Hb, Hc, %hP⟩
      sl_exec (disch := exact chk_holds d L k _ Xc hX _)
      ihave Ha' := (Entails.of_eq (pts_sA_access (F := F) d L _).symm) $$ Ha
      iapply (SparseCore.wp_vectorLoadIdx 𝒱₀ (thr d L) none Set.univ (base := sA) (S := Finset.univ) (q := fullShare) (Finset.subset_univ _)) $$ Ha'; iintro Ha'
      ihave Ha := (Entails.of_eq (pts_sA_access (F := F) d L _)) $$ Ha'
      sl_exec
      sl_unfold_run_names
      sl_step
      iexists _
      isplitl [Ha]; · iexact Ha
      isplitl [Hb]; · iexact Hb
      isplitl [Hc]; · iexact Hc
      ipureintro
      exact orow_step d L _ _ _ v hP _
    · unfold invI
      iexists fc
      isplitl [Ha]; · iexact Ha
      isplitl [Hb]; · iexact Hb
      isplitl [Hc]; · iexact Hc
      ipureintro; intro c hc; omega
    iintro %_ HI
    unfold invI
    icases HI with ⟨%fc2, Ha, Hb, Hc, %hP2⟩
    sl_exec
    sl_unfold_run_names
    sl_step
    isplitl [Hmw]; · iexact Hmw
    isplitl [Ht]; · iexact Ht
    isplitl [Hx]; · iexact Hx
    isplitl [Ha]; · iexists _; iexact Ha
    isplitl [Hb]; · iexists _; iexact Hb
    isplitl [Hc]; · iexists _; iexact Hc
    isplitl [HsA]; · iexact HsA
    isplitl [HsB]; · iexact HsB
    isplitl [HsC]; · iexact HsC
    isplitl [Hrow Hrest]
    · iapply (rows_step d L k O0 (Gout d Tc Xc) _ (row_final d L k fa fb fc2 Tc Xc O0 hX hP2))
      isplitl [Hrow]; · iexact Hrow
      iexact Hrest
    iexists (insert (SemLoc.dma cc0_scoped2.sem, (default : HIx 1)) (insert (SemLoc.dma cc0_scoped1.sem, (default : HIx 1))
      (insert (SemLoc.dma cc0_scoped0.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold invO
    isplitl [Hmw]; · iexact Hmw
    isplitl [Ht]; · iexact Ht
    isplitl [Hx]; · iexact Hx
    isplitl [Ha]; · iexists _; iexact Ha
    isplitl [Hb]; · iexists _; iexact Hb
    isplitl [Hc]; · iexists _; iexact Hc
    isplitl [HsA]; · iexact HsA
    isplitl [HsB]; · iexact HsB
    isplitl [HsC]; · iexact HsC
    isplitl [Hrows]
    · iapply (Entails.of_eq (rows_init d L O0 (Gout d Tc Xc))); iexact Hrows
    iexists W; isplitr
    · ipureintro; exact fun p hp => .inl hp
    · iexact HO
  iintro %_ HI
  unfold invO
  icases HI with ⟨-, Ht, Hx, ⟨%fa', Ha⟩, ⟨%fb', Hb⟩, ⟨%fc', Hc⟩, HsA, HsB, HsC, Hrows, %W', %hW', HO⟩
  sl_exec
  sl_step
  isplitl [Ht Hx Hrows]
  · isplitl [Ht]; · iexact Ht
    isplitl [Hx]; · iexact Hx
    iapply (Entails.of_eq (rows_done d L O0 (Gout d Tc Xc) _ (fun k' => k'.isLt))); iexact Hrows
  isplitl [Ha Hb Hc Hbufs]
  · isplitl [Ha]; · iexists _; iexact Ha
    isplitl [Hb]; · iexists _; iexact Hb
    isplitl [Hc]; · iexists _; iexact Hc
    iexact Hbufs
  isplitl [HsA HsB HsC Hsems]
  · isplitl [HsA]; · iexact HsA
    isplitl [HsB]; · iexact HsB
    isplitl [HsC]; · iexact HsC
    iexact Hsems
  iexists W'; isplitr
  · ipureintro; exact hW'
  · iexact HO

end Tile
end Cert.Proof.KB
end
-- ==== Proof.KbLaunch.lean ====
/-
  The kernel's program run. The call's payloads: each SparseCore takes a read share of the table and of the index list and
  the rows of its sixteen tasks, each task a share of those shares and its own 52 rows (row 2 s + c + 32 k for subcore s of
  SparseCore c in trip k: the 1664 rows once each); both hand back the same with the rows at the kernel's function. The
  TensorCore's @main: four re-layouts on the host, the call, two re-layouts of what came back. The run: every weakly fair
  execution of the device's 35 threads terminates with the result array at the re-laid kernel's function of the re-laid
  arguments, and the arguments unchanged.
-/
import proofs.«206583_g19980187861832_cont_8to1_303_35_alg».proof.Proof.KbBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.ValueIdx (ix1 ix2)

variable {F : FTy → Type}

local notation "𝕄" => MT nD τ sig (HIx 1) (Elt F) ℕ UU ℕ

local notation "tW" => (Memref.whole Cert.Kernel.main_v1_scv : Memref Cert.Kernel.sig Kind.scVector Space.hbm Cert.Kernel.S1664x100001 EltTy.f32)
local notation "xW" => (Memref.whole Cert.Kernel.main_v3_scv : Memref Cert.Kernel.sig Kind.scVector Space.hbm Cert.Kernel.S106496 EltTy.i32)
local notation "oW" => (Memref.whole Cert.Kernel.main_v4_scv : Memref Cert.Kernel.sig Kind.scVector Space.hbm Cert.Kernel.S1664x4096 EltTy.f32)
local notation "sA" => (Memref.whole Cert.Kernel.cc0_scratch0 : Memref Cert.Kernel.sig Kind.scVector Space.vmem Cert.Kernel.S1x100001 EltTy.f32)
local notation "sB" => (Memref.whole Cert.Kernel.cc0_scratch1 : Memref Cert.Kernel.sig Kind.scVector Space.vmem Cert.Kernel.S4096 EltTy.i32)
local notation "sC" => (Memref.whole Cert.Kernel.cc0_scratch2 : Memref Cert.Kernel.sig Kind.scVector Space.vmem Cert.Kernel.S1x4096 EltTy.f32)

variable [FloatOps F]

/-! ## The call's payloads -/

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s read share of an array the whole grid reads, and vector subcore `i`'s share of that. -/
abbrev qC (c : ℕ) : PosShare TreeShare := Transfers.shareTokN fullShare c
abbrev qCT (c i : ℕ) : PosShare TreeShare := Transfers.shareTokN (qC c) i

theorem bound_zero : grid0.bound 0 = 2 := rfl
theorem bound_one : grid0.bound 1 = 16 := rfl

section Pay
-- the table, the index list and the output as the call finds them, per device
variable (Tc : (d : Dev nD) → Buf (Elt F) (tLoc d)) (Xc : (d : Dev nD) → Buf (Elt F) (xLoc d)) (O0 : (d : Dev nD) → Buf (Elt F) (oLoc d))

/-- The grid point of task `i` of SparseCore `c` of the call. -/
abbrev LV (c : Fin ((K (F := F)).nCore 0)) (i : Fin ((K (F := F)).nSub 0)) : grid0.Coords := coordsV ⟨c.val, c.isLt⟩ ⟨i.val, i.isLt⟩

/-- What a task takes and hands back: read shares of the table and the index list, and its own rows of the output. -/
abbrev taskRes (d : Dev nD) (c : Fin ((K (F := F)).nCore 0)) (i : Fin ((K (F := F)).nSub 0)) (f : Buf (Elt F) (oLoc d)) : sProp 𝕄 :=
  iprop(tPts d (qCT c.val i.val) (Tc d) ∗ xPts d (qCT c.val i.val) (Xc d) ∗ rowsOf d (LV c i) f)
/-- What a SparseCore takes and hands back. -/
abbrev coreRes (d : Dev nD) (c : Fin ((K (F := F)).nCore 0)) (f : Buf (Elt F) (oLoc d)) : sProp 𝕄 :=
  iprop(tPts d (qC c.val) (Tc d) ∗ xPts d (qC c.val) (Xc d) ∗ bigSep Finset.univ fun i : Fin ((K (F := F)).nSub 0) => rowsOf d (LV c i) f)

def P : (K (F := F)).Pay (nD := nD) (Val := Elt F) (Name := ℕ) (U := UU) where
  st := fun q d c => match q with | 0 => coreRes Tc Xc d c (O0 d)
  dn := fun q d c => match q with | 0 => coreRes Tc Xc d c (Gout d (Tc d) (Xc d))
  go := fun q d c i => match q with | 0 => taskRes Tc Xc d c i (O0 d)
  td := fun q d c i => match q with | 0 => taskRes Tc Xc d c i (Gout d (Tc d) (Xc d))
  x := fun _ _ => iprop(emp)

instance P_storable : (P (F := F) Tc Xc O0).IsStorable where
  st q d c := match q with | 0 => by unfold P coreRes rowsOf; infer_instance
  dn q d c := match q with | 0 => by unfold P coreRes rowsOf; infer_instance
  go q d c i := match q with | 0 => by unfold P taskRes rowsOf; infer_instance
  td q d c i := match q with | 0 => by unfold P taskRes rowsOf; infer_instance

/-! ## The task's obligation -/

theorem defs₀_vector (c : Fin τ.nSC) (s : Fin τ.nSub) :
    defs₀ (F := F) (.scVector c s) 0 ()
      = SparseCore.onTile hcore0 hsub0 (fun c s => cc0__gather (coordsV c s)
          tW (Memref.isWhole_whole _) xW (Memref.isWhole_whole _) oW (Memref.isWhole_whole _)
          sA (Memref.isWhole_whole _) sB (Memref.isWhole_whole _) sC (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ (d : Dev nD) (i : S106496.Idx), ((Xc d : Vec F S106496 .i32) i).toNat ≤ 99999) :
    (K (F := F)).TileObl (D (F := F)) 𝒱 (P Tc Xc O0) v₀ 0 := by
  intro d c i O W hO _ _
  simp only [show (P Tc Xc O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ _ (Tc d) (Xc d) (O0 d) (hX d)).trans (wp_mono frame _ _ fun _ => obl_post)

/-! ## The output's rows -/

omit [FloatOps F] in
theorem hdiv : 1664 ∣ S1664x4096.size 0 := ⟨1, rfl⟩
/-- Row `g` of the output, and its elements. -/
abbrev row (g : Fin 1664) : Rect S1664x4096 := Rect.part (s := S1664x4096) (a₀ := 0) hdiv g
abbrev rowSet (g : Fin 1664) : Finset S1664x4096.Idx := ((oW).view.slice (row g)).set

/-- The row a task writes in trip `k`: tasks are numbered subcore-major, and trip `k` is 32 rows further on. -/
def gRow (L : grid0.Coords) (k : Fin k0_t1_loop.trips) : Fin 1664 :=
  ⟨2 * (L 1).val + (L 0).val + 32 * k.val, by
    have h1 : (L 1).val < 16 := (L 1).isLt
    have h0 : (L 0).val < 2 := (L 0).isLt
    have hk : k.val < 52 := Nat.lt_of_lt_of_le k.isLt k0_t1_abs.2.1
    omega⟩

omit [FloatOps F] in
theorem oRow_rect (L : grid0.Coords) (k : Fin k0_t1_loop.trips) :
    Rect.unit (s := S1664x4096) (k0_off5 L k) S1x4096.size (k0_off5_inb L k) = row (gRow L k) := by
  unfold row Rect.part Rect.block
  congr 1 <;> funext a
  · rw [k0_off5_eq]
    match a with
    | 0 => simp [Shape.partIx, Shape.partSize, gRow]
    | 1 => simp [Shape.partIx, Shape.partSize]
  · match a with
    | 0 => simp [Shape.partSize]
    | 1 => simp [Shape.partSize]

omit [FloatOps F] in
theorem set_oRow (L : grid0.Coords) (k : Fin k0_t1_loop.trips) : (oRow L k).view.set = rowSet (gRow L k) := by
  show ((oW).view.slice (Rect.unit (s := S1664x4096) (k0_off5 L k) S1x4096.size (k0_off5_inb L k))).set = ((oW).view.slice (row (gRow L k))).set
  rw [oRow_rect]

omit [FloatOps F] in
theorem pts_oRow (d : Dev nD) (L : grid0.Coords) (k : Fin k0_t1_loop.trips) (f : Buf (Elt F) (oLoc d)) :
    ((oRow L k).view.loc (thr d L) ↦[(oRow L k).view.set]{fullShare} f : sProp 𝕄) = oLoc d ↦[rowSet (gRow L k)]{fullShare} f := by
  rw [set_oRow]

omit [FloatOps F] in
theorem rowSet_eq (g : Fin 1664) : rowSet g = (row g).set := by
  show ((View.whole (main_v4_scv : Ref sig .scVector)).slice (row g)).set = _
  rw [View.set_slice]; exact Finset.map_refl
omit [FloatOps F] in
theorem rows_disjoint : ∀ i ∈ (Finset.univ : Finset (Fin 1664)), ∀ j ∈ (Finset.univ : Finset (Fin 1664)), i ≠ j → Disjoint (rowSet i) (rowSet j) :=
  fun i _ j _ h => by rw [rowSet_eq, rowSet_eq]; exact Rect.part_disjoint hdiv h
omit [FloatOps F] in
theorem rows_cover : (Finset.univ : Finset (Fin 1664)).biUnion rowSet = Finset.univ :=
  (Finset.biUnion_congr rfl fun i _ => rowSet_eq i).trans (Rect.biUnion_part hdiv)

omit [FloatOps F] in
/-- The output whole is its 1664 rows. -/
theorem oPts_rows (d : Dev nD) (f : Buf (Elt F) (oLoc d)) :
    (oLoc d ↦{fullShare} f : sProp 𝕄) = bigSep Finset.univ fun g : Fin 1664 => oLoc d ↦[rowSet g]{fullShare} f := by
  rw [← pointsTo_biUnion Finset.univ (ℓ := oLoc d) rowSet rows_disjoint, rows_cover]; try rfl

/-- The rows by SparseCore, vector subcore and trip. -/
def rowOf (x : Fin ((K (F := F)).nCore 0) × Fin ((K (F := F)).nSub 0) × Fin k0_t1_loop.trips) : Fin 1664 := gRow (LV x.1 x.2.1) x.2.2

omit [FloatOps F] in
theorem rowOf_val (x : Fin ((K (F := F)).nCore 0) × Fin ((K (F := F)).nSub 0) × Fin k0_t1_loop.trips) :
    (rowOf x).val = 2 * x.2.1.val + x.1.val + 32 * x.2.2.val := rfl

omit [FloatOps F] in
theorem rowOf_inj : Function.Injective (rowOf (F := F)) := by
  intro x y e
  have e' := congrArg Fin.val e
  rw [rowOf_val, rowOf_val] at e'
  have hx1 : x.1.val < 2 := x.1.isLt
  have hy1 : y.1.val < 2 := y.1.isLt
  have hx2 : x.2.1.val < 16 := x.2.1.isLt
  have hy2 : y.2.1.val < 16 := y.2.1.isLt
  exact Prod.ext (Fin.ext (by omega)) (Prod.ext (Fin.ext (by omega)) (Fin.ext (by omega)))

omit [FloatOps F] in
theorem rowOf_surj : Function.Surjective (rowOf (F := F)) := by
  intro g
  have hg : g.val < 1664 := g.isLt
  refine ⟨(⟨g.val % 2, by show g.val % 2 < 2; omega⟩, ⟨(g.val % 32) / 2, by show (g.val % 32) / 2 < 16; omega⟩,
    ⟨g.val / 32, by show g.val / 32 < 52; omega⟩), Fin.ext ?_⟩
  rw [rowOf_val]
  show 2 * ((g.val % 32) / 2) + g.val % 2 + 32 * (g.val / 32) = g.val
  omega

omit [FloatOps F] in
/-- A product over the 1664 rows is the product over SparseCores, subcores and trips. -/
theorem bigSep_rows (Φ : Fin 1664 → sProp 𝕄) :
    bigSep Finset.univ Φ = bigSep Finset.univ fun c : Fin ((K (F := F)).nCore 0) => bigSep Finset.univ fun i : Fin ((K (F := F)).nSub 0) =>
      bigSep Finset.univ fun k : Fin k0_t1_loop.trips => Φ (gRow (LV c i) k) := by
  have himg : (Finset.univ : Finset (Fin 1664)) = Finset.univ.image (rowOf (F := F)) :=
    (Finset.eq_univ_iff_forall.mpr fun g => by
      obtain ⟨x, rfl⟩ := rowOf_surj (F := F) g; exact Finset.mem_image_of_mem _ (Finset.mem_univ x)).symm
  rw [himg, SparseCore.bigSep_image_of_injOn (rowOf_inj (F := F)).injOn Φ, ← Finset.univ_product_univ, SparseCore.bigSep_product]
  refine bigSep_congr fun c _ => ?_
  rw [← Finset.univ_product_univ, SparseCore.bigSep_product]
  rfl

omit [FloatOps F] in
/-- The output whole is the tasks' rows, SparseCore by SparseCore. -/
theorem oPts_tasks (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => rowsOf d (LV c i) f := by
  rw [oPts_rows, bigSep_rows]
  refine bigSep_congr fun c _ => bigSep_congr fun i _ => ?_
  unfold rowsOf
  exact bigSep_congr fun k _ => (pts_oRow d (LV c i) k f).symm

/-! ## A SparseCore's operands among its tasks -/

theorem vecSplit : (K (F := F)).VecSplit' (P Tc Xc O0) 0 := by
  intro d c
  show coreRes Tc Xc d c (O0 d) ⊢ |={Set.univ}=> iprop((bigSep Finset.univ fun i : Fin ((K (F := F)).nSub 0) => taskRes Tc Xc d c i (O0 d))
      ∗ ((bigSep Finset.univ fun i : Fin ((K (F := F)).nSub 0) => taskRes Tc Xc d c i (Gout d (Tc d) (Xc d))) -∗ coreRes Tc Xc d c (Gout d (Tc d) (Xc d))))
  rw [bigSep_sep', bigSep_sep', bigSep_sep', bigSep_sep']
  iintro ⟨Ht, Hx, Hrows⟩
  ihave Ht' := (Transfers.pointsTo_toks_split (qC c.val) ((K (F := F)).nSub 0)) $$ Ht
  icases Ht' with ⟨Htr, Htt⟩
  ihave Hx' := (Transfers.pointsTo_toks_split (qC c.val) ((K (F := F)).nSub 0)) $$ Hx
  icases Hx' with ⟨Hxr, Hxt⟩
  imodintro
  isplitl [Htt Hxt Hrows]
  · isplitl [Htt]; · iexact Htt
    isplitl [Hxt]; · iexact Hxt
    iexact Hrows
  iintro ⟨Htt, Hxt, Hrows⟩
  isplitl [Htr Htt]
  · iapply (Transfers.pointsTo_toks_join (qC c.val) ((K (F := F)).nSub 0))
    isplitl [Htr]; · iexact Htr
    iexact Htt
  isplitl [Hxr Hxt]
  · iapply (Transfers.pointsTo_toks_join (qC c.val) ((K (F := F)).nSub 0))
    isplitl [Hxr]; · iexact Hxr
    iexact Hxt
  iexact Hrows

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Tc Xc O0).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Pay

/-! ## @main on the TensorCore -/

section Main
variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
/-- The TensorCore's arrays, all unscoped. -/
abbrev S9 : Finset (DevRef τ sig) := {a0', a1', v0', v1', v2', v3', v4', v5', v6'}

/-- @main's host operations: two re-layouts of the table, two of the indices, before the call; two of the result after it. -/
abbrev op1 : HloOp τ sig (Elt F) := StableHlo.unary main_arg1 main_v0 ((transpose S26x64x100001 [0, 2, 1] · transposes_S26x100001x64_S26x64x100001_0_2_1) : (⟨S26x100001x64, .f32⟩ : BufTy).Contents (Elt F) → (⟨S26x64x100001, .f32⟩ : BufTy).Contents (Elt F))
abbrev op2 : HloOp τ sig (Elt F) := StableHlo.reshape main_v0 main_v1 rfl shapeCasts_S26x64x100001_S1664x100001
abbrev op3 : HloOp τ sig (Elt F) := StableHlo.unary main_arg0 main_v2 ((transpose S26x4096 [1, 0] · transposes_S4096x26_S26x4096_1_0) : (⟨S4096x26, .i32⟩ : BufTy).Contents (Elt F) → (⟨S26x4096, .i32⟩ : BufTy).Contents (Elt F))
abbrev op4 : HloOp τ sig (Elt F) := StableHlo.reshape main_v2 main_v3 rfl shapeCasts_S26x4096_S106496
abbrev op5 : HloOp τ sig (Elt F) := StableHlo.reshape main_v4 main_v5 rfl shapeCasts_S1664x4096_S26x64x4096
abbrev op6 : HloOp τ sig (Elt F) := StableHlo.unary main_v5 main_v6 ((transpose S4096x26x64 [2, 0, 1] · transposes_S26x64x4096_S4096x26x64_2_0_1) : (⟨S26x64x4096, .f32⟩ : BufTy).Contents (Elt F) → (⟨S4096x26x64, .f32⟩ : BufTy).Contents (Elt F))

omit [FloatOps F] in
theorem held_S9 (d : Dev nD) (W : Valuation τ sig (Elt F)) :
    (held (T d) S9 W : sProp 𝕄) = iprop(((SparseCore.T d).loc main_arg0 ↦{fullShare} W a0') ∗ ((SparseCore.T d).loc main_arg1 ↦{fullShare} W a1')
      ∗ ((SparseCore.T d).loc main_v0 ↦{fullShare} W v0') ∗ (tLoc d ↦{fullShare} W v1') ∗ ((SparseCore.T d).loc main_v2 ↦{fullShare} W v2')
      ∗ (xLoc d ↦{fullShare} W v3') ∗ (oLoc d ↦{fullShare} W v4') ∗ ((SparseCore.T d).loc main_v5 ↦{fullShare} W v5')
      ∗ (SparseCore.T d).loc main_v6 ↦{fullShare} W v6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ (tLoc d ↦{fullShare} W main_v1) ∗ ((SparseCore.T d).loc main_v2 ↦{fullShare} W main_v2)
      ∗ (xLoc d ↦{fullShare} W main_v3) ∗ (oLoc d ↦{fullShare} W main_v4) ∗ ((SparseCore.T d).loc main_v5 ↦{fullShare} W main_v5)
      ∗ (SparseCore.T d).loc main_v6 ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation, and the valuation when the call is made. -/
abbrev V0 (d : Dev nD) : Valuation τ sig (Elt F) := fun b => m (d, b)
abbrev V4 (d : Dev nD) : Valuation τ sig (Elt F) :=
  (op4 (F := F)).result ((op3 (F := F)).result ((op2 (F := F)).result ((op1 (F := F)).result (V0 m d))))
/-- The table, the index list and the output as the call finds them. -/
abbrev TcM (d : Dev nD) : Buf (Elt F) (tLoc d) := V4 m d v1'
abbrev XcM (d : Dev nD) : Buf (Elt F) (xLoc d) := V4 m d v3'
abbrev OcM (d : Dev nD) : Buf (Elt F) (oLoc d) := V4 m d v4'
/-- After the call the output holds the kernel's function of them; then the two re-layouts of it. -/
abbrev V5 (d : Dev nD) : Valuation τ sig (Elt F) := Function.update (V4 m d) v4' (Gout d (TcM m d) (XcM m d))
abbrev V7 (d : Dev nD) : Valuation τ sig (Elt F) := (op6 (F := F)).result ((op5 (F := F)).result (V5 m d))

theorem unscoped_held (d : Dev nD) : (unscopedBufs d (fun b => m ((SparseCore.T d).loc b)) : sProp 𝕄) = held (T d) S9 (V0 m d) := by
  rw [unscopedBufs_eq, held_S9]

theorem h1 : (op1 (F := F)).bufs ⊆ S9 := show ({a1', v0'} : Finset (DevRef τ sig)) ⊆ S9 by decide
theorem h2 : (op2 (F := F)).bufs ⊆ S9 := show ({v0', v1'} : Finset (DevRef τ sig)) ⊆ S9 by decide
theorem h3 : (op3 (F := F)).bufs ⊆ S9 := show ({a0', v2'} : Finset (DevRef τ sig)) ⊆ S9 by decide
theorem h4 : (op4 (F := F)).bufs ⊆ S9 := show ({v2', v3'} : Finset (DevRef τ sig)) ⊆ S9 by decide
theorem h5 : (op5 (F := F)).bufs ⊆ S9 := show ({v4', v5'} : Finset (DevRef τ sig)) ⊆ S9 by decide
theorem h6 : (op6 (F := F)).bufs ⊆ S9 := show ({v5', v6'} : Finset (DevRef τ sig)) ⊆ S9 by decide

end Main

section Main2
variable (m : (ℓ : Loc nD τ sig) → Buf (Elt F) ℓ) (ρ : Dev nD → PrngReg)

omit [FloatOps F] in
theorem st_eq (Tc : (d : Dev nD) → Buf (Elt F) (tLoc d)) (Xc : (d : Dev nD) → Buf (Elt F) (xLoc d)) (d : Dev nD) (f : Buf (Elt F) (oLoc d)) :
    (bigSep Finset.univ fun c : Fin ((K (F := F)).nCore 0) => coreRes Tc Xc d c f)
      = iprop((bigSep Finset.univ fun c : Fin ((K (F := F)).nCore 0) => (tLoc d ↦{Transfers.shareTok fullShare ((K (F := F)).nCore 0) c} Tc d : sProp 𝕄))
        ∗ (bigSep Finset.univ fun c : Fin ((K (F := F)).nCore 0) => (xLoc d ↦{Transfers.shareTok fullShare ((K (F := F)).nCore 0) c} Xc d : sProp 𝕄))
        ∗ bigSep Finset.univ fun c : Fin ((K (F := F)).nCore 0) => bigSep Finset.univ fun i : Fin ((K (F := F)).nSub 0) => rowsOf d (LV c i) f) := by
  rw [bigSep_sep', bigSep_sep']

omit [FloatOps F] in
theorem dn0_eq (Tc : (d : Dev nD) → Buf (Elt F) (tLoc d)) (Xc : (d : Dev nD) → Buf (Elt F) (xLoc d)) (O0 : (d : Dev nD) → Buf (Elt F) (oLoc d)) (d : Dev nD) :
    (bigSep Finset.univ fun c : Fin ((K (F := F)).nCore 0) => (P Tc Xc O0).dn 0 d c)
      = bigSep Finset.univ fun c : Fin ((K (F := F)).nCore 0) => coreRes Tc Xc d c (Gout d (Tc d) (Xc d)) := rfl

theorem held_V5 (d : Dev nD) :
    (held (T d) S9 (V5 m d) : sProp 𝕄) = iprop(((SparseCore.T d).loc main_arg0 ↦{fullShare} V4 m d a0') ∗ ((SparseCore.T d).loc main_arg1 ↦{fullShare} V4 m d a1')
      ∗ ((SparseCore.T d).loc main_v0 ↦{fullShare} V4 m d v0') ∗ (tLoc d ↦{fullShare} TcM m d) ∗ ((SparseCore.T d).loc main_v2 ↦{fullShare} V4 m d v2')
      ∗ (xLoc d ↦{fullShare} XcM m d) ∗ (oLoc d ↦{fullShare} Gout d (TcM m d) (XcM m d)) ∗ ((SparseCore.T d).loc main_v5 ↦{fullShare} V4 m d v5')
      ∗ (SparseCore.T d).loc main_v6 ↦{fullShare} V4 m d v6') := by
  rw [held_S9]; unfold V5
  rw [Function.update_self, Function.update_of_ne (show a0' ≠ v4' by decide), Function.update_of_ne (show a1' ≠ v4' by decide),
    Function.update_of_ne (show v0' ≠ v4' by decide), Function.update_of_ne (show v1' ≠ v4' by decide), Function.update_of_ne (show v2' ≠ v4' by decide),
    Function.update_of_ne (show v3' ≠ v4' by decide), Function.update_of_ne (show v5' ≠ v4' by decide), Function.update_of_ne (show v6' ≠ v4' by decide)]

/-- What @main leaves the claim: the two arguments and the result. -/
abbrev FIN (d : Dev nD) : sProp 𝕄 :=
  iprop(((SparseCore.T d).loc main_arg0 ↦{fullShare} V7 m d a0') ∗ ((SparseCore.T d).loc main_arg1 ↦{fullShare} V7 m d a1')
    ∗ (SparseCore.T d).loc main_v6 ↦{fullShare} V7 m d v6')

/-- @main on device `d`'s TensorCore: four re-layouts, the call (the table and the index list lent as read shares to the
    two SparseCores, the output handed over by rows), two re-layouts of what came back. -/
theorem hmain (κ : GSem nD τ sig → ℕ) (d : Dev nD) :
    iprop((K (F := F)).ctx EH (P (TcM m) (XcM m) (OcM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op1) (S := S9) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) h4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_S9 (F := F) d (V4 m d))) $$ Hheld
  icases Hh with ⟨Ha0, Ha1, Hv0, Hv1, Hv2, Hv3, Hv4, Hv5, Hv6⟩
  ihave Hv1' := (Transfers.pointsTo_toks_split fullShare ((K (F := F)).nCore 0)) $$ Hv1
  icases Hv1' with ⟨Hv1r, Hv1t⟩
  ihave Hv3' := (Transfers.pointsTo_toks_split fullShare ((K (F := F)).nCore 0)) $$ Hv3
  icases Hv3' with ⟨Hv3r, Hv3t⟩
  ihave Hv4' := (Entails.of_eq (oPts_tasks (F := F) d (OcM m d))) $$ Hv4
  iapply ((K (F := F)).wp_run (D (F := F)) 𝒱 (EH := EH) (P := P (TcM m) (XcM m) (OcM m)) κ d 0) $$ [Hst Hv1t Hv3t Hv4' Hb Ha0 Ha1 Hv0 Hv2 Hv5 Hv6 Hv1r Hv3r]
  isplitr; · iexact Hctx
  isplitl [Hst]; · iexact Hst
  isplitl [Hv1t Hv3t Hv4']
  · iapply (Entails.of_eq (st_eq (TcM m) (XcM m) d (OcM m d)).symm)
    isplitl [Hv1t]; · iexact Hv1t
    isplitl [Hv3t]; · iexact Hv3t
    iexact Hv4'
  iintro ⟨Hst, Hdn⟩
  ihave Hdn' := (Entails.of_eq ((dn0_eq (TcM m) (XcM m) (OcM m) d).trans (st_eq (TcM m) (XcM m) d (Gout d (TcM m d) (XcM m d))))) $$ Hdn
  icases Hdn' with ⟨Hv1t, Hv3t, Hv4'⟩
  ihave Hv1 := (Transfers.pointsTo_toks_join fullShare ((K (F := F)).nCore 0)) $$ [Hv1r Hv1t]
  · isplitl [Hv1r]; · iexact Hv1r
    iexact Hv1t
  ihave Hv3 := (Transfers.pointsTo_toks_join fullShare ((K (F := F)).nCore 0)) $$ [Hv3r Hv3t]
  · isplitl [Hv3r]; · iexact Hv3r
    iexact Hv3t
  ihave Hv4 := (Entails.of_eq (oPts_tasks (F := F) d (Gout d (TcM m d) (XcM m d))).symm) $$ Hv4'
  iapply (wp_hlo_within 𝒱 (SparseCore.T d) none Set.univ (op := op5) (S := S9) h5 (V := V5 m d)) $$ [Hb Ha0 Ha1 Hv0 Hv1 Hv2 Hv3 Hv4 Hv5 Hv6]
  · isplitl [Hb]; · iexact Hb
    iapply (Entails.of_eq (held_V5 m d).symm)
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  iintro ⟨Hb, Hheld⟩
  rw [wp_ret]; imodintro
  iapply (wp_hlo_within 𝒱 (SparseCore.T d) none Set.univ (op := op6) (S := S9) h6 (V := (op5 (F := F)).result (V5 m d))) $$ [Hb Hheld]
  · isplitl [Hb]; · iexact Hb
    iexact Hheld
  iintro ⟨Hb, Hheld⟩
  ihave Hh := (Entails.of_eq (held_S9 (F := F) d (V7 m d))) $$ Hheld
  icases Hh with ⟨Ha0, Ha1, -, -, -, -, -, -, Hv6⟩
  rw [wp_ret]; imodintro; imodintro
  isplitl [Hst]; · iexact Hst
  isplitl [Ha0]; · iexact Ha0
  isplitl [Ha1]; · iexact Ha1
  iexact Hv6

end Main2

section Run
variable (m : (ℓ : Loc nD τ sig) → Buf (Elt F) ℓ) (ρ : Dev nD → PrngReg)

theorem V7_a0 (d : Dev nD) : V7 m d a0' = m ((SparseCore.T d).loc main_arg0) := by
  show (op6 (F := F)).result ((op5 (F := F)).result (Function.update (V4 m d) v4' _)) a0' = _
  rw [(op6 (F := F)).result_of_not_mem _ (b := a0') (show a0' ∉ ({v6'} : Finset (DevRef τ sig)) by decide),
    (op5 (F := F)).result_of_not_mem _ (b := a0') (show a0' ∉ ({v5'} : Finset (DevRef τ sig)) by decide),
    Function.update_of_ne (show a0' ≠ v4' by decide)]
  show (op4 (F := F)).result _ a0' = _
  rw [(op4 (F := F)).result_of_not_mem _ (b := a0') (show a0' ∉ ({v3'} : Finset (DevRef τ sig)) by decide),
    (op3 (F := F)).result_of_not_mem _ (b := a0') (show a0' ∉ ({v2'} : Finset (DevRef τ sig)) by decide),
    (op2 (F := F)).result_of_not_mem _ (b := a0') (show a0' ∉ ({v1'} : Finset (DevRef τ sig)) by decide),
    (op1 (F := F)).result_of_not_mem _ (b := a0') (show a0' ∉ ({v0'} : Finset (DevRef τ sig)) by decide)]

theorem V7_a1 (d : Dev nD) : V7 m d a1' = m ((SparseCore.T d).loc main_arg1) := by
  show (op6 (F := F)).result ((op5 (F := F)).result (Function.update (V4 m d) v4' _)) a1' = _
  rw [(op6 (F := F)).result_of_not_mem _ (b := a1') (show a1' ∉ ({v6'} : Finset (DevRef τ sig)) by decide),
    (op5 (F := F)).result_of_not_mem _ (b := a1') (show a1' ∉ ({v5'} : Finset (DevRef τ sig)) by decide),
    Function.update_of_ne (show a1' ≠ v4' by decide)]
  show (op4 (F := F)).result _ a1' = _
  rw [(op4 (F := F)).result_of_not_mem _ (b := a1') (show a1' ∉ ({v3'} : Finset (DevRef τ sig)) by decide),
    (op3 (F := F)).result_of_not_mem _ (b := a1') (show a1' ∉ ({v2'} : Finset (DevRef τ sig)) by decide),
    (op2 (F := F)).result_of_not_mem _ (b := a1') (show a1' ∉ ({v1'} : Finset (DevRef τ sig)) by decide),
    (op1 (F := F)).result_of_not_mem _ (b := a1') (show a1' ∉ ({v0'} : Finset (DevRef τ sig)) by decide)]

def fq (d : Dev nD) (s' : Phys nD τ sig (Elt F)) : Prop :=
  s'.mem.mem ((SparseCore.T d).loc main_arg0) = V7 m d a0' ∧ s'.mem.mem ((SparseCore.T d).loc main_arg1) = V7 m d a1'
    ∧ s'.mem.mem ((SparseCore.T d).loc main_v6) = V7 m d v6'

theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := (SparseCore.T d).loc main_arg0) (I := Finset.univ) (q := fullShare) (f := V7 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V7 m d a1'))) $$ [HSI H1]
  · isplitl [HSI] <;> iassumption
  icases H with ⟨%h1, HSI, -⟩
  ihave H := (SI_pointsTo_agree (st := s') (ℓ := (SparseCore.T d).loc main_v6) (I := Finset.univ) (q := fullShare) (f := V7 m d v6')) $$ [HSI H6]
  · isplitl [HSI] <;> iassumption
  icases H with %h6
  ipureintro
  exact ⟨funext fun i => h0 i (Finset.mem_univ i), funext fun i => h1 i (Finset.mem_univ i), funext fun i => h6 i (Finset.mem_univ i)⟩

/-- What the program's run leaves: the result at the re-laid-out kernel's function, the arguments unchanged. -/
def QC : PUnit × MemSt nD τ sig (Elt F) → Prop := fun r => ∀ c : Dev nD,
  r.2.mem ((SparseCore.T c).loc main_v6) = V7 m c v6'
    ∧ r.2.mem ((SparseCore.T c).loc main_arg0) = m ((SparseCore.T c).loc main_arg0)
    ∧ r.2.mem ((SparseCore.T c).loc main_arg1) = m ((SparseCore.T c).loc main_arg1)

/-- The program's run, from a launch memory whose index words are all at most 99999. -/
theorem run_main [∀ e, Nonempty (Elt F e)] (hX : ∀ (d : Dev nD) (i : S106496.Idx), ((XcM m d : Vec F S106496 .i32) i).toNat ≤ 99999) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (TcM m) (XcM m) (OcM m)) facts v₀
    (fun q hq => match q with | 0 => nomatch hq)
    (fun q _ => match q with | 0 => tileObl (TcM m) (XcM m) (OcM m) facts hX)
    (fun q _ => match q with | 0 => SparseCore.Cfg.VecSplit.of_plain (vecSplit (TcM m) (XcM m) (OcM m)))
    m ρ main (fun _ => iprop(emp)) (FIN m) (u₀ (F := F)) (sep_elim_left.trans (hu₀ (TcM m) (XcM m) (OcM m))) (hmain m ρ) (fq m) (hfin m) (QC m)
    (fun s' h c => ⟨(h c).2.2, (h c).1.trans (V7_a0 m c), (h c).2.1.trans (V7_a1 m c)⟩)

end Run

end Cert.Proof.KB
end
-- ==== Proof.KbBridge.lean ====
/-
  The program's host re-layouts read at an index. Before the call: the stacked tables [26, 100001, 64] with the last two axes
  exchanged and the first two flattened, so that row g = 64 f + e of the [1664, 100001] table is embedding coordinate e of
  field f; the index array [4096, 26] transposed and flattened, so that word p = 4096 f + b of the list is the index of batch
  element b for field f. After it: the [1664, 4096] output unflattened to [26, 64, 4096] and its batch axis moved first.
  So entry (b, f, e) of the program's result is the kernel's function at (64 f + e, b): the table's row 64 f + e at the
  list's word 4096 f + b, which is tables[f, x[b, f], e] when every index word is at most 99999.
-/
import proofs.«206583_g19980187861832_cont_8to1_303_35_alg».proof.Proof.KbLaunch
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.ValueIdx (ix1 ix2 ix3)

variable {F : FTy → Type} [FloatOps F]
variable (m : (ℓ : Loc nD τ sig) → Buf (Elt F) ℓ)

/-- The index list as the two host operations build it: the index array transposed, then flattened. -/
theorem XcM_eq (d : Dev nD) :
    (XcM m d : Vec F S106496 .i32)
      = shapeCast S106496 (transpose S26x4096 [1, 0] (m ((SparseCore.T d).loc main_arg0) : Vec F S4096x26 .i32) transposes_S4096x26_S26x4096_1_0)
          shapeCasts_S26x4096_S106496 := by
  show (op4 (F := F)).result _ v3' = _
  rw [StableHlo.reshape_result, StableHlo.unary_result]
  rw [(op2 (F := F)).result_of_not_mem _ (b := a0') (show a0' ∉ ({v1'} : Finset (DevRef τ sig)) by decide),
    (op1 (F := F)).result_of_not_mem _ (b := a0') (show a0' ∉ ({v0'} : Finset (DevRef τ sig)) by decide)]
  rfl

/-- The index list the call finds is the index array transposed and flattened: word `p` is the index of batch element
    `p % 4096` for field `p / 4096`. -/
theorem XcM_apply (d : Dev nD) (p : Fin 106496) :
    (XcM m d : Vec F S106496 .i32) (ix1 p)
      = (m ((SparseCore.T d).loc main_arg0) : Vec F S4096x26 .i32) (ix2 (⟨p.val % 4096, Nat.mod_lt _ (by norm_num)⟩ : Fin 4096)
          (⟨p.val / 4096, by have := p.isLt; omega⟩ : Fin 26)) := by
  rw [XcM_eq]
  -- position `p` of the flat list is position `(p / 4096, p % 4096)` of the transposed array
  refine (shapeCast_apply _ _ _ (ix2 (⟨p.val / 4096, by have := p.isLt; omega⟩ : Fin 26)
    (⟨p.val % 4096, Nat.mod_lt _ (by norm_num)⟩ : Fin 4096)) ?_).trans ?_
  · rw [Shape.rowMajor_val_two, Shape.rowMajor_val_one]
    show p.val / 4096 * 4096 + p.val % 4096 = p.val
    omega
  · exact ValueIdx.transpose_ix2_apply _ _ _ _

/-- Every word of the index list is a word of the index array. -/
theorem XcM_le (hx : ∀ (d : Dev nD) (i : S4096x26.Idx), ((m ((SparseCore.T d).loc main_arg0) : Vec F S4096x26 .i32) i).toNat ≤ 99999)
    (d : Dev nD) (i : S106496.Idx) : ((XcM m d : Vec F S106496 .i32) i).toNat ≤ 99999 := by
  obtain ⟨p, rfl⟩ : ∃ p : Fin 106496, i = ix1 p := ⟨i 0, ValueIdx.eq_ix1 (n := 106496) i⟩
  rw [XcM_apply]
  exact hx d _

/-- The table as the two host operations build it: the last two axes of the stacked tables swapped, then the first two
    axes flattened. -/
theorem TcM_eq (d : Dev nD) :
    (TcM m d : Vec F S1664x100001 .f32)
      = shapeCast S1664x100001 (transpose S26x64x100001 [0, 2, 1] (m ((SparseCore.T d).loc main_arg1) : Vec F S26x100001x64 .f32)
          transposes_S26x100001x64_S26x64x100001_0_2_1) shapeCasts_S26x64x100001_S1664x100001 := by
  show (op4 (F := F)).result _ v1' = _
  rw [(op4 (F := F)).result_of_not_mem _ (b := v1') (show v1' ∉ ({v3'} : Finset (DevRef τ sig)) by decide),
    (op3 (F := F)).result_of_not_mem _ (b := v1') (show v1' ∉ ({v2'} : Finset (DevRef τ sig)) by decide)]
  rw [StableHlo.reshape_result, StableHlo.unary_result]
  rfl

/-- The table the call finds is the stacked tables with the embedding axis moved before the vocabulary axis, fields and
    embedding coordinates flattened into rows: row `g` is embedding coordinate `g % 64` of field `g / 64`. -/
theorem TcM_apply (d : Dev nD) (g : Fin 1664) (j : Fin 100001) :
    (TcM m d : Vec F S1664x100001 .f32) (ix2 g j)
      = (m ((SparseCore.T d).loc main_arg1) : Vec F S26x100001x64 .f32) (ix3 (⟨g.val / 64, by have := g.isLt; omega⟩ : Fin 26) j
          (⟨g.val % 64, Nat.mod_lt _ (by norm_num)⟩ : Fin 64)) := by
  rw [TcM_eq]
  -- row `g`, column `j` of the flattened table is entry `(g / 64, g % 64, j)` of the transposed stack
  refine (shapeCast_apply _ _ _ (ix3 (⟨g.val / 64, by have := g.isLt; omega⟩ : Fin 26)
    (⟨g.val % 64, Nat.mod_lt _ (by norm_num)⟩ : Fin 64) j) ?_).trans ?_
  · rw [Shape.rowMajor_val_three, Shape.rowMajor_val_two]
    show (g.val / 64 * 64 + g.val % 64) * 100001 + j.val = g.val * 100001 + j.val
    omega
  · exact ValueIdx.transpose_ix3_021_apply _ _ _ _ _

/-- Word `4096 f + b` of the index list is the index of batch element `b` for field `f`. -/
theorem XcM_field (d : Dev nD) (f : Fin 26) (b : Fin 4096) (p : Fin 106496) (hp : p.val = f.val * 4096 + b.val) :
    (XcM m d : Vec F S106496 .i32) (ix1 p) = (m ((SparseCore.T d).loc main_arg0) : Vec F S4096x26 .i32) (ix2 b f) := by
  have hb := b.isLt
  rw [XcM_apply]
  refine congrArg (m ((SparseCore.T d).loc main_arg0) : Vec F S4096x26 .i32) ?_
  funext c
  match c with
  | ⟨0, _⟩ => exact Fin.ext (show p.val % 4096 = b.val by omega)
  | ⟨1, _⟩ => exact Fin.ext (show p.val / 4096 = f.val by omega)

/-- Row `64 f + e` of the table is coordinate `e` of field `f`'s table. -/
theorem TcM_row (d : Dev nD) (f : Fin 26) (e : Fin 64) (g : Fin 1664) (hg : g.val = f.val * 64 + e.val) (j : Fin 100001) :
    (TcM m d : Vec F S1664x100001 .f32) (ix2 g j) = (m ((SparseCore.T d).loc main_arg1) : Vec F S26x100001x64 .f32) (ix3 f j e) := by
  have he := e.isLt
  rw [TcM_apply]
  refine congrArg (m ((SparseCore.T d).loc main_arg1) : Vec F S26x100001x64 .f32) ?_
  funext c
  match c with
  | ⟨0, _⟩ => exact Fin.ext (show g.val / 64 = f.val by omega)
  | ⟨1, _⟩ => rfl
  | ⟨2, _⟩ => exact Fin.ext (show g.val % 64 = e.val by omega)

/-- The program's result as the two host operations build it from what the call left in the output. -/
theorem V7_eq (d : Dev nD) :
    (V7 m d v6' : Vec F S4096x26x64 .f32)
      = transpose S4096x26x64 [2, 0, 1] (shapeCast S26x64x4096 (Gout d (TcM m d) (XcM m d) : Vec F S1664x4096 .f32)
          shapeCasts_S1664x4096_S26x64x4096) transposes_S26x64x4096_S4096x26x64_2_0_1 := by
  show (op6 (F := F)).result ((op5 (F := F)).result (Function.update (V4 m d) v4' _)) v6' = _
  rw [StableHlo.unary_result, StableHlo.reshape_result]
  show transpose S4096x26x64 [2, 0, 1] (shapeCast S26x64x4096 (Function.update (V4 m d) v4' (Gout d (TcM m d) (XcM m d)) v4') _) _ = _
  rw [Function.update_self]

/-- The kernel's function read at row `g`, column `b`: row `g` of the table at the (clamped) index word of batch
    element `b` in the stretch of row `g`'s field. -/
theorem Gout_at (d : Dev nD) (Tc : Buf (Elt F) (tLoc d)) (Xc : Buf (Elt F) (xLoc d)) (g : Fin 1664) (b : Fin 4096) :
    (Gout d Tc Xc : Vec F S1664x4096 .f32) (ix2 g b)
      = (Tc : Vec F S1664x100001 .f32) (ix2 g
          (⟨min ((Xc : Vec F S106496 .i32) (ix1 (⟨g.val / 64 * 4096 + b.val, by have := g.isLt; have := b.isLt; omega⟩ : Fin 106496))).toNat 100000,
            by omega⟩ : Fin 100001)) := rfl

/-- The program's result, entry by entry: the embedding of batch element `b`'s index for field `f`, at coordinate `e`. -/
theorem result_apply (hx : ∀ (d : Dev nD) (i : S4096x26.Idx), ((m ((SparseCore.T d).loc main_arg0) : Vec F S4096x26 .i32) i).toNat ≤ 99999)
    (d : Dev nD) (b : Fin 4096) (f : Fin 26) (e : Fin 64) :
    (V7 m d v6' : Vec F S4096x26x64 .f32) (ix3 b f e)
      = (m ((SparseCore.T d).loc main_arg1) : Vec F S26x100001x64 .f32)
          (ix3 f (⟨((m ((SparseCore.T d).loc main_arg0) : Vec F S4096x26 .i32) (ix2 b f)).toNat, by have := hx d (ix2 b f); omega⟩ : Fin 100001) e) := by
  have hf := f.isLt
  have he := e.isLt
  have hb := b.isLt
  rw [V7_eq]
  -- entry `(b, f, e)` of the result is entry `(f, e, b)` of the reshaped output, which is row `64 f + e`, column `b`
  refine (transpose_apply _ _ _ _ (ix3 f e b) (fun c => match c with | ⟨0, _⟩ => rfl | ⟨1, _⟩ => rfl | ⟨2, _⟩ => rfl)).trans ?_
  refine (shapeCast_apply _ _ _ (ix2 (⟨f.val * 64 + e.val, by omega⟩ : Fin 1664) b) ?_).trans ?_
  · rw [Shape.rowMajor_val_two, Shape.rowMajor_val_three]
    rfl
  -- that row is coordinate `e` of field `f`'s table, read at the clamped index word
  rw [Gout_at, TcM_row m d f e _ rfl]
  refine congrArg (fun j : Fin 100001 => (m ((SparseCore.T d).loc main_arg1) : Vec F S26x100001x64 .f32) (ix3 f j e)) (Fin.ext ?_)
  -- the word is batch element `b`'s index for field `f`, which the precondition puts below the clamp
  show min ((XcM m d : Vec F S106496 .i32) (ix1 _)).toNat 100000
    = ((m ((SparseCore.T d).loc main_arg0) : Vec F S4096x26 .i32) (ix2 b f)).toNat
  rw [XcM_field m d f b _ (show (f.val * 64 + e.val) / 64 * 4096 + b.val = f.val * 4096 + b.val by omega)]
  exact Nat.min_eq_left (Nat.le_trans (hx d (ix2 b f)) (by norm_num))

end Cert.Proof.KB
end
-- ==== Proof.RefValue.lean ====
/-
  The reference's value at an index. The reference computes, for each of the 26 fields f, the [4096, 64] array whose row b is
  row x[b, f] of table f (a gather of whole rows, the start index wrapped as  x < 0 ? x + 100001 : x  and clamped into
  [0, 100000]), inserts a unit axis, and concatenates the 26 pieces along that axis — sixteen of them first, then ten, then
  the two halves. For index words 0 ≤ x ≤ 99999 the wrap keeps x (it is not negative as a signed word) and the clamp is the
  identity, so the result at (b, f, e) is  tables[f, x[b, f], e].

  Order of the file: two facts about 32-bit words; the row gather read at an index; one field's piece read at an index
  (column f of x, the wrapped word, table f as a matrix, the piece), stated for any field number n with the shape facts as
  hypotheses, since the 26 pieces differ only in the literal n; the concatenations read at an index; the result.
-/
import proofs.«206583_g19980187861832_cont_8to1_303_35_alg».proof.Proof.Gen.ReferenceIdeal.Run
import Idealize.ShloMosaic.Lib.ValueLayout

noncomputable section

namespace Cert.Proof.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

variable {F : FTy → Type} [FloatOps F]

/-- A 32-bit word of value at most 99999 is below 2^31, so it is not negative as a signed integer: the comparison
    "word < 0" gives the zero bit. -/
theorem slt_zero_of_le (w : BitVec 32) (h : w.toNat ≤ 99999) : IntOp.cmpi .slt w 0#32 = 0#1 := by
  unfold IntOp.cmpi
  have : w.slt 0#32 = false := by
    rw [BitVec.slt_eq_decide]
    have h1 : w.toInt = (w.toNat : Int) := BitVec.toInt_eq_toNat_of_lt (by omega)
    simp [h1]
  simp [this]

/-- Such a word read as a signed integer and then as a natural number is its unsigned value. -/
theorem toInt_toNat_of_le (w : BitVec 32) (h : w.toNat ≤ 99999) : w.toInt.toNat = w.toNat := by
  have h1 : w.toInt = (w.toNat : Int) := BitVec.toInt_eq_toNat_of_lt (by omega)
  rw [h1]; rfl

/-- The row gather (operand [100001, 64], start indices [4096, 1], one start index per result row, the operand's row
    axis collapsed and its column axis the offset axis) read at (b, e): the operand at the row the start index names,
    read signed and clamped into [0, 100000], and at column e. On the row axis the offset and batching coordinates vanish and the
    start is the clamped index; on the column axis the start vanishes and the offset coordinate is e. -/
theorem gather_row_apply {α : Type} (x : S100001x64.Idx → α) (idx : IVec S4096x1 32) (b : Fin 4096) (e : Fin 64) :
    Host.gather gather_S100001x64_S4096x1_S4096x64_1_0_n_n_0_1_164 x idx (ix2 b e)
      = x (ix2 ⟨min (idx (ix2 b (0 : Fin 1))).toInt.toNat 100000, by omega⟩ e) := by
  unfold Host.gather
  refine congrArg x (funext fun a => Fin.ext ?_)
  match a with
  | ⟨0, _⟩ =>
    show gather_S100001x64_S4096x1_S4096x64_1_0_n_n_0_1_164.start (ix2 b e) idx (0 : Fin 2) + gather_S100001x64_S4096x1_S4096x64_1_0_n_n_0_1_164.batchCoord (ix2 b e) (0 : Fin 2) + gather_S100001x64_S4096x1_S4096x64_1_0_n_n_0_1_164.offCoord (ix2 b e) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x64_S4096x1_S4096x64_1_0_n_n_0_1_164.startIndexMap from List.mem_singleton.mpr rfl)]
    have hsi : gather_S100001x64_S4096x1_S4096x64_1_0_n_n_0_1_164.siIdx (ix2 b e) ⟨List.idxOf (0 : Fin 2) gather_S100001x64_S4096x1_S4096x64_1_0_n_n_0_1_164.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S100001x64_S4096x1_S4096x64_1_0_n_n_0_1_164.start (ix2 b e) idx (1 : Fin 2) + gather_S100001x64_S4096x1_S4096x64_1_0_n_n_0_1_164.batchCoord (ix2 b e) (1 : Fin 2) + gather_S100001x64_S4096x1_S4096x64_1_0_n_n_0_1_164.offCoord (ix2 b e) (1 : Fin 2) = e.val
    rw [GatherDims.batchCoord_eq_zero _ _ _ List.not_mem_nil]
    unfold GatherDims.start
    rw [dif_neg (show (1 : Fin 2) ∉ gather_S100001x64_S4096x1_S4096x64_1_0_n_n_0_1_164.startIndexMap from fun h => absurd (List.mem_singleton.mp h) (by decide))]
    unfold GatherDims.offCoord
    rw [dif_pos (show (1 : Fin 2) ∈ gather_S100001x64_S4096x1_S4096x64_1_0_n_n_0_1_164.sKept from (GatherDims.mem_sKept _ _).2 ⟨fun h => absurd (List.mem_singleton.mp h) (by decide), List.not_mem_nil⟩)]
    simp only [Nat.zero_add]
    rfl

/-- The same with the row named by any r whose value is the clamped start index. -/
theorem gather_row_apply' {α : Type} (x : S100001x64.Idx → α) (idx : IVec S4096x1 32) (b : Fin 4096) (e : Fin 64) (r : Fin 100001)
    (hr : min (idx (ix2 b (0 : Fin 1))).toInt.toNat 100000 = r.val) :
    Host.gather gather_S100001x64_S4096x1_S4096x64_1_0_n_n_0_1_164 x idx (ix2 b e) = x (ix2 r e) := by
  rw [gather_row_apply]
  exact congrArg (fun q => x (ix2 q e)) (Fin.ext hr)

/-- Column n of the index array, as a vector, at row b. -/
theorem col_apply (X : IVec S4096x26 32) (n : Nat) (hn : n < 26)
    (hs0 : S4096x26.Slices ![0, n] S4096x1) (hc0 : S4096x1.ShapeCasts S4096) (b : Fin 4096) :
    shapeCast S4096 (extractStridedSlice S4096x1 ![0, n] X hs0) hc0 (ix1 b) = X (ix2 b ⟨n, hn⟩) := by
  refine (shapeCast_apply _ hc0 (ix1 b) (ix2 b (0 : Fin 1)) ?_).trans ?_
  · rw [Shape.rowMajor_val_two, Shape.rowMajor_val_one]
    show b.val * 1 + 0 = b.val
    omega
  · exact slice2_axis1_apply n X hs0 b (0 : Fin 1) ⟨n, hn⟩ (by simp)

/-- The wrapped index word (negative words shifted by the table height) is the word itself when it is at most 99999. -/
theorem wrap_apply (X : IVec S4096x26 32) (n : Nat) (hn : n < 26)
    (hs0 : S4096x26.Slices ![0, n] S4096x1) (hc0 : S4096x1.ShapeCasts S4096)
    (hb0 : S_.BroadcastsInDim S4096 (![] : Fin 0 → Fin S4096.rank)) (b : Fin 4096)
    (hX : (X (ix2 b ⟨n, hn⟩)).toNat ≤ 99999) :
    select (cmpi .slt (shapeCast S4096 (extractStridedSlice S4096x1 ![0, n] X hs0) hc0) (broadcastInDim S4096 ![] hb0 (constantI S_ 32 0#32)))
        (addi (shapeCast S4096 (extractStridedSlice S4096x1 ![0, n] X hs0) hc0) (broadcastInDim S4096 ![] hb0 (constantI S_ 32 100001#32)))
        (shapeCast S4096 (extractStridedSlice S4096x1 ![0, n] X hs0) hc0) (ix1 b)
      = X (ix2 b ⟨n, hn⟩) := by
  show Scalar.select (IntOp.cmpi .slt (shapeCast S4096 (extractStridedSlice S4096x1 ![0, n] X hs0) hc0 (ix1 b)) 0#32)
      (IntOp.addi (shapeCast S4096 (extractStridedSlice S4096x1 ![0, n] X hs0) hc0 (ix1 b)) 100001#32)
      (shapeCast S4096 (extractStridedSlice S4096x1 ![0, n] X hs0) hc0 (ix1 b)) = _
  rw [col_apply X n hn hs0 hc0 b, slt_zero_of_le _ hX, select_zero]

/-- Table n, as a matrix of rows, at (r, e). -/
theorem table_apply {α : Type} (T : S26x100001x64.Idx → α) (n : Nat) (hn : n < 26)
    (hs1 : S26x100001x64.Slices ![n, 0, 0] S1x100001x64) (hc1 : S1x100001x64.ShapeCasts S100001x64)
    (r : Fin 100001) (e : Fin 64) :
    shapeCast S100001x64 (extractStridedSlice S1x100001x64 ![n, 0, 0] T hs1) hc1 (ix2 r e) = T (ix3 ⟨n, hn⟩ r e) := by
  refine (shapeCast_1ab_ab_apply _ hc1 r e).trans ?_
  refine extractStridedSlice_apply _ _ _ _ _ (fun ax => ?_)
  match ax with
  | ⟨0, _⟩ => rfl
  | ⟨1, _⟩ => exact (Nat.zero_add _).symm
  | ⟨2, _⟩ => exact (Nat.zero_add _).symm

/-- One field's piece of the reference at (b, ·, e): the table's row named by the index word. -/
theorem piece_apply {α : Type} (T : S26x100001x64.Idx → α) (X : IVec S4096x26 32) (n : Nat) (hn : n < 26)
    (hs1 : S26x100001x64.Slices ![n, 0, 0] S1x100001x64) (hc1 : S1x100001x64.ShapeCasts S100001x64)
    (hs0 : S4096x26.Slices ![0, n] S4096x1) (hc0 : S4096x1.ShapeCasts S4096)
    (hb0 : S_.BroadcastsInDim S4096 (![] : Fin 0 → Fin S4096.rank))
    (hb1 : S4096.BroadcastsInDim S4096x1 (![0] : Fin 1 → Fin S4096x1.rank))
    (hb2 : S4096x64.BroadcastsInDim S4096x1x64 (![0, 2] : Fin 2 → Fin S4096x1x64.rank))
    (b : Fin 4096) (z : Fin 1) (e : Fin 64) (hX : (X (ix2 b ⟨n, hn⟩)).toNat ≤ 99999) :
    broadcastInDim S4096x1x64 ![0, 2] hb2 (Host.gather gather_S100001x64_S4096x1_S4096x64_1_0_n_n_0_1_164
        (shapeCast S100001x64 (extractStridedSlice S1x100001x64 ![n, 0, 0] T hs1) hc1)
        (broadcastInDim S4096x1 ![0] hb1
          (select (cmpi .slt (shapeCast S4096 (extractStridedSlice S4096x1 ![0, n] X hs0) hc0) (broadcastInDim S4096 ![] hb0 (constantI S_ 32 0#32)))
            (addi (shapeCast S4096 (extractStridedSlice S4096x1 ![0, n] X hs0) hc0) (broadcastInDim S4096 ![] hb0 (constantI S_ 32 100001#32)))
            (shapeCast S4096 (extractStridedSlice S4096x1 ![0, n] X hs0) hc0)))) (ix3 b z e)
      = T (ix3 ⟨n, hn⟩ ⟨(X (ix2 b ⟨n, hn⟩)).toNat, by omega⟩ e) := by
  refine (broadcastInDim_apply _ hb2 _ (ix3 b z e) (ix2 b e) (fun a => ?_)).trans ?_
  · match a with
    | ⟨0, _⟩ => rfl
    | ⟨1, _⟩ => rfl
  refine (gather_row_apply' _ _ b e ⟨(X (ix2 b ⟨n, hn⟩)).toNat, by omega⟩ ?_).trans ?_
  · have hw : broadcastInDim S4096x1 ![0] hb1
          (select (cmpi .slt (shapeCast S4096 (extractStridedSlice S4096x1 ![0, n] X hs0) hc0) (broadcastInDim S4096 ![] hb0 (constantI S_ 32 0#32)))
            (addi (shapeCast S4096 (extractStridedSlice S4096x1 ![0, n] X hs0) hc0) (broadcastInDim S4096 ![] hb0 (constantI S_ 32 100001#32)))
            (shapeCast S4096 (extractStridedSlice S4096x1 ![0, n] X hs0) hc0)) (ix2 b (0 : Fin 1)) = X (ix2 b ⟨n, hn⟩) := by
      refine (broadcastInDim_apply _ hb1 _ (ix2 b (0 : Fin 1)) (ix1 b) (fun a => ?_)).trans (wrap_apply X n hn hs0 hc0 hb0 b hX)
      match a with
      | ⟨0, _⟩ => rfl
    rw [hw, toInt_toNat_of_le _ hX]
    show min (X (ix2 b ⟨n, hn⟩)).toNat 100000 = (X (ix2 b ⟨n, hn⟩)).toNat
    omega
  · exact table_apply T n hn hs1 hc1 _ e

/-- The two-piece concatenation along axis 1 at a field below 16: the first piece there. -/
theorem concat_pair_left {α : Type} (A : S4096x16x64.Idx → α) (B : S4096x10x64.Idx → α)
    (h : Shape.Concatenates [S4096x16x64, S4096x10x64] S4096x26x64 1) (b : Fin 4096) (f : Fin 26) (e : Fin 64) (hf : f.val < 16) :
    concatenate S4096x26x64 1 [⟨S4096x16x64, A⟩, ⟨S4096x10x64, B⟩] h (ix3 b f e) = A (ix3 b ⟨f.val, hf⟩ e) :=
  concatenate_pair_apply_left 1 A B h (ix3 b f e) rfl (ix3 b ⟨f.val, hf⟩ e) (fun ax => by
    match ax with
    | ⟨0, _⟩ => rfl
    | ⟨1, _⟩ => rfl
    | ⟨2, _⟩ => rfl)

/-- The two-piece concatenation along axis 1 at a field from 16 on: the second piece, sixteen fields back. -/
theorem concat_pair_right {α : Type} (A : S4096x16x64.Idx → α) (B : S4096x10x64.Idx → α)
    (h : Shape.Concatenates [S4096x16x64, S4096x10x64] S4096x26x64 1) (b : Fin 4096) (f : Fin 26) (e : Fin 64) (hf : 16 ≤ f.val) :
    concatenate S4096x26x64 1 [⟨S4096x16x64, A⟩, ⟨S4096x10x64, B⟩] h (ix3 b f e) = B (ix3 b ⟨f.val - 16, by omega⟩ e) :=
  concatenate_pair_apply_right 1 A B h (ix3 b f e) rfl rfl (ix3 b ⟨f.val - 16, by omega⟩ e) (fun ax hax => by
    match ax with
    | ⟨0, _⟩ => rfl
    | ⟨1, _⟩ => exact absurd rfl hax
    | ⟨2, _⟩ => rfl) (by
    show f.val - 16 + 16 = f.val
    omega)

/-- Sixteen unit pieces along axis 1 at field n: piece n. -/
theorem concat16_apply {α : Type} (u0 u1 u2 u3 u4 u5 u6 u7 u8 u9 u10 u11 u12 u13 u14 u15 : S4096x1x64.Idx → α)
    (h : Shape.Concatenates [S4096x1x64, S4096x1x64, S4096x1x64, S4096x1x64, S4096x1x64, S4096x1x64, S4096x1x64, S4096x1x64, S4096x1x64, S4096x1x64, S4096x1x64, S4096x1x64, S4096x1x64, S4096x1x64, S4096x1x64, S4096x1x64] S4096x16x64 1)
    (b : Fin 4096) (n : Fin 16) (e : Fin 64) :
    concatenate S4096x16x64 1 [⟨S4096x1x64, u0⟩, ⟨S4096x1x64, u1⟩, ⟨S4096x1x64, u2⟩, ⟨S4096x1x64, u3⟩, ⟨S4096x1x64, u4⟩, ⟨S4096x1x64, u5⟩, ⟨S4096x1x64, u6⟩, ⟨S4096x1x64, u7⟩, ⟨S4096x1x64, u8⟩, ⟨S4096x1x64, u9⟩, ⟨S4096x1x64, u10⟩, ⟨S4096x1x64, u11⟩, ⟨S4096x1x64, u12⟩, ⟨S4096x1x64, u13⟩, ⟨S4096x1x64, u14⟩, ⟨S4096x1x64, u15⟩] h (ix3 b n e)
      = (![u0, u1, u2, u3, u4, u5, u6, u7, u8, u9, u10, u11, u12, u13, u14, u15] : Fin 16 → S4096x1x64.Idx → α) n (ix3 b (0 : Fin 1) e) :=
  concatenate_ofFn_unit_apply (t := S4096x16x64) (s₁ := S4096x1x64) 1 (![u0, u1, u2, u3, u4, u5, u6, u7, u8, u9, u10, u11, u12, u13, u14, u15] : Fin 16 → S4096x1x64.Idx → α) h rfl rfl (ix3 b n e) n rfl
    (ix3 b (0 : Fin 1) e) (fun ax hax => by
      match ax with
      | ⟨0, _⟩ => rfl
      | ⟨1, _⟩ => exact absurd rfl hax
      | ⟨2, _⟩ => rfl)

/-- Ten unit pieces along axis 1 at field n: piece n. -/
theorem concat10_apply {α : Type} (u0 u1 u2 u3 u4 u5 u6 u7 u8 u9 : S4096x1x64.Idx → α)
    (h : Shape.Concatenates [S4096x1x64, S4096x1x64, S4096x1x64, S4096x1x64, S4096x1x64, S4096x1x64, S4096x1x64, S4096x1x64, S4096x1x64, S4096x1x64] S4096x10x64 1)
    (b : Fin 4096) (n : Fin 10) (e : Fin 64) :
    concatenate S4096x10x64 1 [⟨S4096x1x64, u0⟩, ⟨S4096x1x64, u1⟩, ⟨S4096x1x64, u2⟩, ⟨S4096x1x64, u3⟩, ⟨S4096x1x64, u4⟩, ⟨S4096x1x64, u5⟩, ⟨S4096x1x64, u6⟩, ⟨S4096x1x64, u7⟩, ⟨S4096x1x64, u8⟩, ⟨S4096x1x64, u9⟩] h (ix3 b n e)
      = (![u0, u1, u2, u3, u4, u5, u6, u7, u8, u9] : Fin 10 → S4096x1x64.Idx → α) n (ix3 b (0 : Fin 1) e) :=
  concatenate_ofFn_unit_apply (t := S4096x10x64) (s₁ := S4096x1x64) 1 (![u0, u1, u2, u3, u4, u5, u6, u7, u8, u9] : Fin 10 → S4096x1x64.Idx → α) h rfl rfl (ix3 b n e) n rfl
    (ix3 b (0 : Fin 1) e) (fun ax hax => by
      match ax with
      | ⟨0, _⟩ => rfl
      | ⟨1, _⟩ => exact absurd rfl hax
      | ⟨2, _⟩ => rfl)

/-- The first sixteen fields of the reference's result. -/
theorem res312_apply (V0 : Valuation τ sig (Elt F)) (b : Fin 4096) (f : Fin 26) (e : Fin 64) (hf : f.val < 16)
    (hx : ((V0 (Proc.devRef .tc main_arg0) : IVec S4096x26 32) (ix2 b f)).toNat ≤ 99999) :
    res_main_v312 V0 (ix3 b ⟨f.val, hf⟩ e)
      = (V0 (Proc.devRef .tc main_arg1) : FVec F S26x100001x64 .f32)
          (ix3 f ⟨((V0 (Proc.devRef .tc main_arg0) : IVec S4096x26 32) (ix2 b f)).toNat, by omega⟩ e) := by
  unfold res_main_v312
  refine (concat16_apply _ _ _ _ _ _ _ _ _ _ _ _ _ _ _ _ _ b ⟨f.val, hf⟩ e).trans ?_
  obtain ⟨fv, hfv⟩ := f
  simp only at hf
  interval_cases fv
  · exact piece_apply _ _ 0 (by omega) slices_S26x100001x64_S1x100001x64_0_0_0 shapeCasts_S1x100001x64_S100001x64 slices_S4096x26_S4096x1_0_0 shapeCasts_S4096x1_S4096 bcast_S_S4096 bcast_S4096_S4096x1_0 bcast_S4096x64_S4096x1x64_0_2 b 0 e hx
  · exact piece_apply _ _ 1 (by omega) slices_S26x100001x64_S1x100001x64_1_0_0 shapeCasts_S1x100001x64_S100001x64 slices_S4096x26_S4096x1_0_1 shapeCasts_S4096x1_S4096 bcast_S_S4096 bcast_S4096_S4096x1_0 bcast_S4096x64_S4096x1x64_0_2 b 0 e hx
  · exact piece_apply _ _ 2 (by omega) slices_S26x100001x64_S1x100001x64_2_0_0 shapeCasts_S1x100001x64_S100001x64 slices_S4096x26_S4096x1_0_2 shapeCasts_S4096x1_S4096 bcast_S_S4096 bcast_S4096_S4096x1_0 bcast_S4096x64_S4096x1x64_0_2 b 0 e hx
  · exact piece_apply _ _ 3 (by omega) slices_S26x100001x64_S1x100001x64_3_0_0 shapeCasts_S1x100001x64_S100001x64 slices_S4096x26_S4096x1_0_3 shapeCasts_S4096x1_S4096 bcast_S_S4096 bcast_S4096_S4096x1_0 bcast_S4096x64_S4096x1x64_0_2 b 0 e hx
  · exact piece_apply _ _ 4 (by omega) slices_S26x100001x64_S1x100001x64_4_0_0 shapeCasts_S1x100001x64_S100001x64 slices_S4096x26_S4096x1_0_4 shapeCasts_S4096x1_S4096 bcast_S_S4096 bcast_S4096_S4096x1_0 bcast_S4096x64_S4096x1x64_0_2 b 0 e hx
  · exact piece_apply _ _ 5 (by omega) slices_S26x100001x64_S1x100001x64_5_0_0 shapeCasts_S1x100001x64_S100001x64 slices_S4096x26_S4096x1_0_5 shapeCasts_S4096x1_S4096 bcast_S_S4096 bcast_S4096_S4096x1_0 bcast_S4096x64_S4096x1x64_0_2 b 0 e hx
  · exact piece_apply _ _ 6 (by omega) slices_S26x100001x64_S1x100001x64_6_0_0 shapeCasts_S1x100001x64_S100001x64 slices_S4096x26_S4096x1_0_6 shapeCasts_S4096x1_S4096 bcast_S_S4096 bcast_S4096_S4096x1_0 bcast_S4096x64_S4096x1x64_0_2 b 0 e hx
  · exact piece_apply _ _ 7 (by omega) slices_S26x100001x64_S1x100001x64_7_0_0 shapeCasts_S1x100001x64_S100001x64 slices_S4096x26_S4096x1_0_7 shapeCasts_S4096x1_S4096 bcast_S_S4096 bcast_S4096_S4096x1_0 bcast_S4096x64_S4096x1x64_0_2 b 0 e hx
  · exact piece_apply _ _ 8 (by omega) slices_S26x100001x64_S1x100001x64_8_0_0 shapeCasts_S1x100001x64_S100001x64 slices_S4096x26_S4096x1_0_8 shapeCasts_S4096x1_S4096 bcast_S_S4096 bcast_S4096_S4096x1_0 bcast_S4096x64_S4096x1x64_0_2 b 0 e hx
  · exact piece_apply _ _ 9 (by omega) slices_S26x100001x64_S1x100001x64_9_0_0 shapeCasts_S1x100001x64_S100001x64 slices_S4096x26_S4096x1_0_9 shapeCasts_S4096x1_S4096 bcast_S_S4096 bcast_S4096_S4096x1_0 bcast_S4096x64_S4096x1x64_0_2 b 0 e hx
  · exact piece_apply _ _ 10 (by omega) slices_S26x100001x64_S1x100001x64_10_0_0 shapeCasts_S1x100001x64_S100001x64 slices_S4096x26_S4096x1_0_10 shapeCasts_S4096x1_S4096 bcast_S_S4096 bcast_S4096_S4096x1_0 bcast_S4096x64_S4096x1x64_0_2 b 0 e hx
  · exact piece_apply _ _ 11 (by omega) slices_S26x100001x64_S1x100001x64_11_0_0 shapeCasts_S1x100001x64_S100001x64 slices_S4096x26_S4096x1_0_11 shapeCasts_S4096x1_S4096 bcast_S_S4096 bcast_S4096_S4096x1_0 bcast_S4096x64_S4096x1x64_0_2 b 0 e hx
  · exact piece_apply _ _ 12 (by omega) slices_S26x100001x64_S1x100001x64_12_0_0 shapeCasts_S1x100001x64_S100001x64 slices_S4096x26_S4096x1_0_12 shapeCasts_S4096x1_S4096 bcast_S_S4096 bcast_S4096_S4096x1_0 bcast_S4096x64_S4096x1x64_0_2 b 0 e hx
  · exact piece_apply _ _ 13 (by omega) slices_S26x100001x64_S1x100001x64_13_0_0 shapeCasts_S1x100001x64_S100001x64 slices_S4096x26_S4096x1_0_13 shapeCasts_S4096x1_S4096 bcast_S_S4096 bcast_S4096_S4096x1_0 bcast_S4096x64_S4096x1x64_0_2 b 0 e hx
  · exact piece_apply _ _ 14 (by omega) slices_S26x100001x64_S1x100001x64_14_0_0 shapeCasts_S1x100001x64_S100001x64 slices_S4096x26_S4096x1_0_14 shapeCasts_S4096x1_S4096 bcast_S_S4096 bcast_S4096_S4096x1_0 bcast_S4096x64_S4096x1x64_0_2 b 0 e hx
  · exact piece_apply _ _ 15 (by omega) slices_S26x100001x64_S1x100001x64_15_0_0 shapeCasts_S1x100001x64_S100001x64 slices_S4096x26_S4096x1_0_15 shapeCasts_S4096x1_S4096 bcast_S_S4096 bcast_S4096_S4096x1_0 bcast_S4096x64_S4096x1x64_0_2 b 0 e hx

/-- The last ten fields of the reference's result. -/
theorem res313_apply (V0 : Valuation τ sig (Elt F)) (b : Fin 4096) (f : Fin 26) (e : Fin 64) (hf : 16 ≤ f.val)
    (hx : ((V0 (Proc.devRef .tc main_arg0) : IVec S4096x26 32) (ix2 b f)).toNat ≤ 99999) :
    res_main_v313 V0 (ix3 b ⟨f.val - 16, by omega⟩ e)
      = (V0 (Proc.devRef .tc main_arg1) : FVec F S26x100001x64 .f32)
          (ix3 f ⟨((V0 (Proc.devRef .tc main_arg0) : IVec S4096x26 32) (ix2 b f)).toNat, by omega⟩ e) := by
  unfold res_main_v313
  refine (concat10_apply _ _ _ _ _ _ _ _ _ _ _ b ⟨f.val - 16, by omega⟩ e).trans ?_
  obtain ⟨fv, hfv⟩ := f
  simp only at hf
  interval_cases fv
  · exact piece_apply _ _ 16 (by omega) slices_S26x100001x64_S1x100001x64_16_0_0 shapeCasts_S1x100001x64_S100001x64 slices_S4096x26_S4096x1_0_16 shapeCasts_S4096x1_S4096 bcast_S_S4096 bcast_S4096_S4096x1_0 bcast_S4096x64_S4096x1x64_0_2 b 0 e hx
  · exact piece_apply _ _ 17 (by omega) slices_S26x100001x64_S1x100001x64_17_0_0 shapeCasts_S1x100001x64_S100001x64 slices_S4096x26_S4096x1_0_17 shapeCasts_S4096x1_S4096 bcast_S_S4096 bcast_S4096_S4096x1_0 bcast_S4096x64_S4096x1x64_0_2 b 0 e hx
  · exact piece_apply _ _ 18 (by omega) slices_S26x100001x64_S1x100001x64_18_0_0 shapeCasts_S1x100001x64_S100001x64 slices_S4096x26_S4096x1_0_18 shapeCasts_S4096x1_S4096 bcast_S_S4096 bcast_S4096_S4096x1_0 bcast_S4096x64_S4096x1x64_0_2 b 0 e hx
  · exact piece_apply _ _ 19 (by omega) slices_S26x100001x64_S1x100001x64_19_0_0 shapeCasts_S1x100001x64_S100001x64 slices_S4096x26_S4096x1_0_19 shapeCasts_S4096x1_S4096 bcast_S_S4096 bcast_S4096_S4096x1_0 bcast_S4096x64_S4096x1x64_0_2 b 0 e hx
  · exact piece_apply _ _ 20 (by omega) slices_S26x100001x64_S1x100001x64_20_0_0 shapeCasts_S1x100001x64_S100001x64 slices_S4096x26_S4096x1_0_20 shapeCasts_S4096x1_S4096 bcast_S_S4096 bcast_S4096_S4096x1_0 bcast_S4096x64_S4096x1x64_0_2 b 0 e hx
  · exact piece_apply _ _ 21 (by omega) slices_S26x100001x64_S1x100001x64_21_0_0 shapeCasts_S1x100001x64_S100001x64 slices_S4096x26_S4096x1_0_21 shapeCasts_S4096x1_S4096 bcast_S_S4096 bcast_S4096_S4096x1_0 bcast_S4096x64_S4096x1x64_0_2 b 0 e hx
  · exact piece_apply _ _ 22 (by omega) slices_S26x100001x64_S1x100001x64_22_0_0 shapeCasts_S1x100001x64_S100001x64 slices_S4096x26_S4096x1_0_22 shapeCasts_S4096x1_S4096 bcast_S_S4096 bcast_S4096_S4096x1_0 bcast_S4096x64_S4096x1x64_0_2 b 0 e hx
  · exact piece_apply _ _ 23 (by omega) slices_S26x100001x64_S1x100001x64_23_0_0 shapeCasts_S1x100001x64_S100001x64 slices_S4096x26_S4096x1_0_23 shapeCasts_S4096x1_S4096 bcast_S_S4096 bcast_S4096_S4096x1_0 bcast_S4096x64_S4096x1x64_0_2 b 0 e hx
  · exact piece_apply _ _ 24 (by omega) slices_S26x100001x64_S1x100001x64_24_0_0 shapeCasts_S1x100001x64_S100001x64 slices_S4096x26_S4096x1_0_24 shapeCasts_S4096x1_S4096 bcast_S_S4096 bcast_S4096_S4096x1_0 bcast_S4096x64_S4096x1x64_0_2 b 0 e hx
  · exact piece_apply _ _ 25 (by omega) slices_S26x100001x64_S1x100001x64_25_0_0 shapeCasts_S1x100001x64_S100001x64 slices_S4096x26_S4096x1_0_25 shapeCasts_S4096x1_S4096 bcast_S_S4096 bcast_S4096_S4096x1_0 bcast_S4096x64_S4096x1x64_0_2 b 0 e hx

/-- THE REFERENCE'S RESULT AT AN INDEX: row x[b, f] of table f, at column e, for index words between 0 and 99999. -/
theorem result_apply (V0 : Valuation τ sig (Elt F))
    (hx : ∀ i : S4096x26.Idx, ((V0 (Proc.devRef .tc main_arg0) : IVec S4096x26 32) i).toNat ≤ 99999)
    (b : Fin 4096) (f : Fin 26) (e : Fin 64) :
    concatenate S4096x26x64 1 [⟨S4096x16x64, (res_main_v312 V0)⟩, ⟨S4096x10x64, (res_main_v313 V0)⟩] concatenates_S4096x16x64_S4096x10x64_S4096x26x64_d1 (ix3 b f e)
      = (V0 (Proc.devRef .tc main_arg1) : FVec F S26x100001x64 .f32)
          (ix3 f ⟨((V0 (Proc.devRef .tc main_arg0) : IVec S4096x26 32) (ix2 b f)).toNat, by have := hx (ix2 b f); omega⟩ e) := by
  by_cases hf : f.val < 16
  · exact (concat_pair_left _ _ _ b f e hf).trans (res312_apply V0 b f e hf (hx _))
  · exact (concat_pair_right _ _ _ b f e (by omega)).trans (res313_apply V0 b f e (by omega) (hx _))

end Cert.Proof.RefValue

end
-- ==== Proof.PreIndex.lean ====
/-
  The input-domain precondition, read back at one index.

  The precondition is the conjunction of two whole-array tests: every table entry has finite
  magnitude, and every index word `v` of `x` satisfies `0 ≤ v` and `v ≤ 99999` as a SIGNED 32-bit
  word. Each whole-array test is a reduction by `and` over all axes starting from 1, so when the
  result is 1 every element of the reduced array is 1. At an index `i` that says
  `(0 ≤ x i) ∧ (x i ≤ 99999)` signed; a signed word that is nonnegative is its own unsigned value,
  hence `(x i).toNat ≤ 99999`: every index addresses one of the 100000 rows `0 … 99999` of a table
  with 100001 rows.
-/
import proofs.«206583_g19980187861832_cont_8to1_303_35_alg».proof.Pre_input_domain
import proofs.«206583_g19980187861832_cont_8to1_303_35_alg».proof.Proof.Gen.Pre_input_domain
import Idealize.ShloMosaic.Lib.ReduceAll

namespace Cert.Proof.PreIndex

open Idealize.ShloMosaic

/-- The rank-0 shape has exactly one index (the empty tuple). -/
instance subsingleton_scalar_idx : Subsingleton Cert.Pre_input_domain.S_.Idx :=
  ⟨fun a b => funext fun d => d.elim0⟩

/-- A 32-bit word that is `≥ 0` and `≤ 99999` as a signed number has unsigned value at most 99999:
    nonnegative signed means the top bit is clear, so the signed and unsigned readings agree. -/
theorem toNat_le_of_signed_range (v : BitVec 32)
    (e : IntOp.andi (IntOp.cmpi .sge v 0#32) (IntOp.cmpi .sle v 99999#32) = 1#1) : v.toNat ≤ 99999 := by
  obtain ⟨e0, e1⟩ := IntOp.andi_eq_one.1 e
  have h0 := IntOp.cmpi_sge.1 e0
  have h1 := IntOp.cmpi_sle.1 e1
  simp only [BitVec.toInt_eq_toNat_cond, BitVec.toNat_ofNat, Nat.reducePow, Nat.reduceMod] at h0 h1
  omega

/-- Under the input-domain precondition every index word of `x` is at most 99999 (unsigned). -/
theorem index_le_of_pre {F : FTy → Type} [FloatOps F] [Cert.Pre_input_domain.Facts]
    (x : IVec Cert.Pre_input_domain.S4096x26 32) (t : FVec F Cert.Pre_input_domain.S26x100001x64 .f32)
    (h : Cert.Pre_input_domain.fn (F := F) x t = fun _ => 1#1) :
    ∀ i : Cert.Pre_input_domain.S4096x26.Idx, (x i).toNat ≤ 99999 := by
  intro i
  -- the scalar result at its one index
  have e := congrFun h (fun d => d.elim0)
  dsimp only [Cert.Pre_input_domain.fn] at e
  -- the outer conjunction: keep the integer half
  obtain ⟨-, e2⟩ := IntOp.andi_eq_one.1 e
  -- "all" over the index array: the test holds at `i`
  have e3 := Host.reduce_andi_all _ _ _ _ _ e2 i
  exact toNat_le_of_signed_range (x i) e3

end Cert.Proof.PreIndex
-- ==== Proof.lean ====
/- The proof of `Cert.Claim`: a table lookup on the SparseCore against the same lookup on the host.

   For an index array `x : [4096, 26]` with every word in `[0, 99999]` and stacked tables `t : [26, 100001, 64]` both programs
   return `out[b, f, e] = t[f, x[b, f], e]`. The kernel's program re-lays the tables as 1664 rows (field, embedding
   coordinate) of 100001 columns and the indices as 26 stretches of 4096 words; each of the 32 vector subcores takes
   every 32nd row, fetches the row and the row's field's indices into its scratch, gathers the row at the indices
   sixteen lanes at a time, and writes the gathered row out; the program then re-lays the 1664 x 4096 result as
   [4096, 26, 64]. The frames come from the launch theorem over the subcores' task proof; the values from reading the
   re-layouts at an index on one side and the reference's slices, gathers and concatenations on the other. -/
import proofs.«206583_g19980187861832_cont_8to1_303_35_alg».proof.Defs
import proofs.«206583_g19980187861832_cont_8to1_303_35_alg».proof.Proof.Gen.Kernel
import proofs.«206583_g19980187861832_cont_8to1_303_35_alg».proof.Proof.Gen.Kernel.Skeleton
import proofs.«206583_g19980187861832_cont_8to1_303_35_alg».proof.Proof.Gen.KernelIdeal
import proofs.«206583_g19980187861832_cont_8to1_303_35_alg».proof.Proof.Gen.KernelIdeal.Skeleton
import proofs.«206583_g19980187861832_cont_8to1_303_35_alg».proof.Proof.Gen.ReferenceIdeal
import proofs.«206583_g19980187861832_cont_8to1_303_35_alg».proof.Proof.Gen.Pre_input_domain
import proofs.«206583_g19980187861832_cont_8to1_303_35_alg».proof.Proof.Gen.ReferenceIdeal.Run
import proofs.«206583_g19980187861832_cont_8to1_303_35_alg».proof.Proof.KiBridge
import proofs.«206583_g19980187861832_cont_8to1_303_35_alg».proof.Proof.KbBridge
import proofs.«206583_g19980187861832_cont_8to1_303_35_alg».proof.Proof.RefValue
import proofs.«206583_g19980187861832_cont_8to1_303_35_alg».proof.Proof.PreIndex
import Idealize.ShloMosaic.Adequacy
import Idealize.ShloMosaic.Init

noncomputable section

namespace Cert.Proof

open Idealize.ShloMosaic Idealize.SL.Sem
open Idealize.ShloMosaic.ValueIdx (ix2 ix3)

/-- The kernel's program runs and leaves its arguments unchanged: its run with the result dropped. The precondition
    gives that every index word names a table column. -/
theorem frame_k : Cert.frame_Kernel := fun m ρ hpre =>
  (θ_run Cert.Kernel.defs _ _).mono (fun _ h c => ⟨(h c).2.1, (h c).2.2⟩)
    (Cert.Proof.KB.run_main (F := Bits) m ρ (Cert.Proof.KB.XcM_le m fun d i => Cert.Proof.PreIndex.index_le_of_pre _ _ (hpre d) i))

theorem frame_ki : Cert.frame_KernelIdeal := fun m ρ hpre =>
  (θ_run Cert.KernelIdeal.defs _ _).mono (fun _ h c => ⟨(h c).2.1, (h c).2.2⟩)
    (Cert.Proof.KI.run_main (F := Ideal) m ρ (Cert.Proof.KI.XcM_le m fun d i => Cert.Proof.PreIndex.index_le_of_pre _ _ (hpre d) i))

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Equal index arrays and equal tables give the same looked-up entry. -/
theorem lookup_congr {x x' : IVec Cert.KernelIdeal.S4096x26 32} {t t' : FVec Ideal Cert.KernelIdeal.S26x100001x64 .f32} (hx : x' = x) (ht : t' = t)
    (b : Fin 4096) (f : Fin 26) (e : Fin 64) (h : (x (ix2 b f)).toNat < 100001) (h' : (x' (ix2 b f)).toNat < 100001) :
    t' (ix3 f (⟨(x' (ix2 b f)).toNat, h'⟩ : Fin 100001) e) = t (ix3 f (⟨(x (ix2 b f)).toNat, h⟩ : Fin 100001) e) := by
  subst hx ht; rfl

/-- At the ideal instance both programs' results are the looked-up embeddings, entry by entry. -/
theorem algebraic : Cert.algebraic_KernelIdeal_ReferenceIdeal := by
  intro m ρ m' ρ' hpre hagree
  have hx : ∀ (d : Dev Cert.KernelIdeal.nD) (i : Cert.KernelIdeal.S4096x26.Idx),
      ((m ((SparseCore.T d).loc Cert.KernelIdeal.main_arg0) : Vec Ideal Cert.KernelIdeal.S4096x26 .i32) i).toNat ≤ 99999 :=
    fun d i => Cert.Proof.PreIndex.index_le_of_pre _ _ (hpre d) i
  refine ⟨fun c => Cert.Proof.KI.V7 m c Cert.Proof.KI.v6', ?_, ?_⟩
  · exact (θ_run Cert.KernelIdeal.defs _ _).mono (fun _ h c => h c) (Cert.Proof.KI.run_main (F := Ideal) m ρ (Cert.Proof.KI.XcM_le m hx))
  · refine (θ_run Cert.ReferenceIdeal.defs _ _).mono (fun _ h c => ⟨(h c).1.trans ?_, (h c).2⟩)
      (Cert.ReferenceIdeal.Value.run (F := Ideal) m' ρ')
    funext i
    obtain ⟨b, f, e, rfl⟩ : ∃ (b : Fin 4096) (f : Fin 26) (e : Fin 64), i = ix3 b f e := ⟨i 0, i 1, i 2, ValueIdx.eq_ix3 i⟩
    have e0 : StableHlo.launchContents m' c (Proc.devRef .tc Cert.ReferenceIdeal.main_arg0) = m ((SparseCore.T c).loc Cert.KernelIdeal.main_arg0) := (hagree c).1
    have e1 : StableHlo.launchContents m' c (Proc.devRef .tc Cert.ReferenceIdeal.main_arg1) = m ((SparseCore.T c).loc Cert.KernelIdeal.main_arg1) := (hagree c).2
    have hx' : ∀ i : Cert.ReferenceIdeal.S4096x26.Idx,
        ((StableHlo.launchContents m' c (Proc.devRef .tc Cert.ReferenceIdeal.main_arg0) : IVec Cert.ReferenceIdeal.S4096x26 32) i).toNat ≤ 99999 := by
      intro i; rw [e0]; exact hx c i
    rw [Cert.Proof.RefValue.result_apply (StableHlo.launchContents m' c) hx' b f e]
    refine (lookup_congr e0 e1 b f e (by have := hx c (ix2 b f); omega) (by have := hx' (ix2 b f); omega)).trans ?_
    exact (Cert.Proof.KI.result_apply m hx c b f e).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
